-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S64x128 .f32) (main_arg9 : FVec F S64 .f32) (main_arg10 : FVec F S64x128 .f32) (main_v33 : IVec S_ 1) : IVec S_ 1 :=
  let main_v34 : FVec F S64x128 .f32 := Host.absf main_arg8
  let main_cst_12 : FVec F S_ .f32 := constant S_ .f32 0x7F800000#32
  let main_v35 : FVec F S64x128 .f32 := broadcastInDim S64x128 ![] bcast_S_S64x128 main_cst_12
  let main_v36 : IVec S64x128 1 := cmpf .olt main_v34 main_v35
  let main_c_13 : IVec S_ 1 := constantI S_ 1 1#1
  let main_v37 : IVec S_ 1 := (fun x v => Host.reduce IntOp.andi x v reducesTo_S64x128_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x128 .f32 := Host.absf main_arg10
  let main_cst_16 : FVec F S_ .f32 := constant S_ .f32 0x7F800000#32
  let main_v45 : FVec F S64x128 .f32 := broadcastInDim S64x128 ![] bcast_S_S64x128 main_cst_16
  let main_v46 : IVec S64x128 1 := cmpf .olt main_v44 main_v45
  let main_c_17 : IVec S_ 1 := constantI S_ 1 1#1
  let main_v47 : IVec S_ 1 := (fun x v => Host.reduce IntOp.andi x v reducesTo_S64x128_S_d0_1 h_S_) main_v46 main_c_17
  let main_v48 : IVec S_ 1 := andi main_v43 main_v47
  main_v48

def fn_part1 {F : FTy → Type} [FloatOps F] (main_arg5 : FVec F S128x128 .f32) (main_arg6 : FVec F S128 .f32) (main_arg7 : FVec F S128x128 .f32) (main_arg8 : FVec F S64x128 .f32) (main_arg9 : FVec F S64 .f32) (main_arg10 : FVec F S64x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S100000x128 .f32) (main_arg1 : IVec S2x600000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S64x128 .f32) (main_arg9 : FVec F S64 .f32) (main_arg10 : FVec F S64x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_v13 main_v16
-- ==== Kernel.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x600000 : Shape := ⟨2, ![1, 600000]⟩
abbrev S600000 : Shape := ⟨1, ![600000]⟩
abbrev S_ : Shape := ⟨0, ![]⟩
abbrev S100000 : Shape := ⟨1, ![100000]⟩
abbrev S600000x1 : Shape := ⟨2, ![600000, 1]⟩
abbrev S100000x1 : Shape := ⟨2, ![100000, 1]⟩
abbrev S600000x128 : Shape := ⟨2, ![600000, 128]⟩
abbrev S4000x128 : Shape := ⟨2, ![4000, 128]⟩
abbrev S4000x1 : Shape := ⟨2, ![4000, 1]⟩
abbrev S1x128 : Shape := ⟨2, ![1, 128]⟩
abbrev S128x64 : Shape := ⟨2, ![128, 64]⟩
abbrev S100000x64 : Shape := ⟨2, ![100000, 64]⟩
abbrev S4000x64 : Shape := ⟨2, ![4000, 64]⟩
abbrev S600000x64 : Shape := ⟨2, ![600000, 64]⟩
abbrev S1x64 : Shape := ⟨2, ![1, 64]⟩

abbrev nBuf : Space → Nat
  | .hbm => 76
  | .vmem => 35
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S64x128, .f32⟩
  | .hbm, ⟨9, _⟩ => ⟨S64, .f32⟩
  | .hbm, ⟨10, _⟩ => ⟨S64x128, .f32⟩
  | .hbm, ⟨11, _⟩ => ⟨S1x600000, .i32⟩
  | .hbm, ⟨12, _⟩ => ⟨S600000, .i32⟩
  | .hbm, ⟨13, _⟩ => ⟨S1x600000, .i32⟩
  | .hbm, ⟨14, _⟩ => ⟨S600000, .i32⟩
  | .hbm, ⟨15, _⟩ => ⟨S_, .f32⟩
  | .hbm, ⟨16, _⟩ => ⟨S600000, .f32⟩
  | .hbm, ⟨17, _⟩ => ⟨S_, .f32⟩
  | .hbm, ⟨18, _⟩ => ⟨S100000, .f32⟩
  | .hbm, ⟨19, _⟩ => ⟨S600000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .i32⟩
  | .hbm, ⟨26, _⟩ => ⟨S600000, .i32⟩
  | .hbm, ⟨27, _⟩ => ⟨S600000, .i1⟩
  | .hbm, ⟨28, _⟩ => ⟨S_, .i32⟩
  | .hbm, ⟨29, _⟩ => ⟨S600000, .i32⟩
  | .hbm, ⟨30, _⟩ => ⟨S600000, .i32⟩
  | .hbm, ⟨31, _⟩ => ⟨S600000, .i32⟩
  | .hbm, ⟨32, _⟩ => ⟨S600000x1, .i32⟩
  | .hbm, ⟨33, _⟩ => ⟨S600000x128, .f32⟩
  | .hbm, ⟨34, _⟩ => ⟨S_, .f32⟩
  | .hbm, ⟨35, _⟩ => ⟨S100000x128, .f32⟩
  | .hbm, ⟨36, _⟩ => ⟨S600000x1, .i32⟩
  | .hbm, ⟨37, _⟩ => ⟨S100000x128, .f32⟩
  | .hbm, ⟨38, _⟩ => ⟨S128x128, .f32⟩
  | .hbm, ⟨39, _⟩ => ⟨S128x128, .f32⟩
  | .hbm, ⟨40, _⟩ => ⟨S100000x128, .bf16⟩
  | .hbm, ⟨41, _⟩ => ⟨S_, .i32⟩
  | .hbm, ⟨42, _⟩ => ⟨S600000, .i32⟩
  | .hbm, ⟨43, _⟩ => ⟨S600000, .i1⟩
  | .hbm, ⟨44, _⟩ => ⟨S_, .i32⟩
  | .hbm, ⟨45, _⟩ => ⟨S600000, .i32⟩
  | .hbm, ⟨46, _⟩ => ⟨S600000, .i32⟩
  | .hbm, ⟨47, _⟩ => ⟨S600000, .i32⟩
  | .hbm, ⟨48, _⟩ => ⟨S600000x1, .i32⟩
  | .hbm, ⟨49, _⟩ => ⟨S600000x128, .bf16⟩
  | .hbm, ⟨50, _⟩ => ⟨S600000x128, .f32⟩
  | .hbm, ⟨51, _⟩ => ⟨S_, .f32⟩
  | .hbm, ⟨52, _⟩ => ⟨S100000x128, .f32⟩
  | .hbm, ⟨53, _⟩ => ⟨S600000x1, .i32⟩
  | .hbm, ⟨54, _⟩ => ⟨S100000x128, .f32⟩
  | .hbm, ⟨55, _⟩ => ⟨S128x128, .f32⟩
  | .hbm, ⟨56, _⟩ => ⟨S128x128, .f32⟩
  | .hbm, ⟨57, _⟩ => ⟨S128x64, .f32⟩
  | .hbm, ⟨58, _⟩ => ⟨S100000x128, .bf16⟩
  | .hbm, ⟨59, _⟩ => ⟨S100000x64, .bf16⟩
  | .hbm, ⟨60, _⟩ => ⟨S_, .i32⟩
  | .hbm, ⟨61, _⟩ => ⟨S600000, .i32⟩
  | .hbm, ⟨62, _⟩ => ⟨S600000, .i1⟩
  | .hbm, ⟨63, _⟩ => ⟨S_, .i32⟩
  | .hbm, ⟨64, _⟩ => ⟨S600000, .i32⟩
  | .hbm, ⟨65, _⟩ => ⟨S600000, .i32⟩
  | .hbm, ⟨66, _⟩ => ⟨S600000, .i32⟩
  | .hbm, ⟨67, _⟩ => ⟨S600000x1, .i32⟩
  | .hbm, ⟨68, _⟩ => ⟨S600000x64, .bf16⟩
  | .hbm, ⟨69, _⟩ => ⟨S600000x64, .f32⟩
  | .hbm, ⟨70, _⟩ => ⟨S_, .f32⟩
  | .hbm, ⟨71, _⟩ => ⟨S100000x64, .f32⟩
  | .hbm, ⟨72, _⟩ => ⟨S600000x1, .i32⟩
  | .hbm, ⟨73, _⟩ => ⟨S100000x64, .f32⟩
  | .hbm, ⟨74, _⟩ => ⟨S128x64, .f32⟩
  | .hbm, ⟨75, _⟩ => ⟨S100000x64, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x1, .f32⟩
  | .local _ .vmem, ⟨5, _⟩ => ⟨S4000x1, .f32⟩
  | .local _ .vmem, ⟨6, _⟩ => ⟨S128x128, .f32⟩
  | .local _ .vmem, ⟨7, _⟩ => ⟨S128, .f32⟩
  | .local _ .vmem, ⟨8, _⟩ => ⟨S128x128, .f32⟩
  | .local _ .vmem, ⟨9, _⟩ => ⟨S4000x128, .bf16⟩
  | .local _ .vmem, ⟨10, _⟩ => ⟨S4000x128, .bf16⟩
  | .local _ .vmem, ⟨11, _⟩ => ⟨S4000x128, .bf16⟩
  | .local _ .vmem, ⟨12, _⟩ => ⟨S4000x128, .bf16⟩
  | .local _ .vmem, ⟨13, _⟩ => ⟨S4000x128, .f32⟩
  | .local _ .vmem, ⟨14, _⟩ => ⟨S4000x128, .f32⟩
  | .local _ .vmem, ⟨15, _⟩ => ⟨S4000x1, .f32⟩
  | .local _ .vmem, ⟨16, _⟩ => ⟨S4000x1, .f32⟩
  | .local _ .vmem, ⟨17, _⟩ => ⟨S128x128, .f32⟩
  | .local _ .vmem, ⟨18, _⟩ => ⟨S128, .f32⟩
  | .local _ .vmem, ⟨19, _⟩ => ⟨S128x128, .f32⟩
  | .local _ .vmem, ⟨20, _⟩ => ⟨S128x64, .f32⟩
  | .local _ .vmem, ⟨21, _⟩ => ⟨S4000x128, .bf16⟩
  | .local _ .vmem, ⟨22, _⟩ => ⟨S4000x128, .bf16⟩
  | .local _ .vmem, ⟨23, _⟩ => ⟨S4000x64, .bf16⟩
  | .local _ .vmem, ⟨24, _⟩ => ⟨S4000x64, .bf16⟩
  | .local _ .vmem, ⟨25, _⟩ => ⟨S4000x128, .bf16⟩
  | .local _ .vmem, ⟨26, _⟩ => ⟨S4000x128, .bf16⟩
  | .local _ .vmem, ⟨27, _⟩ => ⟨S4000x64, .f32⟩
  | .local _ .vmem, ⟨28, _⟩ => ⟨S4000x64, .f32⟩
  | .local _ .vmem, ⟨29, _⟩ => ⟨S4000x1, .f32⟩
  | .local _ .vmem, ⟨30, _⟩ => ⟨S4000x1, .f32⟩
  | .local _ .vmem, ⟨31, _⟩ => ⟨S64, .f32⟩
  | .local _ .vmem, ⟨32, _⟩ => ⟨S128x64, .f32⟩
  | .local _ .vmem, ⟨33, _⟩ => ⟨S4000x64, .f32⟩
  | .local _ .vmem, ⟨34, _⟩ => ⟨S4000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_6 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38_0 : Ref sig .tc := ⟨.hbm, 58, rfl⟩
abbrev main_v38_1 : Ref sig .tc := ⟨.hbm, 59, rfl⟩
abbrev main_c_7 : Ref sig .tc := ⟨.hbm, 60, rfl⟩
abbrev main_v39 : Ref sig .tc := ⟨.hbm, 61, rfl⟩
abbrev main_v40 : Ref sig .tc := ⟨.hbm, 62, rfl⟩
abbrev main_c_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_9 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg7_1 : Ref sig .tc := ⟨.vmem, 22, rfl⟩
abbrev cc1_stg8_0 : Ref sig .tc := ⟨.vmem, 23, rfl⟩
abbrev cc1_stg8_1 : Ref sig .tc := ⟨.vmem, 24, rfl⟩
abbrev cc2_stg0_0 : Ref sig .tc := ⟨.vmem, 25, rfl⟩
abbrev cc2_stg0_1 : Ref sig .tc := ⟨.vmem, 26, rfl⟩
abbrev cc2_stg1_0 : Ref sig .tc := ⟨.vmem, 27, rfl⟩
abbrev cc2_stg1_1 : Ref sig .tc := ⟨.vmem, 28, rfl⟩
abbrev cc2_stg2_0 : Ref sig .tc := ⟨.vmem, 29, rfl⟩
abbrev cc2_stg2_1 : Ref sig .tc := ⟨.vmem, 30, rfl⟩
abbrev cc2_stg3_0 : Ref sig .tc := ⟨.vmem, 31, rfl⟩
abbrev cc2_stg4_0 : Ref sig .tc := ⟨.vmem, 32, rfl⟩
abbrev cc2_stg5_0 : Ref sig .tc := ⟨.vmem, 33, rfl⟩
abbrev cc2_stg5_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem7_1 : DmaSem sig := 22
abbrev cc1_sem8_0 : DmaSem sig := 23
abbrev cc1_sem8_1 : DmaSem sig := 24
abbrev cc2_sem0_0 : DmaSem sig := 25
abbrev cc2_sem0_1 : DmaSem sig := 26
abbrev cc2_sem1_0 : DmaSem sig := 27
abbrev cc2_sem1_1 : DmaSem sig := 28
abbrev cc2_sem2_0 : DmaSem sig := 29
abbrev cc2_sem2_1 : DmaSem sig := 30
abbrev cc2_sem3_0 : DmaSem sig := 31
abbrev cc2_sem4_0 : DmaSem sig := 32
abbrev cc2_sem5_0 : DmaSem sig := 33
abbrev cc2_sem5_1 : DmaSem sig := 34

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S4000x128 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S4000x64 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S100000 : S_.BroadcastsInDim S100000 (![] : Fin 0 → Fin S100000.rank)
  bcast_S600000_S600000x1_0 : S600000.BroadcastsInDim S600000x1 (![0] : Fin 1 → Fin S600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  transposes_S128x128_S128x128_1_0 : S128x128.Transposes [1, 0] S128x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  packedbf16_S4000x128_S4000x128_0_0 : (Rect.unit (s := S4000x128) ![0, 0] S4000x128.size inb_S4000x128_S4000x128_0_0).PackedRows (EltTy.packing .bf16)
  transposes_S64x128_S128x64_1_0 : S64x128.Transposes [1, 0] S128x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S4000x64_S4000x64_0_0 : ∀ a, (![0, 0] : Fin 2 → Nat) a + S4000x64.size a ≤ S4000x64.size a
  h_S4000x64 : 0 < S4000x64.numel
  packedbf16_S4000x64_S4000x64_0_0 : (Rect.unit (s := S4000x64) ![0, 0] S4000x64.size inb_S4000x64_S4000x64_0_0).PackedRows (EltTy.packing .bf16)
  bcast_S_S100000x64 : S_.BroadcastsInDim S100000x64 (![] : Fin 0 → Fin S100000x64.rank)
  shapeCasts_S4000x64_S4000x64 : S4000x64.ShapeCasts S4000x64
  broadcasts_S4000x1_S4000x64 : S4000x1.Broadcasts S4000x64
  inb_S64_S64_0 : ∀ a, (![0] : Fin 1 → Nat) a + S64.size a ≤ S64.size a
  h_S64 : 0 < S64.numel
  shapeCasts_S64_S1x64 : S64.ShapeCasts S1x64
  broadcasts_S1x64_S4000x64 : S1x64.Broadcasts S4000x64
  scatter_S100000_S600000x1_S600000_n_0_0_1_wf : ScatterDims.WF S100000 S600000x1 S600000 [] [0] [0] 1
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S4000x128_S128x128_S4000x128_1_0_0_1_n_n_wf : DotDims.WF S4000x128 S128x128 S4000x128 [1] [0] [0] [1] [] []
  dot_S4000x128_S128x64_S4000x64_1_0_0_1_n_n_wf : DotDims.WF S4000x128 S128x64 S4000x64 [1] [0] [0] [1] [] []
  gather_S100000x64_S600000x1_S600000x64_1_0_n_n_0_1_164_wf : GatherDims.WF S100000x64 S600000x1 S600000x64 [1] [0] [] [0] [] 1 ![1, 64]
  scatter_S100000x64_S600000x1_S600000x64_1_0_0_1_wf : ScatterDims.WF S100000x64 S600000x1 S600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x128.size a ≤ S100000x128.size a
  hwx0_6 : ∀ i : grid0.Coords, EltTy.bits .bf16 = 32 ∨ (Rect.block (s := S100000x128) S4000x128.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .bf16 = 32 ∨ (Rect.block (s := S100000x128) S4000x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S100000x1.size a
  hwx1_2 : ∀ i : grid1.Coords, EltTy.bits .f32 = 32 ∨ (Rect.block (s := S100000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x64.size a ≤ S128x64.size a
  hwx1_6 : ∀ i : grid1.Coords, EltTy.bits .f32 = 32 ∨ (Rect.block (s := S128x64) S128x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S4000x128.size a ≤ S100000x128.size a
  hwx1_7 : ∀ i : grid1.Coords, EltTy.bits .bf16 = 32 ∨ (Rect.block (s := S100000x128) S4000x128.size (cc1_transform_7 i) (hinb1_7 i)).WholeWords (EltTy.packing .bf16)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S4000x64.size a ≤ S100000x64.size a
  hwx1_8 : ∀ i : grid1.Coords, EltTy.bits .bf16 = 32 ∨ (Rect.block (s := S100000x64) S4000x64.size (cc1_transform_8 i) (hinb1_8 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .bf16 = 32 ∨ (Rect.block (s := S100000x128) S4000x128.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x64.size a ≤ S100000x64.size a
  hwx2_1 : ∀ i : grid2.Coords, EltTy.bits .f32 = 32 ∨ (Rect.block (s := S100000x64) S4000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x1.size a ≤ S100000x1.size a
  hwx2_2 : ∀ i : grid2.Coords, EltTy.bits .f32 = 32 ∨ (Rect.block (s := S100000x1) S4000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64.size a ≤ S64.size a
  hwx2_3 : ∀ i : grid2.Coords, EltTy.bits .f32 = 32 ∨ (Rect.block (s := S64) S64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x64.size a ≤ S128x64.size a
  hwx2_4 : ∀ i : grid2.Coords, EltTy.bits .f32 = 32 ∨ (Rect.block (s := S128x64) S128x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4000x64.size a ≤ S100000x64.size a
  hwx2_5 : ∀ i : grid2.Coords, EltTy.bits .f32 = 32 ∨ (Rect.block (s := S100000x64) S4000x64.size (cc2_transform_5 i) (hinb2_5 i)).WholeWords (EltTy.packing .f32)

variable [Facts₀]

def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def gather_S100000x64_S600000x1_S600000x64_1_0_n_n_0_1_164 : GatherDims S100000x64 S600000x1 S600000x64 where
  offsetDims := [1]
  collapsedSliceDims := [0]
  operandBatchingDims := []
  startIndicesBatchingDims := []
  startIndexMap := [0]
  indexVectorDim := 1
  sliceSizes := ![1, 64]
  wf := gather_S100000x64_S600000x1_S600000x64_1_0_n_n_0_1_164_wf
def scatter_S100000x64_S600000x1_S600000x64_1_0_0_1 : ScatterDims S100000x64 S600000x1 S600000x64 where
  updateWindowDims := [1]
  insertedWindowDims := [0]
  scatterDimsToOperandDims := [0]
  indexVectorDim := 1
  wf := scatter_S100000x64_S600000x1_S600000x64_1_0_0_1_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v23) S4000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v23) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v35) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v36) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v37) S128x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v38_0) S4000x128.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v38_1) S4000x64.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v38_0) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v49) S4000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v10) S4000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v50) S128x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v51) S4000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S100000 : Shape := ⟨1, ![100000]⟩
abbrev S100000x1 : Shape := ⟨2, ![100000, 1]⟩
abbrev S1x128 : Shape := ⟨2, ![1, 128]⟩
abbrev S128x64 : Shape := ⟨2, ![128, 64]⟩
abbrev S100000x64 : Shape := ⟨2, ![100000, 64]⟩
abbrev S1x64 : Shape := ⟨2, ![1, 64]⟩

abbrev nBuf : Space → Nat
  | .hbm => 120
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S64x128, .f32⟩
  | .hbm, ⟨9, _⟩ => ⟨S64, .f32⟩
  | .hbm, ⟨10, _⟩ => ⟨S64x128, .f32⟩
  | .hbm, ⟨11, _⟩ => ⟨S1x600000, .i32⟩
  | .hbm, ⟨12, _⟩ => ⟨S600000, .i32⟩
  | .hbm, ⟨13, _⟩ => ⟨S1x600000, .i32⟩
  | .hbm, ⟨14, _⟩ => ⟨S600000, .i32⟩
  | .hbm, ⟨15, _⟩ => ⟨S_, .i32⟩
  | .hbm, ⟨16, _⟩ => ⟨S600000, .i32⟩
  | .hbm, ⟨17, _⟩ => ⟨S600000, .i1⟩
  | .hbm, ⟨18, _⟩ => ⟨S_, .i32⟩
  | .hbm, ⟨19, _⟩ => ⟨S600000, .i32⟩
  | .hbm, ⟨20, _⟩ => ⟨S600000, .i32⟩
  | .hbm, ⟨21, _⟩ => ⟨S600000, .i32⟩
  | .hbm, ⟨22, _⟩ => ⟨S600000x1, .i32⟩
  | .hbm, ⟨23, _⟩ => ⟨S600000x128, .f32⟩
  | .hbm, ⟨24, _⟩ => ⟨S_, .f32⟩
  | .hbm, ⟨25, _⟩ => ⟨S100000x128, .f32⟩
  | .hbm, ⟨26, _⟩ => ⟨S600000x1, .i32⟩
  | .hbm, ⟨27, _⟩ => ⟨S100000x128, .f32⟩
  | .hbm, ⟨28, _⟩ => ⟨S_, .f32⟩
  | .hbm, ⟨29, _⟩ => ⟨S600000, .f32⟩
  | .hbm, ⟨30, _⟩ => ⟨S_, .f32⟩
  | .hbm, ⟨31, _⟩ => ⟨S100000, .f32⟩
  | .hbm, ⟨32, _⟩ => ⟨S600000x1, .i32⟩
  | .hbm, ⟨33, _⟩ => ⟨S100000, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S100000x1, .f32⟩
  | .hbm, ⟨38, _⟩ => ⟨S100000x128, .f32⟩
  | .hbm, ⟨39, _⟩ => ⟨S100000x128, .f32⟩
  | .hbm, ⟨40, _⟩ => ⟨S128x128, .f32⟩
  | .hbm, ⟨41, _⟩ => ⟨S100000x128, .f32⟩
  | .hbm, ⟨42, _⟩ => ⟨S1x128, .f32⟩
  | .hbm, ⟨43, _⟩ => ⟨S100000x128, .f32⟩
  | .hbm, ⟨44, _⟩ => ⟨S100000x128, .f32⟩
  | .hbm, ⟨45, _⟩ => ⟨S128x128, .f32⟩
  | .hbm, ⟨46, _⟩ => ⟨S100000x128, .f32⟩
  | .hbm, ⟨47, _⟩ => ⟨S100000x128, .f32⟩
  | .hbm, ⟨48, _⟩ => ⟨S_, .f32⟩
  | .hbm, ⟨49, _⟩ => ⟨S100000x128, .f32⟩
  | .hbm, ⟨50, _⟩ => ⟨S100000x128, .f32⟩
  | .hbm, ⟨51, _⟩ => ⟨S_, .i32⟩
  | .hbm, ⟨52, _⟩ => ⟨S600000, .i32⟩
  | .hbm, ⟨53, _⟩ => ⟨S600000, .i1⟩
  | .hbm, ⟨54, _⟩ => ⟨S_, .i32⟩
  | .hbm, ⟨55, _⟩ => ⟨S600000, .i32⟩
  | .hbm, ⟨56, _⟩ => ⟨S600000, .i32⟩
  | .hbm, ⟨57, _⟩ => ⟨S600000, .i32⟩
  | .hbm, ⟨58, _⟩ => ⟨S600000x1, .i32⟩
  | .hbm, ⟨59, _⟩ => ⟨S600000x128, .f32⟩
  | .hbm, ⟨60, _⟩ => ⟨S_, .f32⟩
  | .hbm, ⟨61, _⟩ => ⟨S100000x128, .f32⟩
  | .hbm, ⟨62, _⟩ => ⟨S600000x1, .i32⟩
  | .hbm, ⟨63, _⟩ => ⟨S100000x128, .f32⟩
  | .hbm, ⟨64, _⟩ => ⟨S_, .f32⟩
  | .hbm, ⟨65, _⟩ => ⟨S600000, .f32⟩
  | .hbm, ⟨66, _⟩ => ⟨S_, .f32⟩
  | .hbm, ⟨67, _⟩ => ⟨S100000, .f32⟩
  | .hbm, ⟨68, _⟩ => ⟨S600000x1, .i32⟩
  | .hbm, ⟨69, _⟩ => ⟨S100000, .f32⟩
  | .hbm, ⟨70, _⟩ => ⟨S_, .f32⟩
  | .hbm, ⟨71, _⟩ => ⟨S100000, .f32⟩
  | .hbm, ⟨72, _⟩ => ⟨S100000, .f32⟩
  | .hbm, ⟨73, _⟩ => ⟨S100000x1, .f32⟩
  | .hbm, ⟨74, _⟩ => ⟨S100000x128, .f32⟩
  | .hbm, ⟨75, _⟩ => ⟨S100000x128, .f32⟩
  | .hbm, ⟨76, _⟩ => ⟨S128x128, .f32⟩
  | .hbm, ⟨77, _⟩ => ⟨S100000x128, .f32⟩
  | .hbm, ⟨78, _⟩ => ⟨S1x128, .f32⟩
  | .hbm, ⟨79, _⟩ => ⟨S100000x128, .f32⟩
  | .hbm, ⟨80, _⟩ => ⟨S100000x128, .f32⟩
  | .hbm, ⟨81, _⟩ => ⟨S128x128, .f32⟩
  | .hbm, ⟨82, _⟩ => ⟨S100000x128, .f32⟩
  | .hbm, ⟨83, _⟩ => ⟨S100000x128, .f32⟩
  | .hbm, ⟨84, _⟩ => ⟨S_, .f32⟩
  | .hbm, ⟨85, _⟩ => ⟨S100000x128, .f32⟩
  | .hbm, ⟨86, _⟩ => ⟨S100000x128, .f32⟩
  | .hbm, ⟨87, _⟩ => ⟨S_, .i32⟩
  | .hbm, ⟨88, _⟩ => ⟨S600000, .i32⟩
  | .hbm, ⟨89, _⟩ => ⟨S600000, .i1⟩
  | .hbm, ⟨90, _⟩ => ⟨S_, .i32⟩
  | .hbm, ⟨91, _⟩ => ⟨S600000, .i32⟩
  | .hbm, ⟨92, _⟩ => ⟨S600000, .i32⟩
  | .hbm, ⟨93, _⟩ => ⟨S600000, .i32⟩
  | .hbm, ⟨94, _⟩ => ⟨S600000x1, .i32⟩
  | .hbm, ⟨95, _⟩ => ⟨S600000x128, .f32⟩
  | .hbm, ⟨96, _⟩ => ⟨S_, .f32⟩
  | .hbm, ⟨97, _⟩ => ⟨S100000x128, .f32⟩
  | .hbm, ⟨98, _⟩ => ⟨S600000x1, .i32⟩
  | .hbm, ⟨99, _⟩ => ⟨S100000x128, .f32⟩
  | .hbm, ⟨100, _⟩ => ⟨S_, .f32⟩
  | .hbm, ⟨101, _⟩ => ⟨S600000, .f32⟩
  | .hbm, ⟨102, _⟩ => ⟨S_, .f32⟩
  | .hbm, ⟨103, _⟩ => ⟨S100000, .f32⟩
  | .hbm, ⟨104, _⟩ => ⟨S600000x1, .i32⟩
  | .hbm, ⟨105, _⟩ => ⟨S100000, .f32⟩
  | .hbm, ⟨106, _⟩ => ⟨S_, .f32⟩
  | .hbm, ⟨107, _⟩ => ⟨S100000, .f32⟩
  | .hbm, ⟨108, _⟩ => ⟨S100000, .f32⟩
  | .hbm, ⟨109, _⟩ => ⟨S100000x1, .f32⟩
  | .hbm, ⟨110, _⟩ => ⟨S100000x128, .f32⟩
  | .hbm, ⟨111, _⟩ => ⟨S100000x128, .f32⟩
  | .hbm, ⟨112, _⟩ => ⟨S128x64, .f32⟩
  | .hbm, ⟨113, _⟩ => ⟨S100000x64, .f32⟩
  | .hbm, ⟨114, _⟩ => ⟨S1x64, .f32⟩
  | .hbm, ⟨115, _⟩ => ⟨S100000x64, .f32⟩
  | .hbm, ⟨116, _⟩ => ⟨S100000x64, .f32⟩
  | .hbm, ⟨117, _⟩ => ⟨S128x64, .f32⟩
  | .hbm, ⟨118, _⟩ => ⟨S100000x64, .f32⟩
  | .hbm, ⟨119, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_call0_cst : Ref sig .tc := ⟨.hbm, 48, rfl⟩
abbrev main_call0_v0 : Ref sig .tc := ⟨.hbm, 49, rfl⟩
abbrev main_v31 : Ref sig .tc := ⟨.hbm, 50, rfl⟩
abbrev main_c_4 : Ref sig .tc := ⟨.hbm, 51, rfl⟩
abbrev main_v32 : Ref sig .tc := ⟨.hbm, 52, rfl⟩
abbrev main_v33 : Ref sig .tc := ⟨.hbm, 53, rfl⟩
abbrev main_c_5 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_6 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_7 : Ref sig .tc := ⟨.hbm, 64, rfl⟩
abbrev main_v42 : Ref sig .tc := ⟨.hbm, 65, rfl⟩
abbrev main_cst_8 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_9 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_call1_cst : Ref sig .tc := ⟨.hbm, 84, rfl⟩
abbrev main_call1_v0 : Ref sig .tc := ⟨.hbm, 85, rfl⟩
abbrev main_v59 : Ref sig .tc := ⟨.hbm, 86, rfl⟩
abbrev main_c_10 : Ref sig .tc := ⟨.hbm, 87, rfl⟩
abbrev main_v60 : Ref sig .tc := ⟨.hbm, 88, rfl⟩
abbrev main_v61 : Ref sig .tc := ⟨.hbm, 89, rfl⟩
abbrev main_c_11 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_12 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_13 : Ref sig .tc := ⟨.hbm, 100, rfl⟩
abbrev main_v70 : Ref sig .tc := ⟨.hbm, 101, rfl⟩
abbrev main_cst_14 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_cst_15 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  scatter_S100000_S600000x1_S600000_n_0_0_1_wf : ScatterDims.WF S100000 S600000x1 S600000 [] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KRun.lean ====
/-
  The idealized kernel program's run with its result named: every weakly fair execution of @main terminates, nothing
  faulting, with the result array at what the last region's write-backs leave (the fold of the run's segment boundaries
  read at the result's buffer) and every argument array as launched.  The frame's own launch over the segments, with one
  more buffer read off the last thread state.
-/
import proofs.«120991_j39273180954945_2_alg».proof.Proof.FrameKernelIdealP

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run : θ_run defs (onTc (τ := τ) (main (F := F))) ⟨m, fun _ => 0, ρ⟩ (fun r => ∀ c : Dev nD,
      r.2.mem ((c.tc : Thread nD τ).loc main_v51) = W6 m ρ c (Proc.devRef .tc main_v51)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v51 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c)⟩)

end Cert.KernelIdeal.KRun

end
-- ==== Proof.LibRealValued.lean ====
/-
  Extended reals that are real numbers.

  The arithmetic of the extended reals is the arithmetic of the reals away from the infinities: sums, products and
  maxima of real values are real values, and so is a finite sum of them.  One law of subtraction that fails at the
  infinities holds as soon as the MIDDLE term is real: `a - (b + c) = (a - b) - c`.  It is the law that turns a
  log-softmax written `x - (m + log s)` into the one written `(x - m) - log s`.
-/
import Idealize.ShloMosaic.PureOps.Ideal

open scoped BigOperators

namespace Cert.RealValued

/-- An extended real that is the image of a real number. -/
def IsReal (x : EReal) : Prop := ∃ r : ℝ, x = (r : EReal)

theorem IsReal.coe (r : ℝ) : IsReal (r : EReal) := ⟨r, rfl⟩

theorem IsReal.zero : IsReal 0 := ⟨0, rfl⟩

theorem IsReal.one : IsReal 1 := ⟨1, rfl⟩

theorem IsReal.ne_bot {x : EReal} (h : IsReal x) : x ≠ ⊥ := by
  obtain ⟨r, rfl⟩ := h; exact EReal.coe_ne_bot r

theorem IsReal.ne_top {x : EReal} (h : IsReal x) : x ≠ ⊤ := by
  obtain ⟨r, rfl⟩ := h; exact EReal.coe_ne_top r

theorem isReal_of_ne {x : EReal} (hb : x ≠ ⊥) (ht : x ≠ ⊤) : IsReal x := by
  induction x using EReal.rec with
  | bot => exact absurd rfl hb
  | top => exact absurd rfl ht
  | coe r => exact ⟨r, rfl⟩

theorem IsReal.add {x y : EReal} (hx : IsReal x) (hy : IsReal y) : IsReal (x + y) := by
  obtain ⟨a, rfl⟩ := hx; obtain ⟨b, rfl⟩ := hy; exact ⟨a + b, EReal.coe_add a b⟩

theorem IsReal.mul {x y : EReal} (hx : IsReal x) (hy : IsReal y) : IsReal (x * y) := by
  obtain ⟨a, rfl⟩ := hx; obtain ⟨b, rfl⟩ := hy; exact ⟨a * b, EReal.coe_mul a b⟩

theorem IsReal.max {x y : EReal} (hx : IsReal x) (hy : IsReal y) : IsReal (max x y) := by
  rcases le_total x y with h | h
  · rw [max_eq_right h]; exact hy
  · rw [max_eq_left h]; exact hx

theorem IsReal.ite {p : Prop} [Decidable p] {x y : EReal} (hx : IsReal x) (hy : IsReal y) : IsReal (if p then x else y) := by
  split
  · exact hx
  · exact hy

/-- A finite sum of real values is a real value. -/
theorem IsReal.sum {ι : Type*} (s : Finset ι) (f : ι → EReal) (h : ∀ i ∈ s, IsReal (f i)) : IsReal (∑ i ∈ s, f i) := by
  classical
  induction s using Finset.induction_on with
  | empty => rw [Finset.sum_empty]; exact IsReal.zero
  | insert a s ha ih =>
    rw [Finset.sum_insert ha]
    exact (h a (Finset.mem_insert_self a s)).add (ih fun i hi => h i (Finset.mem_insert_of_mem hi))

/-- The maximum of real values over a nonempty finite family, folded from the bottom element, is a real value. -/
theorem IsReal.fold_max {ι : Type*} (s : Finset ι) (f : ι → EReal) (hs : s.Nonempty) (h : ∀ i ∈ s, IsReal (f i)) :
    IsReal (s.fold Max.max ⊥ f) := by
  classical
  have key : ∀ t : Finset ι, (∀ i ∈ t, IsReal (f i)) → (t = ∅ ∧ t.fold Max.max ⊥ f = ⊥) ∨ IsReal (t.fold Max.max ⊥ f) := by
    intro t
    induction t using Finset.induction_on with
    | empty => intro _; exact Or.inl ⟨rfl, Finset.fold_empty⟩
    | insert a t ha ih =>
      intro ht
      rw [Finset.fold_insert ha]
      rcases ih (fun i hi => ht i (Finset.mem_insert_of_mem hi)) with ⟨_, e⟩ | hr
      · rw [e, max_bot_right]; exact Or.inr (ht a (Finset.mem_insert_self a t))
      · exact Or.inr ((ht a (Finset.mem_insert_self a t)).max hr)
  rcases key s h with ⟨e, _⟩ | hr
  · exact absurd e hs.ne_empty
  · exact hr

/-- Subtracting a sum whose first term is real: the subtraction distributes. -/
theorem sub_add_eq_sub_sub_of_isReal (a c : EReal) {b : EReal} (hb : IsReal b) : a - (b + c) = a - b - c := by
  rw [sub_eq_add_neg, sub_eq_add_neg, sub_eq_add_neg, EReal.neg_add (Or.inl hb.ne_bot) (Or.inl hb.ne_top), sub_eq_add_neg,
    add_assoc]

end Cert.RealValued
-- ==== Proof.LibRealArrays.lean ====
/-
  Arrays all of whose entries are real numbers, and the operations that keep them so.

  A gather and a broadcast only move entries; a scatter-add adds, to each entry, a finite sum of update entries; a
  matrix product is a finite sum of products; the pointwise sum, product and maximum of real entries are real.  None of
  this looks at WHERE an index list points: it holds for every index list.  One pointwise case uses the values: the
  inverse square root is taken only where its argument is positive, and there it is a real number.
-/
import proofs.«120991_j39273180954945_2_alg».proof.Proof.LibRealValued
import Idealize.ShloMosaic.PureOps.Ideal.Laws

noncomputable section

namespace Cert.RealArrays

open Idealize.ShloMosaic Cert.RealValued
open scoped BigOperators

/-- Every entry is a real number. -/
def AllReal {S : Shape} (v : S.Idx → EReal) : Prop := ∀ i, IsReal (v i)

theorem allReal_broadcastInDim {s t : Shape} (dims : Fin s.rank → Fin t.rank) (h : s.BroadcastsInDim t dims)
    (x : s.Idx → EReal) (hx : AllReal x) : AllReal (broadcastInDim t dims h x) := fun _ => hx _

theorem allReal_gather {s si t : Shape} {w : Nat} (d : GatherDims s si t) (x : s.Idx → EReal) (idx : IVec si w)
    (hx : AllReal x) : AllReal (Host.gather d x idx) := fun _ => hx _

theorem allReal_scatterAdd {s si su : Shape} {w : Nat} (d : ScatterDims s si su) (x : s.Idx → EReal) (idx : IVec si w)
    (u : su.Idx → EReal) (hx : AllReal x) (hu : AllReal u) :
    AllReal (Host.scatterAdd (F := Ideal) (φ := .f32) d x idx u) := fun i => by
  show IsReal (x i + ∑ j ∈ Finset.univ.filter (fun j => d.resultIdx? j idx = some i), u j)
  exact (hx i).add (IsReal.sum _ _ fun j _ => hu j)

theorem allReal_dotGeneral {sl sr so : Shape} (d : DotDims sl sr so) (prec : Option ContractPrecision)
    (x : sl.Idx → EReal) (y : sr.Idx → EReal) (hx : AllReal x) (hy : AllReal y) :
    AllReal (Host.dotGeneral (F := Ideal) (φ₁ := .f32) (φ₂ := .f32) d prec x y) := fun j => by
  simp only [Host.dotGeneral]
  rw [Ideal.dotGeneral_apply]
  exact IsReal.sum _ _ fun k _ => (hx _).mul (hy _)

theorem allReal_mulf {s : Shape} (x y : s.Idx → EReal) (hx : AllReal x) (hy : AllReal y) :
    AllReal (mulf (F := Ideal) (φ := .f32) x y) := fun i => (hx i).mul (hy i)

theorem allReal_addf {s : Shape} (x y : s.Idx → EReal) (hx : AllReal x) (hy : AllReal y) :
    AllReal (addf (F := Ideal) (φ := .f32) x y) := fun i => (hx i).add (hy i)

theorem allReal_maximumf {s : Shape} (x y : s.Idx → EReal) (hx : AllReal x) (hy : AllReal y) :
    AllReal (maximumf (F := Ideal) (φ := .f32) x y) := fun i => (hx i).max (hy i)

/-- A bit pattern whose exponent field is not all ones denotes a real number. -/
theorem isReal_ieee (e mant : Nat) {w : Nat} (b : BitVec w) (h : (b.extractLsb' mant e).toNat ≠ 2 ^ e - 1) :
    IsReal (Ideal.ieee e mant b) := by
  unfold Ideal.ieee
  simp only [if_neg h]
  split
  · exact ⟨_, rfl⟩
  · exact ⟨_, rfl⟩

/-- The patterns of zero and of one denote real numbers. -/
theorem isReal_zeroPattern : IsReal (Ideal.ofBits .f32 0x00000000#32) := by
  show IsReal (Ideal.ieee 8 23 (0x00000000#32 : BitVec 32))
  exact isReal_ieee 8 23 _ (by decide)
theorem isReal_onePattern : IsReal (Ideal.ofBits .f32 0x3F800000#32) := by
  show IsReal (Ideal.ieee 8 23 (0x3F800000#32 : BitVec 32))
  exact isReal_ieee 8 23 _ (by decide)

theorem allReal_constant {s : Shape} (b : BitVec 32) (hb : IsReal (Ideal.ofBits .f32 b)) :
    AllReal (constant (F := Ideal) s .f32 b) := fun _ => hb

/-- Where the argument is positive take its inverse square root, elsewhere the other value: a real number when the
    argument and the other value are. -/
theorem isReal_select_rsqrt (d z : EReal) (hd : IsReal d) (hz : IsReal z) :
    IsReal (Scalar.select (Ideal.cmp .ogt d (Ideal.ofBits .f32 0x00000000#32)) (Ideal.rsqrt d) z) := by
  obtain ⟨r, rfl⟩ := hd
  rw [Ideal.ofBits_zero_f32]
  unfold Scalar.select Ideal.cmp
  by_cases hr : (0 : EReal) < (r : EReal)
  · have hr' : 0 < r := EReal.coe_pos.mp hr
    simp only [hr, decide_true, BitVec.ofBool_true, if_true]
    rw [Ideal.rsqrt_coe, if_neg (not_lt.mpr hr'.le), if_neg hr'.ne']
    exact ⟨_, rfl⟩
  · simp only [hr, decide_false, BitVec.ofBool_false]
    rw [if_neg (by decide)]
    exact hz

end Cert.RealArrays

end
-- ==== Proof.Spec.lean ====
/-
  A mean-aggregation graph layer, entry by entry, and the one law that lets the last layer's left weights be applied
  before the aggregation instead of after it.

  Node `n` gathers, from every edge `e` that points at it, one row of a feature table: `agg`.  A layer divides the
  gathered row by the node's in-degree (floored at one), sends it through the left weights, adds a bias and the node's
  own features through the right weights: `lin`; `layer` floors that at zero.  `proj` is a table through a weight matrix;
  `fin` is the last layer with the left weights already applied to the table that was gathered.

  The law: `fin h (agg (proj h wl)) = lin h (agg h)`.  It moves a finite sum across a product and a quotient, which on the
  extended reals is sound only where nothing is infinite: the features, the weights and the degree must be real
  numbers, and the degree not zero.  Real entries stay real through every layer, which is the second half of this file.
-/
import Idealize.ShloMosaic.PureOps.Ideal.Laws
import Idealize.ShloMosaic.Lib.ValueIdx
import proofs.«120991_j39273180954945_2_alg».proof.Proof.LibRealArrays

noncomputable section

namespace Cert.Sage

open Idealize.ShloMosaic Idealize.ShloMosaic.ValueIdx Cert.RealValued Cert.RealArrays
open scoped BigOperators

/-- A matrix of extended reals with literal extents. -/
abbrev Arr2 (a b : ℕ) := (⟨2, ![a, b]⟩ : Shape).Idx → EReal
/-- A vector of extended reals with a literal extent. -/
abbrev Arr1 (a : ℕ) := (⟨1, ![a]⟩ : Shape).Idx → EReal

/-- Two matrices that agree at every `(p, q)` are equal. -/
theorem ext2 {a b : ℕ} {f g : Arr2 a b} (h : ∀ (p : Fin a) (q : Fin b), f (ix2 p q) = g (ix2 p q)) : f = g :=
  funext fun i => (congrArg f (eq_ix2 i)).trans ((h (i 0) (i 1)).trans (congrArg g (eq_ix2 i)).symm)

section Defs
variable {N E K C : ℕ}

/-- What node `n` gathers in column `c`: the sum over the edges `e` that point at `n` of row `sel e` of the table. -/
def aggAt (P : Fin N → Fin E → Prop) [∀ n e, Decidable (P n e)] (sel : Fin E → Fin N) (h : Arr2 N C) (n : Fin N) (c : Fin C) : EReal :=
  0 + ∑ e : Fin E, if P n e then h (ix2 (sel e) c) else 0
def agg (P : Fin N → Fin E → Prop) [∀ n e, Decidable (P n e)] (sel : Fin E → Fin N) (h : Arr2 N C) : Arr2 N C :=
  fun i => aggAt P sel h (i 0) (i 1)

/-- A layer before its activation: the gathered row over the degree through the left weights, plus the bias, plus the
    node's own row through the right weights. -/
def linAt (h ms : Arr2 N K) (c : Arr2 N 1) (wl : Arr2 K C) (bl : Arr1 C) (wr : Arr2 K C) (n : Fin N) (j : Fin C) : EReal :=
  (∑ k : Fin K, Ideal.div (ms (ix2 n k)) (c (ix2 n (0 : Fin 1))) * wl (ix2 k j)) + bl (ix1 j) + ∑ k : Fin K, h (ix2 n k) * wr (ix2 k j)
def lin (h ms : Arr2 N K) (c : Arr2 N 1) (wl : Arr2 K C) (bl : Arr1 C) (wr : Arr2 K C) : Arr2 N C :=
  fun i => linAt h ms c wl bl wr (i 0) (i 1)
/-- A layer floored at zero. -/
def layer (h ms : Arr2 N K) (c : Arr2 N 1) (wl : Arr2 K C) (bl : Arr1 C) (wr : Arr2 K C) : Arr2 N C :=
  fun i => max (linAt h ms c wl bl wr (i 0) (i 1)) 0

/-- A table through a weight matrix. -/
def projAt (h : Arr2 N K) (w : Arr2 K C) (n : Fin N) (j : Fin C) : EReal := ∑ k : Fin K, h (ix2 n k) * w (ix2 k j)
def proj (h : Arr2 N K) (w : Arr2 K C) : Arr2 N C := fun i => projAt h w (i 0) (i 1)

/-- The last layer when the left weights were applied before the aggregation: the gathered, already projected row over
    the degree, plus the bias, plus the node's own row through the right weights. -/
def finAt (h : Arr2 N K) (ps : Arr2 N C) (c : Arr2 N 1) (bl : Arr1 C) (wr : Arr2 K C) (n : Fin N) (j : Fin C) : EReal :=
  Ideal.div (ps (ix2 n j)) (c (ix2 n (0 : Fin 1))) + bl (ix1 j) + ∑ k : Fin K, h (ix2 n k) * wr (ix2 k j)
def fin (h : Arr2 N K) (ps : Arr2 N C) (c : Arr2 N 1) (bl : Arr1 C) (wr : Arr2 K C) : Arr2 N C :=
  fun i => finAt h ps c bl wr (i 0) (i 1)

/-- Every degree is a real number other than zero. -/
def DegOk (c : Arr2 N 1) : Prop := ∀ n : Fin N, ∃ r : ℝ, r ≠ 0 ∧ c (ix2 n (0 : Fin 1)) = (r : EReal)

end Defs

/-! ## Real entries stay real -/

section Real
variable {N E K C : ℕ}

theorem isReal_div {x : EReal} (hx : IsReal x) {r : ℝ} (hr : r ≠ 0) : IsReal (Ideal.div x (r : EReal)) := by
  rw [Ideal.div_coe hr]; exact hx.mul (IsReal.coe _)

theorem aggAt_real (P : Fin N → Fin E → Prop) [∀ n e, Decidable (P n e)] (sel : Fin E → Fin N) (h : Arr2 N C) (hh : AllReal h)
    (n : Fin N) (c : Fin C) : IsReal (aggAt P sel h n c) :=
  IsReal.zero.add (IsReal.sum _ _ fun e _ => IsReal.ite (hh _) IsReal.zero)

theorem agg_real (P : Fin N → Fin E → Prop) [∀ n e, Decidable (P n e)] (sel : Fin E → Fin N) (h : Arr2 N C) (hh : AllReal h) :
    AllReal (agg P sel h) := fun i => aggAt_real P sel h hh (i 0) (i 1)

theorem linAt_real (h ms : Arr2 N K) (c : Arr2 N 1) (wl : Arr2 K C) (bl : Arr1 C) (wr : Arr2 K C)
    (hh : AllReal h) (hms : AllReal ms) (hc : DegOk c) (hwl : AllReal wl) (hbl : AllReal bl) (hwr : AllReal wr) (n : Fin N) (j : Fin C) :
    IsReal (linAt h ms c wl bl wr n j) := by
  obtain ⟨r, hr, hcr⟩ := hc n
  unfold linAt
  rw [hcr]
  exact ((IsReal.sum _ _ fun k _ => (isReal_div (hms _) hr).mul (hwl _)).add (hbl _)).add
    (IsReal.sum _ _ fun k _ => (hh _).mul (hwr _))

theorem layer_real (h ms : Arr2 N K) (c : Arr2 N 1) (wl : Arr2 K C) (bl : Arr1 C) (wr : Arr2 K C)
    (hh : AllReal h) (hms : AllReal ms) (hc : DegOk c) (hwl : AllReal wl) (hbl : AllReal bl) (hwr : AllReal wr) :
    AllReal (layer h ms c wl bl wr) := fun i =>
  (linAt_real h ms c wl bl wr hh hms hc hwl hbl hwr (i 0) (i 1)).max IsReal.zero

end Real

/-! ## The law -/

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem ite_coe (p : Prop) [Decidable p] (x : ℝ) : (if p then (x : EReal) else 0) = ((if p then x else 0 : ℝ) : EReal) := by
  split <;> simp

/-- Over the reals: the selected rows summed, projected and scaled is the selected rows summed and scaled, then projected. -/
theorem real_law {E K : ℕ} (P : Fin E → Prop) [DecidablePred P] (a : Fin E → Fin K → ℝ) (w : Fin K → ℝ) (s : ℝ) :
    (∑ e : Fin E, if P e then ∑ k : Fin K, a e k * w k else 0) * s
      = ∑ k : Fin K, (∑ e : Fin E, if P e then a e k else 0) * s * w k := by
  simp only [Finset.sum_mul]
  rw [Finset.sum_comm]
  refine Finset.sum_congr rfl fun e _ => ?_
  by_cases hP : P e
  · simp only [hP, if_true, Finset.sum_mul]
    exact Finset.sum_congr rfl fun k _ => by ring
  · simp only [hP, if_false, zero_mul, Finset.sum_const_zero]

section Law
variable {N E K C : ℕ}

/-- Applying the left weights to the table before the aggregation gives the layer that applies them after it, when the
    table, the weights and the degrees are real and no degree is zero. -/
theorem fin_agg_proj (P : Fin N → Fin E → Prop) [∀ n e, Decidable (P n e)] (sel : Fin E → Fin N)
    (h : Arr2 N K) (c : Arr2 N 1) (wl : Arr2 K C) (bl : Arr1 C) (wr : Arr2 K C)
    (hh : AllReal h) (hc : DegOk c) (hwl : AllReal wl) :
    fin h (agg P sel (proj h wl)) c bl wr = lin h (agg P sel h) c wl bl wr := by
  refine ext2 fun n j => ?_
  show finAt h (agg P sel (proj h wl)) c bl wr n j = linAt h (agg P sel h) c wl bl wr n j
  obtain ⟨r, hr, hcr⟩ := hc n
  choose h' hh' using hh
  choose w' hw' using hwl
  unfold finAt linAt
  rw [hcr]
  congr 2
  show Ideal.div (aggAt P sel (proj h wl) n j) (r : EReal) = ∑ k : Fin K, Ideal.div (aggAt P sel h n k) (r : EReal) * wl (ix2 k j)
  simp only [Ideal.div_coe hr, aggAt]
  have e1 : ∀ e : Fin E, proj h wl (ix2 (sel e) j) = ((∑ k : Fin K, h' (ix2 (sel e) k) * w' (ix2 k j) : ℝ) : EReal) := fun e => by
    show ∑ k : Fin K, h (ix2 (sel e) k) * wl (ix2 k j) = _
    rw [coe_sum]
    exact Finset.sum_congr rfl fun k _ => by rw [hh', hw', EReal.coe_mul]
  simp only [e1, hh', hw', ite_coe, ← coe_sum, zero_add, ← EReal.coe_mul]
  exact congrArg _ (real_law (P n) (fun e k => h' (ix2 (sel e) k)) (fun k => w' (ix2 k j)) (1 / r))

end Law

end Cert.Sage

end
-- ==== Proof.LibScatterRows.lean ====
/-
  A float scatter-add of whole rows into a rank-2 table at a column of row numbers, read at an entry.
-/
import Idealize.ShloMosaic.PureOps.Ideal
import Idealize.ShloMosaic.Lib.ValueIdx

noncomputable section

open Idealize.ShloMosaic Idealize.ShloMosaic.ValueIdx
open scoped BigOperators

namespace Cert.LibRows

/-- The dimension numbers of a scatter of whole rows: operand `[N, C]`, scatter indices `[E, 1]` (one row number per
    update row), updates `[E, C]`; the row axis inserted, the column axis the one window axis. -/
abbrev rowsScatter (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Coordinates
variable {N C E w : Nat} (wf : ScatterDims.WF ⟨2, ![N, C]⟩ ⟨2, ![E, 1]⟩ ⟨2, ![E, C]⟩ [1] [0] [0] 1)
  (idx : IVec ⟨2, ![E, 1]⟩ w) (e : Fin E) (c' : Fin C)

/-- On the row axis the window of update entry `(e, c')` starts at the row number of update row `e`, read signed. -/
theorem rowsScatter_start_row :
    (rowsScatter N C E wf).start (ix2 e c') idx 0 = (idx (ix2 e (0 : Fin 1))).toInt := by
  unfold ScatterDims.start
  rw [dif_pos (show (0 : Fin 2) ∈ (rowsScatter N C E wf).scatterDimsToOperandDims from List.mem_singleton.mpr rfl)]
  have hsi : (rowsScatter N C E wf).siIdx (ix2 e c') ⟨List.idxOf (0 : Fin 2) (rowsScatter N C E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis the window starts at `0`. -/
theorem rowsScatter_start_col : (rowsScatter N C E wf).start (ix2 e c') idx 1 = 0 := by
  unfold ScatterDims.start
  rw [dif_neg (show ¬ ((1 : Fin 2) ∈ ([0] : List (Fin 2))) from by decide)]

/-- On the row axis the window coordinate is `0`. -/
theorem rowsScatter_window_row : (rowsScatter N C E wf).window (ix2 e c') 0 = 0 := by
  unfold ScatterDims.window
  rw [dif_neg (show ¬ ((0 : Fin 2) ∈ (rowsScatter N C E wf).sKept) from
    (show ¬ ((0 : Fin 2) ∈ (List.finRange 2).filter (fun a => a ∉ ([0] : List (Fin 2)))) from by decide))]

/-- On the column axis the window coordinate is the update entry's column. -/
theorem rowsScatter_window_col : (rowsScatter N C E wf).window (ix2 e c') 1 = c'.val := by
  unfold ScatterDims.window
  rw [dif_pos (show (1 : Fin 2) ∈ (rowsScatter N C E wf).sKept from
    (show (1 : Fin 2) ∈ (List.finRange 2).filter (fun a => a ∉ ([0] : List (Fin 2))) from by decide))]
  rfl

end Coordinates

/-- Update entry `(e, c')` lands at operand entry `(n, c)` exactly when the row number of update row `e`, read signed
    and not clamped, is `n` and the columns agree. -/
theorem rowsScatter_resultIdx_eq_some_iff {N C E w : Nat} (wf : ScatterDims.WF ⟨2, ![N, C]⟩ ⟨2, ![E, 1]⟩ ⟨2, ![E, C]⟩ [1] [0] [0] 1)
    (idx : IVec ⟨2, ![E, 1]⟩ w) (e : Fin E) (c' : Fin C) (n : Fin N) (c : Fin C) :
    (rowsScatter N C E wf).resultIdx? (ix2 e c') idx = some (ix2 n c) ↔ (idx (ix2 e (0 : Fin 1))).toInt = (n.val : Int) ∧ c' = c := by
  have hs0 := rowsScatter_start_row wf idx e c'
  have hs1 := rowsScatter_start_col wf idx e c'
  have hw0 := rowsScatter_window_row wf e c'
  have hw1 := rowsScatter_window_col wf e c'
  have hn := n.isLt
  have hc := c.isLt
  have hc' := c'.isLt
  unfold ScatterDims.resultIdx?
  constructor
  · intro h
    split at h
    · rename_i hin
      have h' := Option.some.inj h
      have e0 : ((rowsScatter N C E wf).start (ix2 e c') idx 0 + ((rowsScatter N C E wf).window (ix2 e c') 0 : Nat)).toNat = n.val :=
        congrArg (fun f => (f 0).val) h'
      have e1 : ((rowsScatter N C E wf).start (ix2 e c') idx 1 + ((rowsScatter N C E wf).window (ix2 e c') 1 : Nat)).toNat = c.val :=
        congrArg (fun f => (f 1).val) h'
      have p0 := (hin 0).1
      rw [hs0, hw0] at e0 p0
      rw [hs1, hw1] at e1
      refine ⟨by omega, Fin.ext (by omega)⟩
    · exact absurd h (by simp)
  · rintro ⟨h1, rfl⟩
    have hin : ∀ a, 0 ≤ (rowsScatter N C E wf).start (ix2 e c') idx a + ((rowsScatter N C E wf).window (ix2 e c') a : Nat)
        ∧ (rowsScatter N C E wf).start (ix2 e c') idx a + ((rowsScatter N C E wf).window (ix2 e c') a : Nat)
          < ((⟨2, ![N, C]⟩ : Shape).size a : Nat) := by
      intro a
      match a with
      | ⟨0, _⟩ =>
        show 0 ≤ (rowsScatter N C E wf).start (ix2 e c') idx 0 + ((rowsScatter N C E wf).window (ix2 e c') 0 : Nat)
          ∧ (rowsScatter N C E wf).start (ix2 e c') idx 0 + ((rowsScatter N C E wf).window (ix2 e c') 0 : Nat) < (N : Int)
        rw [hs0, hw0, h1]; omega
      | ⟨1, _⟩ =>
        show 0 ≤ (rowsScatter N C E wf).start (ix2 e c') idx 1 + ((rowsScatter N C E wf).window (ix2 e c') 1 : Nat)
          ∧ (rowsScatter N C E wf).start (ix2 e c') idx 1 + ((rowsScatter N C E wf).window (ix2 e c') 1 : Nat) < (C : Int)
        rw [hs1, hw1]; omega
    rw [dif_pos hin]
    congr 1
    funext a
    refine Fin.ext ?_
    match a with
    | ⟨0, _⟩ =>
      show ((rowsScatter N C E wf).start (ix2 e c') idx 0 + ((rowsScatter N C E wf).window (ix2 e c') 0 : Nat)).toNat = n.val
      rw [hs0, hw0, h1]; omega
    | ⟨1, _⟩ =>
      show ((rowsScatter N C E wf).start (ix2 e c') idx 1 + ((rowsScatter N C E wf).window (ix2 e c') 1 : Nat)).toNat = c'.val
      rw [hs1, hw1]; omega

/-- At the ideal instance the scatter-add of whole rows read at `(n, c)` is the operand's entry plus the sum, over the
    update rows whose row number (read signed, not clamped) is `n`, of the update's entry in column `c`; an update
    row whose number is outside `[0, N)` lands nowhere. -/
theorem scatterAdd_rows_apply {N C E w : Nat} {φ : FTy} (wf : ScatterDims.WF ⟨2, ![N, C]⟩ ⟨2, ![E, 1]⟩ ⟨2, ![E, C]⟩ [1] [0] [0] 1)
    (x : FVec Ideal ⟨2, ![N, C]⟩ φ) (idx : IVec ⟨2, ![E, 1]⟩ w) (upd : FVec Ideal ⟨2, ![E, C]⟩ φ) (n : Fin N) (c : Fin C) :
    Host.scatterAdd (F := Ideal) (rowsScatter N C E wf) x idx upd (ix2 n c)
      = x (ix2 n c) + ∑ e : Fin E, if (idx (ix2 e (0 : Fin 1))).toInt = (n.val : Int) then upd (ix2 e c) else 0 := by
  change x (ix2 n c) + _ = _
  congr 1
  rw [Finset.sum_filter, sum_idx2]
  refine Finset.sum_congr rfl fun e _ => ?_
  simp only [rowsScatter_resultIdx_eq_some_iff]
  by_cases h : (idx (ix2 e (0 : Fin 1))).toInt = (n.val : Int)
  · simp only [h, true_and, if_true]
    rw [Finset.sum_ite_eq' Finset.univ c (fun c' => upd (ix2 e c'))]
    simp
  · simp only [h, false_and, if_false]
    exact Finset.sum_const_zero

end Cert.LibRows

end
-- ==== Proof.LibGatherRows.lean ====
/-
  A gather of whole rows of a rank-2 table at a column of row numbers, read at an entry.
-/
import Idealize.ShloMosaic.PureOps.Ideal
import Idealize.ShloMosaic.Lib.ValueIdx

noncomputable section

open Idealize.ShloMosaic Idealize.ShloMosaic.ValueIdx
open scoped BigOperators

namespace Cert.LibRows

/-- The dimension numbers of a gather of whole rows: operand `[N, C]`, start indices `[E, 1]` (one row number per
    result row), result `[E, C]`; the row axis collapsed, the column axis the one offset axis. -/
abbrev rowsGather (N C E : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The gather of whole rows read at `(e, c)` is the table at column `c` of the row whose number is the start index
    of result row `e`, read signed and clamped into `[0, N − 1]`. -/
theorem gather_rows_apply {α : Type} {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowsGather N C E wf) x idx (ix2 e c)
      = x (ix2 (⟨min (idx (ix2 e (0 : Fin 1))).toInt.toNat (N - 1), by omega⟩ : Fin N) c) := by
  have h0 : (rowsGather N C E wf).start (ix2 e c) idx 0 + (rowsGather N C E wf).batchCoord (ix2 e c) 0
      + (rowsGather N C E wf).offCoord (ix2 e c) 0 = min (idx (ix2 e (0 : Fin 1))).toInt.toNat (N - 1) := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsGather N C E wf).startIndexMap from List.mem_singleton.mpr rfl)]
    have hsi : (rowsGather N C E wf).siIdx (ix2 e c) ⟨List.idxOf (0 : Fin 2) (rowsGather N C E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  have h1 : (rowsGather N C E wf).start (ix2 e c) idx 1 + (rowsGather N C E wf).batchCoord (ix2 e c) 1
      + (rowsGather N C E wf).offCoord (ix2 e c) 1 = c.val := by
    rw [GatherDims.batchCoord_eq_zero _ _ _ List.not_mem_nil]
    have hs : (rowsGather N C E wf).start (ix2 e c) idx 1 = 0 := by
      unfold GatherDims.start
      rw [dif_neg (show ¬ ((1 : Fin 2) ∈ ([0] : List (Fin 2))) from by decide)]
    rw [hs, Nat.add_zero, Nat.zero_add]
    rfl
  unfold Host.gather
  congr 1
  funext a
  refine Fin.ext ?_
  match a with
  | ⟨0, _⟩ => exact h0
  | ⟨1, _⟩ => exact h1

end Cert.LibRows

end
-- ==== Proof.AggRead.lean ====
/-
  A host scatter-add of gathered rows is the aggregation of the layer: node `n` receives row `sel e` of the table
  from every edge `e` whose target word, read signed, is `n`; the source word is read signed and clamped into the table.
-/
import proofs.«120991_j39273180954945_2_alg».proof.Proof.Spec
import proofs.«120991_j39273180954945_2_alg».proof.Proof.LibScatterRows
import proofs.«120991_j39273180954945_2_alg».proof.Proof.LibGatherRows

noncomputable section

namespace Cert.Sage

open Idealize.ShloMosaic Idealize.ShloMosaic.ValueIdx Cert.LibRows
open scoped BigOperators

/-- Edge `e` points at node `n`: its target word, read signed, is `n`. -/
def Pof {E N : ℕ} (dst : IVec ⟨2, ![E, 1]⟩ 32) (n : Fin N) (e : Fin E) : Prop :=
  (dst (ix2 e (0 : Fin 1))).toInt = (n.val : Int)

instance {E N : ℕ} (dst : IVec ⟨2, ![E, 1]⟩ 32) (n : Fin N) (e : Fin E) : Decidable (Pof dst n e) := by
  unfold Pof; infer_instance

/-- The row edge `e` brings: its source word read signed and clamped into `[0, N - 1]`. -/
def selOf {E N : ℕ} (hN : 0 < N) (src : IVec ⟨2, ![E, 1]⟩ 32) (e : Fin E) : Fin N :=
  ⟨min (src (ix2 e (0 : Fin 1))).toInt.toNat (N - 1), by omega⟩

/-- The aggregation along an edge list given as two columns of words. -/
def aggI {E N C : ℕ} (hN : 0 < N) (dst src : IVec ⟨2, ![E, 1]⟩ 32) (h : Arr2 N C) : Arr2 N C :=
  agg (Pof dst) (selOf hN src) h

/-- Scatter-adding into zeros, at the target column, the rows gathered at the source column is the aggregation. -/
theorem scatter_gather_rows {N C E : ℕ} (hN : 0 < N)
    (wfS : ScatterDims.WF ⟨2, ![N, C]⟩ ⟨2, ![E, 1]⟩ ⟨2, ![E, C]⟩ [1] [0] [0] 1)
    (wfG : GatherDims.WF ⟨2, ![N, C]⟩ ⟨2, ![E, 1]⟩ ⟨2, ![E, C]⟩ [1] [0] [] [0] [] 1 ![1, C])
    (z : Arr2 N C) (hz : ∀ i, z i = 0) (dst src : IVec ⟨2, ![E, 1]⟩ 32) (h : Arr2 N C) :
    Host.scatterAdd (F := Ideal) (φ := .f32) (rowsScatter N C E wfS) z dst (Host.gather (rowsGather N C E wfG) h src)
      = aggI hN dst src h := by
  refine ext2 fun n c => ?_
  rw [scatterAdd_rows_apply, hz]
  show 0 + _ = 0 + ∑ e : Fin E, if Pof dst n e then h (ix2 (selOf hN src e) c) else 0
  congr 1
  refine Finset.sum_congr rfl fun e _ => ?_
  by_cases hP : (dst (ix2 e (0 : Fin 1))).toInt = (n.val : Int)
  · rw [if_pos hP, if_pos (show Pof dst n e from hP), gather_rows_apply hN]; rfl
  · rw [if_neg hP, if_neg (show ¬ Pof dst n e from hP)]

end Cert.Sage

end
-- ==== Proof.KVal0.lean ====
/-
  What the idealized kernel program's buffers hold where its three regions are entered, as functions of the argument
  arrays.  Between regions the host code only gathers rows along the edge list's source column, adds them up along its
  target column, and transposes weight matrices; a buffer that a stretch of host code does not write, and an input array
  of a region, keeps its contents across it.  So each region's inputs are the previous region's outputs, aggregated,
  beside constants of the edge list (the two columns, the degree column) and the transposed weights.
-/
import proofs.«120991_j39273180954945_2_alg».proof.Proof.Gen.KernelIdeal
import Idealize.ShloMosaic.PureOps.Ideal.Laws
import proofs.«120991_j39273180954945_2_alg».proof.Proof.Spec
import proofs.«120991_j39273180954945_2_alg».proof.Proof.AggRead

set_option maxRecDepth 16384

noncomputable section

namespace Cert.KernelIdeal.KVal

open Cert.KernelIdeal Cert.KernelIdeal.Facts₀
open Idealize.ShloMosaic Idealize.ShloMosaic.TcCoe Idealize.ShloMosaic.ValueIdx Idealize.SL.Sem

/-! ## The host terms -/

/-- The edge list's source words, one per edge. -/
def srcWords (ei : IVec S2x600000 32) : IVec S600000 32 :=
  shapeCast _ (extractStridedSlice S1x600000 ![0, 0] ei slices_S2x600000_S1x600000_0_0) shapeCasts_S1x600000_S600000
/-- The edge list's target words, one per edge. -/
def dstWords (ei : IVec S2x600000 32) : IVec S600000 32 :=
  shapeCast _ (extractStridedSlice S1x600000 ![1, 0] ei slices_S2x600000_S1x600000_1_0) shapeCasts_S1x600000_S600000
/-- The source column: a negative word counts from the end of the table. -/
def srcColOf (v1 : IVec S600000 32) : IVec S600000x1 32 :=
  broadcastInDim S600000x1 ![0] bcast_S600000_S600000x1_0
    (select (cmpi .slt v1 (broadcastInDim S600000 ![] bcast_S_S600000 (constantI S_ 32 0#32)))
      (addi v1 (broadcastInDim S600000 ![] bcast_S_S600000 (constantI S_ 32 100000#32))) v1)
/-- The target column. -/
def dstColOf (v3 : IVec S600000 32) : IVec S600000x1 32 := broadcastInDim S600000x1 ![0] bcast_S600000_S600000x1_0 v3
def srcCol (ei : IVec S2x600000 32) : IVec S600000x1 32 := srcColOf (srcWords ei)
def dstCol (ei : IVec S2x600000 32) : IVec S600000x1 32 := dstColOf (dstWords ei)

/-- The degree column: ones added up along the target column, floored at one. -/
def degOf (idx : IVec S600000x1 32) : Cert.Sage.Arr2 100000 1 :=
  broadcastInDim S100000x1 ![0] bcast_S100000_S100000x1_0
    (maximumf (Host.scatterAdd (F := Ideal) scatter_S100000_S600000x1_S600000_n_0_0_1
        (broadcastInDim S100000 ![] bcast_S_S100000 (constant (F := Ideal) S_ .f32 0x00000000#32)) idx
        (broadcastInDim S600000 ![] bcast_S_S600000 (constant (F := Ideal) S_ .f32 0x3F800000#32)))
      (broadcastInDim S100000 ![] bcast_S_S100000 (constant (F := Ideal) S_ .f32 0x3F800000#32)))

/-- Rows of a 128-column table gathered at the source column and added up along the target column. -/
def aggT128 (dst src : IVec S600000x1 32) (h : Cert.Sage.Arr2 100000 128) : Cert.Sage.Arr2 100000 128 :=
  Host.scatterAdd (F := Ideal) (φ := .f32) scatter_S100000x128_S600000x1_S600000x128_1_0_0_1
    (broadcastInDim S100000x128 ![] bcast_S_S100000x128 (constant (F := Ideal) S_ .f32 0x00000000#32)) dst
    (Host.gather gather_S100000x128_S600000x1_S600000x128_1_0_n_n_0_1_1128 h src)
/-- The same for a 64-column table. -/
def aggT64 (dst src : IVec S600000x1 32) (h : Cert.Sage.Arr2 100000 64) : Cert.Sage.Arr2 100000 64 :=
  Host.scatterAdd (F := Ideal) (φ := .f32) scatter_S100000x64_S600000x1_S600000x64_1_0_0_1
    (broadcastInDim S100000x64 ![] bcast_S_S100000x64 (constant (F := Ideal) S_ .f32 0x00000000#32)) dst
    (Host.gather gather_S100000x64_S600000x1_S600000x64_1_0_n_n_0_1_164 h src)

theorem aggT128_eq (dst src : IVec S600000x1 32) (h : Cert.Sage.Arr2 100000 128) :
    aggT128 dst src h = Cert.Sage.aggI (by decide) dst src h :=
  Cert.Sage.scatter_gather_rows (by decide) scatter_S100000x128_S600000x1_S600000x128_1_0_0_1.wf
    gather_S100000x128_S600000x1_S600000x128_1_0_n_n_0_1_1128.wf _ (fun _ => Ideal.ofBits_zero_f32) dst src h
theorem aggT64_eq (dst src : IVec S600000x1 32) (h : Cert.Sage.Arr2 100000 64) :
    aggT64 dst src h = Cert.Sage.aggI (by decide) dst src h :=
  Cert.Sage.scatter_gather_rows (by decide) scatter_S100000x64_S600000x1_S600000x64_1_0_0_1.wf
    gather_S100000x64_S600000x1_S600000x64_1_0_n_n_0_1_164.wf _ (fun _ => Ideal.ofBits_zero_f32) dst src h

/-- A 128 × 128 weight matrix transposed. -/
def tr128 (w : Cert.Sage.Arr2 128 128) : Cert.Sage.Arr2 128 128 := transpose S128x128 [1, 0] w transposes_S128x128_S128x128_1_0
/-- A 64 × 128 weight matrix transposed. -/
def tr64 (w : Cert.Sage.Arr2 64 128) : Cert.Sage.Arr2 128 64 := transpose S128x64 [1, 0] w transposes_S64x128_S128x64_1_0

variable (m : (ℓ : Loc nD τ sig) → Buf (Elt Ideal) ℓ) (c : Dev nD)

/-! ## The layers as functions of the argument arrays -/

/-- The first layer of the argument features (region 0's output). -/
def hid1 : Cert.Sage.Arr2 100000 128 :=
  Cert.Sage.layer (m ((c : Thread nD τ).loc main_arg0)) (aggT128 (dstCol (m ((c : Thread nD τ).loc main_arg1))) (srcCol (m ((c : Thread nD τ).loc main_arg1))) (m ((c : Thread nD τ).loc main_arg0))) (degOf (dstCol (m ((c : Thread nD τ).loc main_arg1)))) (tr128 (m ((c : Thread nD τ).loc main_arg2))) (m ((c : Thread nD τ).loc main_arg3)) (tr128 (m ((c : Thread nD τ).loc main_arg4)))
/-- The second layer (region 1's first output). -/
def hid2 : Cert.Sage.Arr2 100000 128 :=
  Cert.Sage.layer (hid1 m c) (aggT128 (dstCol (m ((c : Thread nD τ).loc main_arg1))) (srcCol (m ((c : Thread nD τ).loc main_arg1))) (hid1 m c)) (degOf (dstCol (m ((c : Thread nD τ).loc main_arg1)))) (tr128 (m ((c : Thread nD τ).loc main_arg5))) (m ((c : Thread nD τ).loc main_arg6)) (tr128 (m ((c : Thread nD τ).loc main_arg7)))
/-- The second layer through the last layer's left weights (region 1's second output). -/
def prj2 : Cert.Sage.Arr2 100000 64 := Cert.Sage.proj (hid2 m c) (tr64 (m ((c : Thread nD τ).loc main_arg8)))
/-- The result: the last layer with the projection aggregated (region 2's output). -/
def out3 : Cert.Sage.Arr2 100000 64 :=
  Cert.Sage.fin (hid2 m c) (aggT64 (dstCol (m ((c : Thread nD τ).loc main_arg1))) (srcCol (m ((c : Thread nD τ).loc main_arg1))) (prj2 m c)) (degOf (dstCol (m ((c : Thread nD τ).loc main_arg1)))) (m ((c : Thread nD τ).loc main_arg9)) (tr64 (m ((c : Thread nD τ).loc main_arg10)))

end Cert.KernelIdeal.KVal

end
-- ==== Proof.KVal1.lean ====
/-
  The walk through the idealized kernel program's segment boundaries: what each region's input buffers hold when the
  region is entered, as functions of the argument arrays.  A buffer that a stretch of host code does not write, or that a
  region only reads, holds after it what it held before it; a buffer the stretch writes holds its operation's function
  of its operands.  Region 0's output is the first layer of the argument features; region 1's outputs are the second
  layer of that and its projection through the last layer's left weights; region 2's output is the last layer with the
  projection aggregated.  The three regions' own values enter as hypotheses.
-/
import proofs.«120991_j39273180954945_2_alg».proof.Proof.FrameKernelIdealP
import proofs.«120991_j39273180954945_2_alg».proof.Proof.KVal0

set_option maxRecDepth 16384
-- reading a buffer's type off the program's table of buffers costs more the later the buffer is declared
set_option maxHeartbeats 4000000

noncomputable section

namespace Cert.KernelIdeal.KVal

open Cert.KernelIdeal Cert.KernelIdeal.Gen
open Idealize.ShloMosaic Idealize.ShloMosaic.TcCoe Idealize.ShloMosaic.ValueIdx Idealize.SL.Sem Idealize.ShloMosaic.StableHlo

/-- No operation of a stretch of host code writes the buffer: decided operation by operation. -/
macro "not_written" : tactic =>
  `(tactic| (refine List.forall_iff_forall_mem.mp ?_
             simp only [hostOps0, hostOps1, hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
             repeat' apply And.intro
             all_goals exact StableHlo.devRef_ne_of_ne (by decide)))

variable (m : (ℓ : Loc nD τ sig) → Buf (Elt Ideal) ℓ) (ρ : Dev nD → PrngReg) (c : Dev nD)

/-! ## Region 0 is entered -/

theorem W1_arg0 : W1 m ρ c (Proc.devRef .tc main_arg0) = (m ((c : Thread nD τ).loc main_arg0)) :=
  StableHlo.after_of_forall_not_mem (b := (Proc.devRef .tc main_arg0)) _ _ (by not_written)
theorem W1_arg2 : W1 m ρ c (Proc.devRef .tc main_arg2) = (m ((c : Thread nD τ).loc main_arg2)) :=
  StableHlo.after_of_forall_not_mem (b := (Proc.devRef .tc main_arg2)) _ _ (by not_written)
theorem W1_arg3 : W1 m ρ c (Proc.devRef .tc main_arg3) = (m ((c : Thread nD τ).loc main_arg3)) :=
  StableHlo.after_of_forall_not_mem (b := (Proc.devRef .tc main_arg3)) _ _ (by not_written)
theorem W1_arg4 : W1 m ρ c (Proc.devRef .tc main_arg4) = (m ((c : Thread nD τ).loc main_arg4)) :=
  StableHlo.after_of_forall_not_mem (b := (Proc.devRef .tc main_arg4)) _ _ (by not_written)
theorem W1_arg5 : W1 m ρ c (Proc.devRef .tc main_arg5) = (m ((c : Thread nD τ).loc main_arg5)) :=
  StableHlo.after_of_forall_not_mem (b := (Proc.devRef .tc main_arg5)) _ _ (by not_written)
theorem W1_arg6 : W1 m ρ c (Proc.devRef .tc main_arg6) = (m ((c : Thread nD τ).loc main_arg6)) :=
  StableHlo.after_of_forall_not_mem (b := (Proc.devRef .tc main_arg6)) _ _ (by not_written)
theorem W1_arg7 : W1 m ρ c (Proc.devRef .tc main_arg7) = (m ((c : Thread nD τ).loc main_arg7)) :=
  StableHlo.after_of_forall_not_mem (b := (Proc.devRef .tc main_arg7)) _ _ (by not_written)
theorem W1_arg8 : W1 m ρ c (Proc.devRef .tc main_arg8) = (m ((c : Thread nD τ).loc main_arg8)) :=
  StableHlo.after_of_forall_not_mem (b := (Proc.devRef .tc main_arg8)) _ _ (by not_written)
theorem W1_arg9 : W1 m ρ c (Proc.devRef .tc main_arg9) = (m ((c : Thread nD τ).loc main_arg9)) :=
  StableHlo.after_of_forall_not_mem (b := (Proc.devRef .tc main_arg9)) _ _ (by not_written)
theorem W1_arg10 : W1 m ρ c (Proc.devRef .tc main_arg10) = (m ((c : Thread nD τ).loc main_arg10)) :=
  StableHlo.after_of_forall_not_mem (b := (Proc.devRef .tc main_arg10)) _ _ (by not_written)

theorem W1_v1 : W1 m ρ c (Proc.devRef .tc main_v1) = srcWords (m ((c : Thread nD τ).loc main_arg1)) := by
  show StableHlo.after hostOps0 (W0 m ρ c) (Proc.devRef .tc main_v1) = _
  after_results_simp <;> rfl
theorem W1_v3 : W1 m ρ c (Proc.devRef .tc main_v3) = dstWords (m ((c : Thread nD τ).loc main_arg1)) := by
  show StableHlo.after hostOps0 (W0 m ρ c) (Proc.devRef .tc main_v3) = _
  after_results_simp <;> rfl
theorem W1_v10 : W1 m ρ c (Proc.devRef .tc main_v10) = degOf (dstCol (m ((c : Thread nD τ).loc main_arg1))) := by
  show StableHlo.after hostOps0 (W0 m ρ c) (Proc.devRef .tc main_v10) = _
  after_results_simp <;> rfl
theorem W1_v20 : W1 m ρ c (Proc.devRef .tc main_v20) = aggT128 (dstCol (m ((c : Thread nD τ).loc main_arg1))) (srcCol (m ((c : Thread nD τ).loc main_arg1))) (m ((c : Thread nD τ).loc main_arg0)) := by
  show StableHlo.after hostOps0 (W0 m ρ c) (Proc.devRef .tc main_v20) = _
  after_results_simp <;> rfl
theorem W1_v21 : W1 m ρ c (Proc.devRef .tc main_v21) = tr128 (m ((c : Thread nD τ).loc main_arg2)) := by
  show StableHlo.after hostOps0 (W0 m ρ c) (Proc.devRef .tc main_v21) = _
  after_results_simp <;> rfl
theorem W1_v22 : W1 m ρ c (Proc.devRef .tc main_v22) = tr128 (m ((c : Thread nD τ).loc main_arg4)) := by
  show StableHlo.after hostOps0 (W0 m ρ c) (Proc.devRef .tc main_v22) = _
  after_results_simp <;> rfl

/-! ## The regions' values, as hypotheses -/

/-- Region 0's value, for any entry contents. -/
def Reg0 : Prop := ∀ (V : (c : Dev nD) → (b : Ref sig .tc) → Buf (Elt Ideal) ((c : Thread nD τ).loc b)) (c : Dev nD),
  (dat0 (F := Ideal) V c).arrAt 6 cfg0.N
    = Cert.Sage.layer (V c main_arg0) (V c main_v20) (V c main_v10) (V c main_v21) (V c main_arg3) (V c main_v22)
/-- Region 1's values, for any entry contents. -/
def Reg1a : Prop := ∀ (V : (c : Dev nD) → (b : Ref sig .tc) → Buf (Elt Ideal) ((c : Thread nD τ).loc b)) (c : Dev nD),
  (dat1 (F := Ideal) V c).arrAt 7 cfg1.N
    = Cert.Sage.layer (V c main_v23) (V c main_v34) (V c main_v10) (V c main_v35) (V c main_arg6) (V c main_v36)
def Reg1b : Prop := ∀ (V : (c : Dev nD) → (b : Ref sig .tc) → Buf (Elt Ideal) ((c : Thread nD τ).loc b)) (c : Dev nD),
  (dat1 (F := Ideal) V c).arrAt 8 cfg1.N
    = Cert.Sage.proj (Cert.Sage.layer (V c main_v23) (V c main_v34) (V c main_v10) (V c main_v35) (V c main_arg6) (V c main_v36)) (V c main_v37)
/-- Region 2's value, for any entry contents. -/
def Reg2 : Prop := ∀ (V : (c : Dev nD) → (b : Ref sig .tc) → Buf (Elt Ideal) ((c : Thread nD τ).loc b)) (c : Dev nD),
  (dat2 (F := Ideal) V c).arrAt 5 cfg2.N
    = Cert.Sage.fin (V c main_v38_0) (V c main_v49) (V c main_v10) (V c main_arg9) (V c main_v50)

/-! ## Region 0 is left, region 1 is entered -/

theorem W2_v23 (h0 : Reg0) : W2 m ρ c (Proc.devRef .tc main_v23) = hid1 m c := by
  refine ((W2_arr m ρ c 6).trans (h0 (V1 m ρ) c)).trans ?_
  show Cert.Sage.layer (W1 m ρ c (Proc.devRef .tc main_arg0)) (W1 m ρ c (Proc.devRef .tc main_v20)) (W1 m ρ c (Proc.devRef .tc main_v10))
    (W1 m ρ c (Proc.devRef .tc main_v21)) (W1 m ρ c (Proc.devRef .tc main_arg3)) (W1 m ρ c (Proc.devRef .tc main_v22)) = _
  rw [W1_arg0, W1_v20, W1_v10, W1_v21, W1_arg3, W1_v22]; rfl

theorem W2_v1 : W2 m ρ c (Proc.devRef .tc main_v1) = W1 m ρ c (Proc.devRef .tc main_v1) := W2_of_ne m ρ c main_v1 (by decide)
theorem W2_v3 : W2 m ρ c (Proc.devRef .tc main_v3) = W1 m ρ c (Proc.devRef .tc main_v3) := W2_of_ne m ρ c main_v3 (by decide)
theorem W2_arg5 : W2 m ρ c (Proc.devRef .tc main_arg5) = W1 m ρ c (Proc.devRef .tc main_arg5) := W2_of_ne m ρ c main_arg5 (by decide)
theorem W2_arg6 : W2 m ρ c (Proc.devRef .tc main_arg6) = W1 m ρ c (Proc.devRef .tc main_arg6) := W2_of_ne m ρ c main_arg6 (by decide)
theorem W2_arg7 : W2 m ρ c (Proc.devRef .tc main_arg7) = W1 m ρ c (Proc.devRef .tc main_arg7) := W2_of_ne m ρ c main_arg7 (by decide)
theorem W2_arg8 : W2 m ρ c (Proc.devRef .tc main_arg8) = W1 m ρ c (Proc.devRef .tc main_arg8) := W2_of_ne m ρ c main_arg8 (by decide)
theorem W2_arg9 : W2 m ρ c (Proc.devRef .tc main_arg9) = W1 m ρ c (Proc.devRef .tc main_arg9) := W2_of_ne m ρ c main_arg9 (by decide)
theorem W2_arg10 : W2 m ρ c (Proc.devRef .tc main_arg10) = W1 m ρ c (Proc.devRef .tc main_arg10) := W2_of_ne m ρ c main_arg10 (by decide)
theorem W2_v10 : W2 m ρ c (Proc.devRef .tc main_v10) = W1 m ρ c (Proc.devRef .tc main_v10) :=
  (W2_arr m ρ c 2).trans (((dat0 (V1 m ρ) c).arrAt_in 2 rfl _).trans (A_eq0 (V1 m ρ) c 2))

theorem W3_v1 : W3 m ρ c (Proc.devRef .tc main_v1) = W2 m ρ c (Proc.devRef .tc main_v1) :=
  StableHlo.after_of_forall_not_mem (b := (Proc.devRef .tc main_v1)) _ _ (by not_written)
theorem W3_v3 : W3 m ρ c (Proc.devRef .tc main_v3) = W2 m ρ c (Proc.devRef .tc main_v3) :=
  StableHlo.after_of_forall_not_mem (b := (Proc.devRef .tc main_v3)) _ _ (by not_written)
theorem W3_v10 : W3 m ρ c (Proc.devRef .tc main_v10) = W2 m ρ c (Proc.devRef .tc main_v10) :=
  StableHlo.after_of_forall_not_mem (b := (Proc.devRef .tc main_v10)) _ _ (by not_written)
theorem W3_v23 : W3 m ρ c (Proc.devRef .tc main_v23) = W2 m ρ c (Proc.devRef .tc main_v23) :=
  StableHlo.after_of_forall_not_mem (b := (Proc.devRef .tc main_v23)) _ _ (by not_written)
theorem W3_arg6 : W3 m ρ c (Proc.devRef .tc main_arg6) = W2 m ρ c (Proc.devRef .tc main_arg6) :=
  StableHlo.after_of_forall_not_mem (b := (Proc.devRef .tc main_arg6)) _ _ (by not_written)
theorem W3_arg9 : W3 m ρ c (Proc.devRef .tc main_arg9) = W2 m ρ c (Proc.devRef .tc main_arg9) :=
  StableHlo.after_of_forall_not_mem (b := (Proc.devRef .tc main_arg9)) _ _ (by not_written)
theorem W3_arg10 : W3 m ρ c (Proc.devRef .tc main_arg10) = W2 m ρ c (Proc.devRef .tc main_arg10) :=
  StableHlo.after_of_forall_not_mem (b := (Proc.devRef .tc main_arg10)) _ _ (by not_written)

theorem W3_v34 : W3 m ρ c (Proc.devRef .tc main_v34)
    = aggT128 (dstColOf (W2 m ρ c (Proc.devRef .tc main_v3))) (srcColOf (W2 m ρ c (Proc.devRef .tc main_v1))) (W2 m ρ c (Proc.devRef .tc main_v23)) := by
  show StableHlo.after hostOps1 (W2 m ρ c) (Proc.devRef .tc main_v34) = _
  after_results_simp <;> rfl
theorem W3_v35 : W3 m ρ c (Proc.devRef .tc main_v35) = tr128 (W2 m ρ c (Proc.devRef .tc main_arg5)) := by
  show StableHlo.after hostOps1 (W2 m ρ c) (Proc.devRef .tc main_v35) = _
  after_results_simp <;> rfl
theorem W3_v36 : W3 m ρ c (Proc.devRef .tc main_v36) = tr128 (W2 m ρ c (Proc.devRef .tc main_arg7)) := by
  show StableHlo.after hostOps1 (W2 m ρ c) (Proc.devRef .tc main_v36) = _
  after_results_simp <;> rfl
theorem W3_v37 : W3 m ρ c (Proc.devRef .tc main_v37) = tr64 (W2 m ρ c (Proc.devRef .tc main_arg8)) := by
  show StableHlo.after hostOps1 (W2 m ρ c) (Proc.devRef .tc main_v37) = _
  after_results_simp <;> rfl

/-! ## Region 1 is left, region 2 is entered -/

theorem V3_layer (h0 : Reg0) :
    Cert.Sage.layer (W3 m ρ c (Proc.devRef .tc main_v23)) (W3 m ρ c (Proc.devRef .tc main_v34)) (W3 m ρ c (Proc.devRef .tc main_v10))
      (W3 m ρ c (Proc.devRef .tc main_v35)) (W3 m ρ c (Proc.devRef .tc main_arg6)) (W3 m ρ c (Proc.devRef .tc main_v36)) = hid2 m c := by
  rw [W3_v23, W3_v34, W3_v10, W3_v35, W3_arg6, W3_v36, W2_v23 m ρ c h0, W2_v3, W2_v1, W2_v10, W2_arg5, W2_arg6, W2_arg7,
    W1_v3, W1_v1, W1_v10, W1_arg5, W1_arg6, W1_arg7]; rfl

theorem W4_v38_0 (h0 : Reg0) (h1 : Reg1a) : W4 m ρ c (Proc.devRef .tc main_v38_0) = hid2 m c :=
  ((W4_arr m ρ c 7).trans (h1 (V3 m ρ) c)).trans (V3_layer m ρ c h0)
theorem W4_v38_1 (h0 : Reg0) (h1 : Reg1b) : W4 m ρ c (Proc.devRef .tc main_v38_1) = prj2 m c := by
  refine ((W4_arr m ρ c 8).trans (h1 (V3 m ρ) c)).trans ?_
  show Cert.Sage.proj (Cert.Sage.layer (W3 m ρ c (Proc.devRef .tc main_v23)) (W3 m ρ c (Proc.devRef .tc main_v34)) (W3 m ρ c (Proc.devRef .tc main_v10))
      (W3 m ρ c (Proc.devRef .tc main_v35)) (W3 m ρ c (Proc.devRef .tc main_arg6)) (W3 m ρ c (Proc.devRef .tc main_v36))) (W3 m ρ c (Proc.devRef .tc main_v37)) = _
  rw [V3_layer m ρ c h0, W3_v37, W2_arg8, W1_arg8]; rfl

theorem W4_v1 : W4 m ρ c (Proc.devRef .tc main_v1) = W3 m ρ c (Proc.devRef .tc main_v1) := W4_of_ne m ρ c main_v1 (by decide)
theorem W4_v3 : W4 m ρ c (Proc.devRef .tc main_v3) = W3 m ρ c (Proc.devRef .tc main_v3) := W4_of_ne m ρ c main_v3 (by decide)
theorem W4_arg9 : W4 m ρ c (Proc.devRef .tc main_arg9) = W3 m ρ c (Proc.devRef .tc main_arg9) := W4_of_ne m ρ c main_arg9 (by decide)
theorem W4_arg10 : W4 m ρ c (Proc.devRef .tc main_arg10) = W3 m ρ c (Proc.devRef .tc main_arg10) := W4_of_ne m ρ c main_arg10 (by decide)
theorem W4_v10 : W4 m ρ c (Proc.devRef .tc main_v10) = W3 m ρ c (Proc.devRef .tc main_v10) :=
  (W4_arr m ρ c 2).trans (((dat1 (V3 m ρ) c).arrAt_in 2 rfl _).trans (A_eq1 (V3 m ρ) c 2))

theorem W5_v10 : W5 m ρ c (Proc.devRef .tc main_v10) = W4 m ρ c (Proc.devRef .tc main_v10) :=
  StableHlo.after_of_forall_not_mem (b := (Proc.devRef .tc main_v10)) _ _ (by not_written)
theorem W5_v38_0 : W5 m ρ c (Proc.devRef .tc main_v38_0) = W4 m ρ c (Proc.devRef .tc main_v38_0) :=
  StableHlo.after_of_forall_not_mem (b := (Proc.devRef .tc main_v38_0)) _ _ (by not_written)
theorem W5_arg9 : W5 m ρ c (Proc.devRef .tc main_arg9) = W4 m ρ c (Proc.devRef .tc main_arg9) :=
  StableHlo.after_of_forall_not_mem (b := (Proc.devRef .tc main_arg9)) _ _ (by not_written)
theorem W5_v49 : W5 m ρ c (Proc.devRef .tc main_v49)
    = aggT64 (dstColOf (W4 m ρ c (Proc.devRef .tc main_v3))) (srcColOf (W4 m ρ c (Proc.devRef .tc main_v1))) (W4 m ρ c (Proc.devRef .tc main_v38_1)) := by
  show StableHlo.after hostOps2 (W4 m ρ c) (Proc.devRef .tc main_v49) = _
  after_results_simp <;> rfl
theorem W5_v50 : W5 m ρ c (Proc.devRef .tc main_v50) = tr64 (W4 m ρ c (Proc.devRef .tc main_arg10)) := by
  show StableHlo.after hostOps2 (W4 m ρ c) (Proc.devRef .tc main_v50) = _
  after_results_simp <;> rfl

/-! ## Region 2 is left: the result -/

/-- The result buffer after the run holds the last layer of the argument arrays. -/
theorem result (h0 : Reg0) (h1a : Reg1a) (h1b : Reg1b) (h2 : Reg2) : W6 m ρ c (Proc.devRef .tc main_v51) = out3 m c := by
  refine ((W6_arr m ρ c 5).trans (h2 (V5 m ρ) c)).trans ?_
  show Cert.Sage.fin (W5 m ρ c (Proc.devRef .tc main_v38_0)) (W5 m ρ c (Proc.devRef .tc main_v49)) (W5 m ρ c (Proc.devRef .tc main_v10))
    (W5 m ρ c (Proc.devRef .tc main_arg9)) (W5 m ρ c (Proc.devRef .tc main_v50)) = _
  rw [W5_v38_0, W5_v49, W5_v10, W5_arg9, W5_v50, W4_v38_0 m ρ c h0 h1a, W4_v38_1 m ρ c h0 h1b, W4_v3, W4_v1, W4_v10, W4_arg9, W4_arg10,
    W3_v3, W3_v1, W3_v10, W3_arg9, W3_arg10, W2_v3, W2_v1, W2_v10, W2_arg9, W2_arg10, W1_v3, W1_v1, W1_v10, W1_arg9, W1_arg10]; rfl

end Cert.KernelIdeal.KVal

end
-- ==== Proof.LibMatmul.lean ====
/-
  A matrix product read at an entry.

  At the exact instance a matrix-unit product into a zero accumulator is, entry by entry, the textbook contraction:
  for an M x K left operand and a K x N right operand, entry (p, q) is the sum over k of lhs(p, k) * rhs(k, q)
  (`matmul_zero_plain_apply`); when the right operand is given as N x K and contracted along its second axis
  (a product with the transpose), entry (p, q) is the sum over k of lhs(p, k) * rhs(q, k) (`matmul_zero_nt_apply`).
  The dimension records are the ones with exactly those contracting and free axes and no batch axis.
-/
import Idealize.ShloMosaic.PureOps.Ideal.Laws
import Idealize.ShloMosaic.Lib.ValueIdx

noncomputable section

namespace Cert.MatmulAt

open Idealize.ShloMosaic Idealize.ShloMosaic.ValueIdx

/-- Rows times columns: contract the left operand's second axis with the right operand's first. -/
abbrev plainDims {M K N : ℕ} (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- Rows times rows: contract the second axis of both operands. -/
abbrev ntDims {M K N : ℕ} (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ where
  lhsContracting := [1]
  rhsContracting := [1]
  lhsNonContracting := [0]
  rhsNonContracting := [0]
  lhsBatch := []
  rhsBatch := []
  wf := wf

theorem matmul_zero_plain_apply {M K N : ℕ} {φ₁ φ₂ : FTy}
    (wf : DotDims.WF ⟨2, ![M, K]⟩ ⟨2, ![K, N]⟩ ⟨2, ![M, N]⟩ [1] [0] [0] [1] [] [])
    (prec : Option ContractPrecision)
    (lhs : FVec Ideal ⟨2, ![M, K]⟩ φ₁) (rhs : FVec Ideal ⟨2, ![K, N]⟩ φ₂) (p : Fin M) (q : Fin N) :
    matmul (plainDims wf) prec lhs rhs (constant (F := Ideal) ⟨2, ![M, N]⟩ .f32 0x00000000#32) (ix2 p q)
      = ∑ k : Fin K, lhs (ix2 p k) * rhs (ix2 k q) := by
  simp only [matmul]
  rw [Ideal.matmul_constant_zero_apply, ← Equiv.sum_comp (contrEquiv1 (plainDims wf) K rfl rfl).symm]
  refine Finset.sum_congr rfl fun k _ => ?_
  have hk := contrEquiv1_symm_val (plainDims wf) K rfl rfl k
  have el : (plainDims wf).lhsIdx (ix2 p q) ((contrEquiv1 (plainDims wf) K rfl rfl).symm k) = ix2 p k :=
    funext fun a => Fin.ext (by
      match a with
      | ⟨0, _⟩ =>
        unfold DotDims.lhsIdx
        split
        · rename_i hb; exact absurd hb List.not_mem_nil
        · split
          · rfl
          · rename_i hn; exact absurd (List.mem_singleton_self _) hn
      | ⟨1, _⟩ => exact ((plainDims wf).lhsIdx_val_of_single rfl _ _).trans hk)
  have er : (plainDims wf).rhsIdx (ix2 p q) ((contrEquiv1 (plainDims wf) K rfl rfl).symm k) = ix2 k q :=
    funext fun a => Fin.ext (by
      match a with
      | ⟨0, _⟩ => exact ((plainDims wf).rhsIdx_val_of_single rfl _ _).trans hk
      | ⟨1, _⟩ =>
        unfold DotDims.rhsIdx
        split
        · rename_i hb; exact absurd hb List.not_mem_nil
        · split
          · rfl
          · rename_i hn; exact absurd (List.mem_singleton_self _) hn)
  rw [el, er]

theorem matmul_zero_nt_apply {M K N : ℕ} {φ₁ φ₂ : FTy}
    (wf : DotDims.WF ⟨2, ![M, K]⟩ ⟨2, ![N, K]⟩ ⟨2, ![M, N]⟩ [1] [1] [0] [0] [] [])
    (prec : Option ContractPrecision)
    (lhs : FVec Ideal ⟨2, ![M, K]⟩ φ₁) (rhs : FVec Ideal ⟨2, ![N, K]⟩ φ₂) (p : Fin M) (q : Fin N) :
    matmul (ntDims wf) prec lhs rhs (constant (F := Ideal) ⟨2, ![M, N]⟩ .f32 0x00000000#32) (ix2 p q)
      = ∑ k : Fin K, lhs (ix2 p k) * rhs (ix2 q k) := by
  simp only [matmul]
  rw [Ideal.matmul_constant_zero_apply, ← Equiv.sum_comp (contrEquiv1 (ntDims wf) K rfl rfl).symm]
  refine Finset.sum_congr rfl fun k _ => ?_
  have hk := contrEquiv1_symm_val (ntDims wf) K rfl rfl k
  have el : (ntDims wf).lhsIdx (ix2 p q) ((contrEquiv1 (ntDims wf) K rfl rfl).symm k) = ix2 p k :=
    funext fun a => Fin.ext (by
      match a with
      | ⟨0, _⟩ =>
        unfold DotDims.lhsIdx
        split
        · rename_i hb; exact absurd hb List.not_mem_nil
        · split
          · rfl
          · rename_i hn; exact absurd (List.mem_singleton_self _) hn
      | ⟨1, _⟩ => exact ((ntDims wf).lhsIdx_val_of_single rfl _ _).trans hk)
  have er : (ntDims wf).rhsIdx (ix2 p q) ((contrEquiv1 (ntDims wf) K rfl rfl).symm k) = ix2 q k :=
    funext fun a => Fin.ext (by
      match a with
      | ⟨0, _⟩ =>
        unfold DotDims.rhsIdx
        split
        · rename_i hb; exact absurd hb List.not_mem_nil
        · split
          · rfl
          · rename_i hn; exact absurd (List.mem_singleton_self _) hn
      | ⟨1, _⟩ => exact ((ntDims wf).rhsIdx_val_of_single rfl _ _).trans hk)
  rw [el, er]

end Cert.MatmulAt

end
-- ==== Proof.KPay.lean ====
/-
  The two combine kernels' stored values, entry by entry.

  Each kernel body divides the gathered rows by the degree column, sends the quotient through the left weights, adds the
  bias row and the node's own rows through the right weights, and floors the sum at zero.  Over the extended reals the
  roundings to the narrow format are the identity and each matrix product into a zero accumulator is the textbook sum, so
  entry (p, q) of what a body stores is the floored sum written with the entries of the blocks it loaded.  The second
  kernel also stores that result through the next layer's left weights.
-/
import proofs.«120991_j39273180954945_2_alg».proof.Proof.Gen.KernelIdeal.Skeleton
import proofs.«120991_j39273180954945_2_alg».proof.Proof.LibMatmul
import Idealize.ShloMosaic.Lib.ValueLayout

set_option maxRecDepth 16384

noncomputable section

namespace Cert.KernelIdeal.KReg

open Cert.KernelIdeal Cert.KernelIdeal.Gen Idealize.ShloMosaic Idealize.ShloMosaic.ValueIdx
open scoped BigOperators

/-- A column `[a, 1]` broadcast to `[a, b]` reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The bias `[b]` cast to one row and broadcast to `[a, b]` reads, at `(p, c)`, the bias at `c`. -/
theorem bias_row_apply {α : Type} {a b : ℕ} (v : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 (0 : Fin 1) c)

/-- Entry `(p, q)` of what the first combine kernel stores. -/
theorem pay0_at (v0 : Vec Ideal S4000x128 .f32) (v2 : Vec Ideal S4000x1 .f32) (v7 : Vec Ideal S4000x128 .f32)
    (v9 v12 : Vec Ideal S128x128 .f32) (v16 : Vec Ideal S128 .f32) (p : Fin 4000) (q : Fin 128) :
    Gen.k0_pay1 v0 v2 v7 v9 v12 v16 (ix2 p q)
      = max ((∑ k : Fin 128, Ideal.div (v0 (ix2 p k)) (v2 (ix2 p (0 : Fin 1))) * v9 (ix2 k q)) + v16 (ix1 q)
          + ∑ k : Fin 128, v7 (ix2 p k) * v12 (ix2 k q)) 0 := by
  unfold k0_pay1
  have hm1 := Cert.MatmulAt.matmul_zero_plain_apply dot_S4000x128_S128x128_S4000x128_1_0_0_1_n_n.wf none
    (truncf .bf16 (divf (shapeCast S4000x128 v0 shapeCasts_S4000x128_S4000x128)
      (broadcastTo S4000x128 (shapeCast S4000x1 v2 shapeCasts_S4000x1_S4000x1) broadcasts_S4000x1_S4000x128))
      bitsLt_bf16_f32 : FVec Ideal S4000x128 .bf16)
    (truncf .bf16 (shapeCast S128x128 v9 shapeCasts_S128x128_S128x128) bitsLt_bf16_f32 : FVec Ideal S128x128 .bf16) p q
  have hm2 := Cert.MatmulAt.matmul_zero_plain_apply dot_S4000x128_S128x128_S4000x128_1_0_0_1_n_n.wf none
    (truncf .bf16 v7 bitsLt_bf16_f32 : FVec Ideal S4000x128 .bf16)
    (truncf .bf16 (shapeCast S128x128 v12 shapeCasts_S128x128_S128x128) bitsLt_bf16_f32 : FVec Ideal S128x128 .bf16) p q
  refine (congrArg₂ max (congrArg₂ (· + ·) (congrArg₂ (· + ·) hm1
    (bias_row_apply v16 shapeCasts_S128_S1x128 broadcasts_S1x128_S4000x128 p q)) hm2) Ideal.ofBits_zero_f32).trans ?_
  refine congrArg₂ max (congrArg₂ (· + ·) (congrArg₂ (· + ·) (Finset.sum_congr rfl fun k _ => ?_) rfl)
    (Finset.sum_congr rfl fun k _ => ?_)) rfl
  · show Ideal.div (shapeCast S4000x128 v0 shapeCasts_S4000x128_S4000x128 (ix2 p k))
        (broadcastTo S4000x128 (shapeCast S4000x1 v2 shapeCasts_S4000x1_S4000x1) broadcasts_S4000x1_S4000x128 (ix2 p k))
        * shapeCast S128x128 v9 shapeCasts_S128x128_S128x128 (ix2 k q) = _
    rw [broadcastTo_a1_ab_apply, shapeCast_self, shapeCast_self, shapeCast_self]
  · show v7 (ix2 p k) * shapeCast S128x128 v12 shapeCasts_S128x128_S128x128 (ix2 k q) = _
    rw [shapeCast_self]

/-- Entry `(p, q)` of the second combine kernel's floored sum, before it is stored. -/
theorem pay1_at (v0 : Vec Ideal S4000x128 .f32) (v2 : Vec Ideal S4000x1 .f32) (v7 : Vec Ideal S4000x128 .bf16)
    (v9 v12 : Vec Ideal S128x128 .f32) (v16 : Vec Ideal S128 .f32) (p : Fin 4000) (q : Fin 128) :
    Gen.k1_pay1 v0 v2 v7 v9 v12 v16 (ix2 p q)
      = max ((∑ k : Fin 128, Ideal.div (v0 (ix2 p k)) (v2 (ix2 p (0 : Fin 1))) * v9 (ix2 k q)) + v16 (ix1 q)
          + ∑ k : Fin 128, v7 (ix2 p k) * v12 (ix2 k q)) 0 := by
  unfold k1_pay1
  have hm1 := Cert.MatmulAt.matmul_zero_plain_apply dot_S4000x128_S128x128_S4000x128_1_0_0_1_n_n.wf none
    (truncf .bf16 (divf (shapeCast S4000x128 v0 shapeCasts_S4000x128_S4000x128)
      (broadcastTo S4000x128 (shapeCast S4000x1 v2 shapeCasts_S4000x1_S4000x1) broadcasts_S4000x1_S4000x128))
      bitsLt_bf16_f32 : FVec Ideal S4000x128 .bf16)
    (truncf .bf16 (shapeCast S128x128 v9 shapeCasts_S128x128_S128x128) bitsLt_bf16_f32 : FVec Ideal S128x128 .bf16) p q
  have hm2 := Cert.MatmulAt.matmul_zero_plain_apply dot_S4000x128_S128x128_S4000x128_1_0_0_1_n_n.wf none
    (shapeCast S4000x128 v7 shapeCasts_S4000x128_S4000x128 : FVec Ideal S4000x128 .bf16)
    (truncf .bf16 (shapeCast S128x128 v12 shapeCasts_S128x128_S128x128) bitsLt_bf16_f32 : FVec Ideal S128x128 .bf16) p q
  refine (congrArg₂ max (congrArg₂ (· + ·) (congrArg₂ (· + ·) hm1
    (bias_row_apply v16 shapeCasts_S128_S1x128 broadcasts_S1x128_S4000x128 p q)) hm2) Ideal.ofBits_zero_f32).trans ?_
  refine congrArg₂ max (congrArg₂ (· + ·) (congrArg₂ (· + ·) (Finset.sum_congr rfl fun k _ => ?_) rfl)
    (Finset.sum_congr rfl fun k _ => ?_)) rfl
  · show Ideal.div (shapeCast S4000x128 v0 shapeCasts_S4000x128_S4000x128 (ix2 p k))
        (broadcastTo S4000x128 (shapeCast S4000x1 v2 shapeCasts_S4000x1_S4000x1) broadcasts_S4000x1_S4000x128 (ix2 p k))
        * shapeCast S128x128 v9 shapeCasts_S128x128_S128x128 (ix2 k q) = _
    rw [broadcastTo_a1_ab_apply, shapeCast_self, shapeCast_self, shapeCast_self]
  · show shapeCast S4000x128 v7 shapeCasts_S4000x128_S4000x128 (ix2 p k)
        * shapeCast S128x128 v12 shapeCasts_S128x128_S128x128 (ix2 k q) = _
    rw [shapeCast_self, shapeCast_self]

/-- What the second combine kernel stores in its first output is that floored sum. -/
theorem pay1_2_at (v0 : Vec Ideal S4000x128 .f32) (v2 : Vec Ideal S4000x1 .f32) (v7 : Vec Ideal S4000x128 .bf16)
    (v9 v12 : Vec Ideal S128x128 .f32) (v16 : Vec Ideal S128 .f32) (p : Fin 4000) (q : Fin 128) :
    Gen.k1_pay2 v0 v2 v7 v9 v12 v16 (ix2 p q) = Gen.k1_pay1 v0 v2 v7 v9 v12 v16 (ix2 p q) := rfl

/-- What it stores in its second output: the floored sum through the next layer's left weights. -/
theorem pay1_3_at (v0 : Vec Ideal S4000x128 .f32) (v2 : Vec Ideal S4000x1 .f32) (v7 : Vec Ideal S4000x128 .bf16)
    (v9 v12 : Vec Ideal S128x128 .f32) (v16 : Vec Ideal S128 .f32) (v26 : Vec Ideal S128x64 .f32)
    (p : Fin 4000) (q : Fin 64) :
    Gen.k1_pay3 v0 v2 v7 v9 v12 v16 v26 (ix2 p q)
      = ∑ k : Fin 128, Gen.k1_pay1 v0 v2 v7 v9 v12 v16 (ix2 p k) * v26 (ix2 k q) := by
  unfold k1_pay3
  refine (Cert.MatmulAt.matmul_zero_plain_apply dot_S4000x128_S128x64_S4000x64_1_0_0_1_n_n.wf none
    (truncf .bf16 (k1_pay1 v0 v2 v7 v9 v12 v16) bitsLt_bf16_f32 : FVec Ideal S4000x128 .bf16)
    (truncf .bf16 (shapeCast S128x64 v26 shapeCasts_S128x64_S128x64) bitsLt_bf16_f32 : FVec Ideal S128x64 .bf16) p q).trans ?_
  refine Finset.sum_congr rfl fun k _ => ?_
  show k1_pay1 v0 v2 v7 v9 v12 v16 (ix2 p k) * shapeCast S128x64 v26 shapeCasts_S128x64_S128x64 (ix2 k q) = _
  rw [shapeCast_self]

end Cert.KernelIdeal.KReg

end
-- ==== Proof.KReg0.lean ====
/-
  The first combine region, read as one whole-array function.

  The region walks 25 grid points; point t stages rows 4000 t … 4000 t + 3999 of the node features, of the gathered rows
  and of the degree column, and the whole of the two weight matrices and the bias, and writes back rows
  4000 t … 4000 t + 3999 of the output.  Entry (p, q) of what the body stores at point t is the floored layer sum of the
  staged entries, which are the arrays' entries at row 4000 t + p; so each written block is a block of ONE function of
  the arrays as the region found them, the layer, and since row r lies in the block of point r / 4000 the blocks cover the
  output: after the region the output array is the layer of the region-entry arrays.
-/
import proofs.«120991_j39273180954945_2_alg».proof.Proof.FrameKernelIdealP
import proofs.«120991_j39273180954945_2_alg».proof.Proof.KPay
import proofs.«120991_j39273180954945_2_alg».proof.Proof.Spec
import Idealize.ShloMosaic.Lib.Pipeline.Value

set_option maxRecDepth 16384

noncomputable section

namespace Cert.KernelIdeal.KReg

open Cert.KernelIdeal Cert.KernelIdeal.Gen Idealize.ShloMosaic Idealize.ShloMosaic.ValueIdx
open Idealize.ShloMosaic.TcCoe Idealize.SL.Sem
open Idealize.ShloMosaic.Pipeline (Dat)
open Cert.Sage
open scoped BigOperators

variable (V : (c : Dev nD) → (b : Ref sig .tc) → Buf (Elt Ideal) ((c : Thread nD τ).loc b))

theorem zero2_0 : (![0, 0] : Fin 2 → Nat) = fun _ => 0 := funext fun a => by fin_cases a <;> rfl
theorem zero1_0 : (![0] : Fin 1 → Nat) = fun _ => 0 := funext fun a => by fin_cases a <;> rfl

/-- The index maps over the grid: the row-blocked windows sit at block row `t`, column block 0; the weights and the
    bias at block 0. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 2) = t.val ∧ win0_6.index t (1 : Fin 2) = 0
    ∧ t.val < 25 :=
  (by decide +kernel : ∀ t : Fin grid0.N, _)

/-- The grid has 25 points. -/
theorem points0 : cfg0.N = 25 := by decide +kernel

/-- Entry `(p, q)` of the body's stored value, when the staged blocks hold the arrays' entries at row `r`, is the
    layer at `(r, q)`. -/
theorem point0 (x0 x1 : Vec Ideal S4000x128 .f32) (x2 : Vec Ideal S4000x1 .f32) (x3 x5 : Vec Ideal S128x128 .f32)
    (x4 : Vec Ideal S128 .f32) (h ms : Arr2 100000 128) (cc : Arr2 100000 1) (wl wr : Arr2 128 128) (bl : Arr1 128)
    (p : Fin 4000) (q : Fin 128) (r : Fin 100000)
    (e0 : ∀ k : Fin 128, x0 (ix2 p k) = h (ix2 r k)) (e1 : ∀ k : Fin 128, x1 (ix2 p k) = ms (ix2 r k))
    (e2 : x2 (ix2 p (0 : Fin 1)) = cc (ix2 r (0 : Fin 1)))
    (e3 : ∀ k : Fin 128, x3 (ix2 k q) = wl (ix2 k q)) (e4 : x4 (ix1 q) = bl (ix1 q))
    (e5 : ∀ k : Fin 128, x5 (ix2 k q) = wr (ix2 k q)) :
    k0_pay1 x1 x2 x0 x3 x5 x4 (ix2 p q) = layer h ms cc wl bl wr (ix2 r q) := by
  rw [pay0_at]
  show _ = max (linAt h ms cc wl bl wr r q) 0
  unfold linAt
  simp only [e0, e1, e2, e3, e4, e5]

/-- The layer of the arrays as the region finds them. -/
abbrev layer0 (c : Dev nD) : Arr2 100000 128 :=
  layer (V c main_arg0 : Arr2 100000 128) (V c main_v20 : Arr2 100000 128) (V c main_v10 : Arr2 100000 1)
    (V c main_v21 : Arr2 128 128) (V c main_arg3 : Arr1 128) (V c main_v22 : Arr2 128 128)

/-- What point `t` writes back is block `t` of the layer of the arrays as the region finds them. -/
theorem flushed0_eq (c : Dev nD) (t : Fin cfg0.N) :
    (dat0 (F := Ideal) V c).flushed 6 t = ((cfg0.win 6).blk t).view.read (Elt Ideal) (layer0 V c) := by
  show (cfg0.win 6).cut (grid0.coords t) ((dat0 V c).after 6 t) = _
  rw [after0_6]
  unfold out0_6
  rw [View.canon_unit_zero zero2_0]
  simp only [View.ld_unit_zero (S := S4000x128) zero2_0, View.ld_unit_zero (S := S4000x1) zero2_0,
    View.ld_unit_zero (S := S128x128) zero2_0, View.ld_unit_zero (S := S128) zero1_0]
  obtain ⟨a0, a1, b0, b1, c0, c1, d0, d1, e0, f0, f1, g0, g1, ht⟩ := idx_facts0 t
  funext j
  obtain ⟨p, q, rfl⟩ : ∃ (p : Fin 4000) (q : Fin 128), j = ix2 p q := ⟨j 0, j 1, eq_ix2 j⟩
  have hp : p.val < 4000 := p.isLt
  have hr : t.val * 4000 + p.val < 100000 := by omega
  have h0 : ∀ k : Fin 128, iblk0 V c 0 t (ix2 p k) = (V c main_arg0 : Arr2 100000 128) (ix2 ⟨t.val * 4000 + p.val, hr⟩ k) := fun k => by
    show (V c main_arg0 : Arr2 100000 128) (((cfg0.win 0).blk t).view.emb (ix2 p k)) = _
    refine congrArg (V c main_arg0 : Arr2 100000 128) (funext fun a => Fin.ext ?_)
    match a with
    | ⟨0, _⟩ => show win0_0.index t (0 : Fin 2) * 4000 + 1 * p.val = t.val * 4000 + p.val; omega
    | ⟨1, _⟩ => show win0_0.index t (1 : Fin 2) * 128 + 1 * k.val = k.val; omega
  have h1 : ∀ k : Fin 128, iblk0 V c 1 t (ix2 p k) = (V c main_v20 : Arr2 100000 128) (ix2 ⟨t.val * 4000 + p.val, hr⟩ k) := fun k => by
    show (V c main_v20 : Arr2 100000 128) (((cfg0.win 1).blk t).view.emb (ix2 p k)) = _
    refine congrArg (V c main_v20 : Arr2 100000 128) (funext fun a => Fin.ext ?_)
    match a with
    | ⟨0, _⟩ => show win0_1.index t (0 : Fin 2) * 4000 + 1 * p.val = t.val * 4000 + p.val; omega
    | ⟨1, _⟩ => show win0_1.index t (1 : Fin 2) * 128 + 1 * k.val = k.val; omega
  have h2 : iblk0 V c 2 t (ix2 p (0 : Fin 1)) = (V c main_v10 : Arr2 100000 1) (ix2 ⟨t.val * 4000 + p.val, hr⟩ (0 : Fin 1)) := by
    show (V c main_v10 : Arr2 100000 1) (((cfg0.win 2).blk t).view.emb (ix2 p (0 : Fin 1))) = _
    refine congrArg (V c main_v10 : Arr2 100000 1) (funext fun a => Fin.ext ?_)
    match a with
    | ⟨0, _⟩ => show win0_2.index t (0 : Fin 2) * 4000 + 1 * p.val = t.val * 4000 + p.val; omega
    | ⟨1, _⟩ => show win0_2.index t (1 : Fin 2) * 1 + 1 * 0 = 0; omega
  have h3 : ∀ k : Fin 128, iblk0 V c 3 t (ix2 k q) = (V c main_v21 : Arr2 128 128) (ix2 k q) := fun k => by
    show (V c main_v21 : Arr2 128 128) (((cfg0.win 3).blk t).view.emb (ix2 k q)) = _
    refine congrArg (V c main_v21 : Arr2 128 128) (funext fun a => Fin.ext ?_)
    match a with
    | ⟨0, _⟩ => show win0_3.index t (0 : Fin 2) * 128 + 1 * k.val = k.val; omega
    | ⟨1, _⟩ => show win0_3.index t (1 : Fin 2) * 128 + 1 * q.val = q.val; omega
  have h4 : iblk0 V c 4 t (ix1 q) = (V c main_arg3 : Arr1 128) (ix1 q) := by
    show (V c main_arg3 : Arr1 128) (((cfg0.win 4).blk t).view.emb (ix1 q)) = _
    refine congrArg (V c main_arg3 : Arr1 128) (funext fun a => Fin.ext ?_)
    match a with
    | ⟨0, _⟩ => show win0_4.index t (0 : Fin 1) * 128 + 1 * q.val = q.val; omega
  have h5 : ∀ k : Fin 128, iblk0 V c 5 t (ix2 k q) = (V c main_v22 : Arr2 128 128) (ix2 k q) := fun k => by
    show (V c main_v22 : Arr2 128 128) (((cfg0.win 5).blk t).view.emb (ix2 k q)) = _
    refine congrArg (V c main_v22 : Arr2 128 128) (funext fun a => Fin.ext ?_)
    match a with
    | ⟨0, _⟩ => show win0_5.index t (0 : Fin 2) * 128 + 1 * k.val = k.val; omega
    | ⟨1, _⟩ => show win0_5.index t (1 : Fin 2) * 128 + 1 * q.val = q.val; omega
  have hout : ((cfg0.win 6).blk t).view.emb (ix2 p q) = (ix2 ⟨t.val * 4000 + p.val, hr⟩ q : S100000x128.Idx) := by
    refine funext fun a => Fin.ext ?_
    match a with
    | ⟨0, _⟩ => show win0_6.index t (0 : Fin 2) * 4000 + 1 * p.val = t.val * 4000 + p.val; omega
    | ⟨1, _⟩ => show win0_6.index t (1 : Fin 2) * 128 + 1 * q.val = q.val; omega
  show k0_pay1 (iblk0 V c 1 t) (iblk0 V c 2 t) (iblk0 V c 0 t) (iblk0 V c 3 t) (iblk0 V c 5 t) (iblk0 V c 4 t) (ix2 p q)
    = layer0 V c (((cfg0.win 6).blk t).view.emb (ix2 p q))
  exact (point0 (iblk0 V c 0 t) (iblk0 V c 1 t) (iblk0 V c 2 t) (iblk0 V c 3 t) (iblk0 V c 5 t) (iblk0 V c 4 t)
    (V c main_arg0 : Arr2 100000 128) (V c main_v20 : Arr2 100000 128) (V c main_v10 : Arr2 100000 1)
    (V c main_v21 : Arr2 128 128) (V c main_v22 : Arr2 128 128) (V c main_arg3 : Arr1 128)
    p q ⟨t.val * 4000 + p.val, hr⟩ h0 h1 h2 h3 h4 h5).trans (congrArg (layer0 V c) hout.symm)

/-- An index of the output array is in point `t`'s block iff each coordinate is in the block's range on its axis. -/
theorem mem_blk0 (t : Fin cfg0.N) (i : S100000x128.Idx) :
    i ∈ ((cfg0.win 6).blk t).view.set ↔ ∀ a : Fin 2, win0_6.index t a * S4000x128.size a ≤ (i a).val
      ∧ (i a).val < win0_6.index t a * S4000x128.size a + S4000x128.size a := by
  show i ∈ ((View.whole main_v23).slice (win0_6.rect t)).set ↔ _
  rw [View.set_slice_whole, Rect.mem_set_unit]
  exact Iff.rfl

/-- Row `r` of the output lies in the block of point `r / 4000`: the blocks cover the array. -/
theorem cover0 (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  obtain ⟨t, ht⟩ : ∃ t : Fin cfg0.N, t.val = (i 0).val / 4000 :=
    ⟨⟨(i 0).val / 4000, by rw [points0]; omega⟩, rfl⟩
  obtain ⟨a0, a1, b0, b1, c0, c1, d0, d1, e0, f0, f1, g0, g1, hlt⟩ := idx_facts0 t
  refine ⟨t, flush0_6 t, ?_⟩
  rw [mem_blk0]
  intro a
  match a with
  | ⟨0, _⟩ =>
    show win0_6.index t (0 : Fin 2) * 4000 ≤ (i 0).val ∧ (i 0).val < win0_6.index t (0 : Fin 2) * 4000 + 4000
    omega
  | ⟨1, _⟩ =>
    show win0_6.index t (1 : Fin 2) * 128 ≤ (i 1).val ∧ (i 1).val < win0_6.index t (1 : Fin 2) * 128 + 128
    omega

/-- After the region the output array is the layer of the arrays as the region found them. -/
theorem final0_6 (c : Dev nD) : (Gen.dat0 (F := Ideal) V c).arrAt 6 cfg0.N
      = Cert.Sage.layer (V c main_arg0) (V c main_v20) (V c main_v10) (V c main_v21) (V c main_arg3) (V c main_v22) :=
  (dat0 (F := Ideal) V c).arrAt_eq_of_cover 6 (layer0 V c) (fun t _ => flushed0_eq V c t) cover0

end Cert.KernelIdeal.KReg

end
-- ==== Proof.KReg1.lean ====
/-
  The second combine region's first output, read as one whole-array function.

  The region walks 25 grid points; point t stages rows 4000 t … 4000 t + 3999 of the node features, of the gathered rows
  and of the degree column, and the whole of the two weight matrices and the bias, and writes back rows
  4000 t … 4000 t + 3999 of its first output.  Entry (p, q) of what the body stores there at point t is the floored layer
  sum of the staged entries, which are the arrays' entries at row 4000 t + p; so each written block is a block of ONE
  function of the arrays as the region found them, the layer, and since row r lies in the block of point r / 4000 the
  blocks cover the output: after the region the first output array is the layer of the region-entry arrays.
-/
import proofs.«120991_j39273180954945_2_alg».proof.Proof.FrameKernelIdealP
import proofs.«120991_j39273180954945_2_alg».proof.Proof.KPay
import proofs.«120991_j39273180954945_2_alg».proof.Proof.Spec
import Idealize.ShloMosaic.Lib.Pipeline.Value

set_option maxRecDepth 16384

noncomputable section

namespace Cert.KernelIdeal.KReg

open Cert.KernelIdeal Cert.KernelIdeal.Gen Idealize.ShloMosaic Idealize.ShloMosaic.ValueIdx
open Idealize.ShloMosaic.TcCoe Idealize.SL.Sem
open Idealize.ShloMosaic.Pipeline (Dat)
open Cert.Sage
open scoped BigOperators

variable (V : (c : Dev nD) → (b : Ref sig .tc) → Buf (Elt Ideal) ((c : Thread nD τ).loc b))

theorem zero2_1 : (![0, 0] : Fin 2 → Nat) = fun _ => 0 := funext fun a => by fin_cases a <;> rfl
theorem zero1_1 : (![0] : Fin 1 → Nat) = fun _ => 0 := funext fun a => by fin_cases a <;> rfl

/-- The index maps over the grid: the row-blocked windows sit at block row `t`, column block 0; the weights and the
    bias at block 0. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0
    ∧ win1_8.index t (0 : Fin 2) = t.val ∧ win1_8.index t (1 : Fin 2) = 0
    ∧ t.val < 25 :=
  (by decide +kernel : ∀ t : Fin grid1.N, _)

/-- The grid has 25 points. -/
theorem points1 : cfg1.N = 25 := by decide +kernel

/-- Entry `(p, q)` of the body's floored sum, when the staged blocks hold the arrays' entries at row `r`, is the layer
    at `(r, q)`. -/
theorem point1 (x0 : Vec Ideal S4000x128 .bf16) (x1 : Vec Ideal S4000x128 .f32) (x2 : Vec Ideal S4000x1 .f32)
    (x3 x5 : Vec Ideal S128x128 .f32) (x4 : Vec Ideal S128 .f32)
    (h ms : Arr2 100000 128) (cc : Arr2 100000 1) (wl wr : Arr2 128 128) (bl : Arr1 128)
    (p : Fin 4000) (q : Fin 128) (r : Fin 100000)
    (e0 : ∀ k : Fin 128, x0 (ix2 p k) = h (ix2 r k)) (e1 : ∀ k : Fin 128, x1 (ix2 p k) = ms (ix2 r k))
    (e2 : x2 (ix2 p (0 : Fin 1)) = cc (ix2 r (0 : Fin 1)))
    (e3 : ∀ k : Fin 128, x3 (ix2 k q) = wl (ix2 k q)) (e4 : x4 (ix1 q) = bl (ix1 q))
    (e5 : ∀ k : Fin 128, x5 (ix2 k q) = wr (ix2 k q)) :
    k1_pay1 x1 x2 x0 x3 x5 x4 (ix2 p q) = layer h ms cc wl bl wr (ix2 r q) := by
  rw [pay1_at]
  show _ = max (linAt h ms cc wl bl wr r q) 0
  unfold linAt
  simp only [e0, e1, e2, e3, e4, e5]

/-- Entry `(p, q)` of what the body stores in its first output is that floored sum. -/
theorem point1_7 (x0 : Vec Ideal S4000x128 .bf16) (x1 : Vec Ideal S4000x128 .f32) (x2 : Vec Ideal S4000x1 .f32)
    (x3 x5 : Vec Ideal S128x128 .f32) (x4 : Vec Ideal S128 .f32)
    (h ms : Arr2 100000 128) (cc : Arr2 100000 1) (wl wr : Arr2 128 128) (bl : Arr1 128)
    (p : Fin 4000) (q : Fin 128) (r : Fin 100000)
    (e0 : ∀ k : Fin 128, x0 (ix2 p k) = h (ix2 r k)) (e1 : ∀ k : Fin 128, x1 (ix2 p k) = ms (ix2 r k))
    (e2 : x2 (ix2 p (0 : Fin 1)) = cc (ix2 r (0 : Fin 1)))
    (e3 : ∀ k : Fin 128, x3 (ix2 k q) = wl (ix2 k q)) (e4 : x4 (ix1 q) = bl (ix1 q))
    (e5 : ∀ k : Fin 128, x5 (ix2 k q) = wr (ix2 k q)) :
    k1_pay2 x1 x2 x0 x3 x5 x4 (ix2 p q) = layer h ms cc wl bl wr (ix2 r q) :=
  (pay1_2_at x1 x2 x0 x3 x5 x4 p q).trans (point1 x0 x1 x2 x3 x5 x4 h ms cc wl wr bl p q r e0 e1 e2 e3 e4 e5)

/-- The layer of the arrays as the region finds them. -/
abbrev layer1 (c : Dev nD) : Arr2 100000 128 :=
  layer (V c main_v23 : Arr2 100000 128) (V c main_v34 : Arr2 100000 128) (V c main_v10 : Arr2 100000 1)
    (V c main_v35 : Arr2 128 128) (V c main_arg6 : Arr1 128) (V c main_v36 : Arr2 128 128)

/-- What point `t` writes back to the first output is block `t` of the layer of the arrays as the region finds them. -/
theorem flushed1_7_eq (c : Dev nD) (t : Fin cfg1.N) :
    (dat1 (F := Ideal) V c).flushed 7 t = ((cfg1.win 7).blk t).view.read (Elt Ideal) (layer1 V c) := by
  show (cfg1.win 7).cut (grid1.coords t) ((dat1 V c).after 7 t) = _
  rw [after1_7]
  unfold out1_7
  rw [View.canon_unit_zero zero2_1]
  simp only [View.ld_unit_zero (S := S4000x128) zero2_1, View.ld_unit_zero (S := S4000x1) zero2_1,
    View.ld_unit_zero (S := S128x128) zero2_1, View.ld_unit_zero (S := S128) zero1_1]
  obtain ⟨a0, a1, b0, b1, c0, c1, d0, d1, e0, f0, f1, g0, g1, o0, o1, u0, u1, ht⟩ := idx_facts1 t
  funext j
  obtain ⟨p, q, rfl⟩ : ∃ (p : Fin 4000) (q : Fin 128), j = ix2 p q := ⟨j 0, j 1, eq_ix2 j⟩
  have hp : p.val < 4000 := p.isLt
  have hr : t.val * 4000 + p.val < 100000 := by omega
  have h0 : ∀ k : Fin 128, iblk1 V c 0 t (ix2 p k) = (V c main_v23 : Arr2 100000 128) (ix2 ⟨t.val * 4000 + p.val, hr⟩ k) := fun k => by
    show (V c main_v23 : Arr2 100000 128) (((cfg1.win 0).blk t).view.emb (ix2 p k)) = _
    refine congrArg (V c main_v23 : Arr2 100000 128) (funext fun a => Fin.ext ?_)
    match a with
    | ⟨0, _⟩ => show win1_0.index t (0 : Fin 2) * 4000 + 1 * p.val = t.val * 4000 + p.val; omega
    | ⟨1, _⟩ => show win1_0.index t (1 : Fin 2) * 128 + 1 * k.val = k.val; omega
  have h1 : ∀ k : Fin 128, iblk1 V c 1 t (ix2 p k) = (V c main_v34 : Arr2 100000 128) (ix2 ⟨t.val * 4000 + p.val, hr⟩ k) := fun k => by
    show (V c main_v34 : Arr2 100000 128) (((cfg1.win 1).blk t).view.emb (ix2 p k)) = _
    refine congrArg (V c main_v34 : Arr2 100000 128) (funext fun a => Fin.ext ?_)
    match a with
    | ⟨0, _⟩ => show win1_1.index t (0 : Fin 2) * 4000 + 1 * p.val = t.val * 4000 + p.val; omega
    | ⟨1, _⟩ => show win1_1.index t (1 : Fin 2) * 128 + 1 * k.val = k.val; omega
  have h2 : iblk1 V c 2 t (ix2 p (0 : Fin 1)) = (V c main_v10 : Arr2 100000 1) (ix2 ⟨t.val * 4000 + p.val, hr⟩ (0 : Fin 1)) := by
    show (V c main_v10 : Arr2 100000 1) (((cfg1.win 2).blk t).view.emb (ix2 p (0 : Fin 1))) = _
    refine congrArg (V c main_v10 : Arr2 100000 1) (funext fun a => Fin.ext ?_)
    match a with
    | ⟨0, _⟩ => show win1_2.index t (0 : Fin 2) * 4000 + 1 * p.val = t.val * 4000 + p.val; omega
    | ⟨1, _⟩ => show win1_2.index t (1 : Fin 2) * 1 + 1 * 0 = 0; omega
  have h3 : ∀ k : Fin 128, iblk1 V c 3 t (ix2 k q) = (V c main_v35 : Arr2 128 128) (ix2 k q) := fun k => by
    show (V c main_v35 : Arr2 128 128) (((cfg1.win 3).blk t).view.emb (ix2 k q)) = _
    refine congrArg (V c main_v35 : Arr2 128 128) (funext fun a => Fin.ext ?_)
    match a with
    | ⟨0, _⟩ => show win1_3.index t (0 : Fin 2) * 128 + 1 * k.val = k.val; omega
    | ⟨1, _⟩ => show win1_3.index t (1 : Fin 2) * 128 + 1 * q.val = q.val; omega
  have h4 : iblk1 V c 4 t (ix1 q) = (V c main_arg6 : Arr1 128) (ix1 q) := by
    show (V c main_arg6 : Arr1 128) (((cfg1.win 4).blk t).view.emb (ix1 q)) = _
    refine congrArg (V c main_arg6 : Arr1 128) (funext fun a => Fin.ext ?_)
    match a with
    | ⟨0, _⟩ => show win1_4.index t (0 : Fin 1) * 128 + 1 * q.val = q.val; omega
  have h5 : ∀ k : Fin 128, iblk1 V c 5 t (ix2 k q) = (V c main_v36 : Arr2 128 128) (ix2 k q) := fun k => by
    show (V c main_v36 : Arr2 128 128) (((cfg1.win 5).blk t).view.emb (ix2 k q)) = _
    refine congrArg (V c main_v36 : Arr2 128 128) (funext fun a => Fin.ext ?_)
    match a with
    | ⟨0, _⟩ => show win1_5.index t (0 : Fin 2) * 128 + 1 * k.val = k.val; omega
    | ⟨1, _⟩ => show win1_5.index t (1 : Fin 2) * 128 + 1 * q.val = q.val; omega
  have hout : ((cfg1.win 7).blk t).view.emb (ix2 p q) = (ix2 ⟨t.val * 4000 + p.val, hr⟩ q : S100000x128.Idx) := by
    refine funext fun a => Fin.ext ?_
    match a with
    | ⟨0, _⟩ => show win1_7.index t (0 : Fin 2) * 4000 + 1 * p.val = t.val * 4000 + p.val; omega
    | ⟨1, _⟩ => show win1_7.index t (1 : Fin 2) * 128 + 1 * q.val = q.val; omega
  show k1_pay2 (iblk1 V c 1 t) (iblk1 V c 2 t) (iblk1 V c 0 t) (iblk1 V c 3 t) (iblk1 V c 5 t) (iblk1 V c 4 t) (ix2 p q)
    = layer1 V c (((cfg1.win 7).blk t).view.emb (ix2 p q))
  exact (point1_7 (iblk1 V c 0 t) (iblk1 V c 1 t) (iblk1 V c 2 t) (iblk1 V c 3 t) (iblk1 V c 5 t) (iblk1 V c 4 t)
    (V c main_v23 : Arr2 100000 128) (V c main_v34 : Arr2 100000 128) (V c main_v10 : Arr2 100000 1)
    (V c main_v35 : Arr2 128 128) (V c main_v36 : Arr2 128 128) (V c main_arg6 : Arr1 128)
    p q ⟨t.val * 4000 + p.val, hr⟩ h0 h1 h2 h3 h4 h5).trans (congrArg (layer1 V c) hout.symm)

/-- An index of the first output array is in point `t`'s block iff each coordinate is in the block's range on its axis. -/
theorem mem_blk1_7 (t : Fin cfg1.N) (i : S100000x128.Idx) :
    i ∈ ((cfg1.win 7).blk t).view.set ↔ ∀ a : Fin 2, win1_7.index t a * S4000x128.size a ≤ (i a).val
      ∧ (i a).val < win1_7.index t a * S4000x128.size a + S4000x128.size a := by
  show i ∈ ((View.whole main_v38_0).slice (win1_7.rect t)).set ↔ _
  rw [View.set_slice_whole, Rect.mem_set_unit]
  exact Iff.rfl

/-- Row `r` of the first output lies in the block of point `r / 4000`: the blocks cover the array. -/
theorem cover1_7_rows (i : S100000x128.Idx) :
    ∃ t : Fin cfg1.N, (cfg1.win 7).flush t = true ∧ i ∈ ((cfg1.win 7).blk t).view.set := by
  have hi0 : (i 0).val < 100000 := (i 0).isLt
  have hi1 : (i 1).val < 128 := (i 1).isLt
  obtain ⟨t, ht⟩ : ∃ t : Fin cfg1.N, t.val = (i 0).val / 4000 :=
    ⟨⟨(i 0).val / 4000, by rw [points1]; omega⟩, rfl⟩
  obtain ⟨a0, a1, b0, b1, c0, c1, d0, d1, e0, f0, f1, g0, g1, o0, o1, u0, u1, hlt⟩ := idx_facts1 t
  refine ⟨t, flush1_7 t, ?_⟩
  rw [mem_blk1_7]
  intro a
  match a with
  | ⟨0, _⟩ =>
    show win1_7.index t (0 : Fin 2) * 4000 ≤ (i 0).val ∧ (i 0).val < win1_7.index t (0 : Fin 2) * 4000 + 4000
    omega
  | ⟨1, _⟩ =>
    show win1_7.index t (1 : Fin 2) * 128 ≤ (i 1).val ∧ (i 1).val < win1_7.index t (1 : Fin 2) * 128 + 128
    omega

/-- After the region the first output array is the layer of the arrays as the region found them. -/
theorem final1_7 (c : Dev nD) : (Gen.dat1 (F := Ideal) V c).arrAt 7 cfg1.N
      = Cert.Sage.layer (V c main_v23) (V c main_v34) (V c main_v10) (V c main_v35) (V c main_arg6) (V c main_v36) :=
  (dat1 (F := Ideal) V c).arrAt_eq_of_cover 7 (layer1 V c) (fun t _ => flushed1_7_eq V c t) cover1_7_rows

end Cert.KernelIdeal.KReg

end
-- ==== Proof.KReg1b.lean ====
/-
  The second combine region's second output, read as one whole-array function.

  At grid point t the body also stores, in rows 4000 t … 4000 t + 3999 of a second output, its floored layer sum sent
  through the next layer's left weights, which it stages whole.  Entry (p, q) of that store is the sum over k of the
  floored sum at (p, k) times the weight at (k, q); the floored sum at (p, k) is the layer of the region-entry arrays at
  row 4000 t + p, so each written block is a block of ONE function of the arrays as the region found them, the layer
  through the next left weights, and the blocks cover the output: after the region the second output array is that
  projection of the layer.
-/
import proofs.«120991_j39273180954945_2_alg».proof.Proof.KReg1

set_option maxRecDepth 16384

noncomputable section

namespace Cert.KernelIdeal.KReg

open Cert.KernelIdeal Cert.KernelIdeal.Gen Idealize.ShloMosaic Idealize.ShloMosaic.ValueIdx
open Idealize.ShloMosaic.TcCoe Idealize.SL.Sem
open Idealize.ShloMosaic.Pipeline (Dat)
open Cert.Sage
open scoped BigOperators

variable (V : (c : Dev nD) → (b : Ref sig .tc) → Buf (Elt Ideal) ((c : Thread nD τ).loc b))

/-- Entry `(p, q)` of what the body stores in its second output: row `r` of the layer through the next left weights. -/
theorem point1_8 (x0 : Vec Ideal S4000x128 .bf16) (x1 : Vec Ideal S4000x128 .f32) (x2 : Vec Ideal S4000x1 .f32)
    (x3 x5 : Vec Ideal S128x128 .f32) (x4 : Vec Ideal S128 .f32) (x6 : Vec Ideal S128x64 .f32)
    (h ms : Arr2 100000 128) (cc : Arr2 100000 1) (wl wr : Arr2 128 128) (bl : Arr1 128) (wn : Arr2 128 64)
    (p : Fin 4000) (q : Fin 64) (r : Fin 100000)
    (e0 : ∀ k : Fin 128, x0 (ix2 p k) = h (ix2 r k)) (e1 : ∀ k : Fin 128, x1 (ix2 p k) = ms (ix2 r k))
    (e2 : x2 (ix2 p (0 : Fin 1)) = cc (ix2 r (0 : Fin 1)))
    (e3 : ∀ k k' : Fin 128, x3 (ix2 k k') = wl (ix2 k k')) (e4 : ∀ k : Fin 128, x4 (ix1 k) = bl (ix1 k))
    (e5 : ∀ k k' : Fin 128, x5 (ix2 k k') = wr (ix2 k k'))
    (e6 : ∀ k : Fin 128, x6 (ix2 k q) = wn (ix2 k q)) :
    k1_pay3 x1 x2 x0 x3 x5 x4 x6 (ix2 p q) = proj (layer h ms cc wl bl wr) wn (ix2 r q) := by
  rw [pay1_3_at]
  show _ = projAt (layer h ms cc wl bl wr) wn r q
  unfold projAt
  refine Finset.sum_congr rfl fun k _ => ?_
  rw [e6 k, point1 x0 x1 x2 x3 x5 x4 h ms cc wl wr bl p k r e0 e1 e2 (fun k' => e3 k' k) (e4 k) (fun k' => e5 k' k)]

/-- That layer through the next layer's left weights as the region finds them. -/
abbrev proj1 (c : Dev nD) : Arr2 100000 64 := proj (layer1 V c) (V c main_v37 : Arr2 128 64)

/-- What point `t` writes back to the second output is block `t` of the projected layer. -/
theorem flushed1_8_eq (c : Dev nD) (t : Fin cfg1.N) :
    (dat1 (F := Ideal) V c).flushed 8 t = ((cfg1.win 8).blk t).view.read (Elt Ideal) (proj1 V c) := by
  show (cfg1.win 8).cut (grid1.coords t) ((dat1 V c).after 8 t) = _
  rw [after1_8]
  unfold out1_8
  rw [View.canon_unit_zero zero2_1]
  simp only [View.ld_unit_zero (S := S4000x128) zero2_1, View.ld_unit_zero (S := S4000x1) zero2_1,
    View.ld_unit_zero (S := S128x128) zero2_1, View.ld_unit_zero (S := S128) zero1_1,
    View.ld_unit_zero (S := S128x64) zero2_1]
  obtain ⟨a0, a1, b0, b1, c0, c1, d0, d1, e0, f0, f1, g0, g1, o0, o1, u0, u1, ht⟩ := idx_facts1 t
  funext j
  obtain ⟨p, q, rfl⟩ : ∃ (p : Fin 4000) (q : Fin 64), j = ix2 p q := ⟨j 0, j 1, eq_ix2 j⟩
  have hp : p.val < 4000 := p.isLt
  have hr : t.val * 4000 + p.val < 100000 := by omega
  have h0 : ∀ k : Fin 128, iblk1 V c 0 t (ix2 p k) = (V c main_v23 : Arr2 100000 128) (ix2 ⟨t.val * 4000 + p.val, hr⟩ k) := fun k => by
    show (V c main_v23 : Arr2 100000 128) (((cfg1.win 0).blk t).view.emb (ix2 p k)) = _
    refine congrArg (V c main_v23 : Arr2 100000 128) (funext fun a => Fin.ext ?_)
    match a with
    | ⟨0, _⟩ => show win1_0.index t (0 : Fin 2) * 4000 + 1 * p.val = t.val * 4000 + p.val; omega
    | ⟨1, _⟩ => show win1_0.index t (1 : Fin 2) * 128 + 1 * k.val = k.val; omega
  have h1 : ∀ k : Fin 128, iblk1 V c 1 t (ix2 p k) = (V c main_v34 : Arr2 100000 128) (ix2 ⟨t.val * 4000 + p.val, hr⟩ k) := fun k => by
    show (V c main_v34 : Arr2 100000 128) (((cfg1.win 1).blk t).view.emb (ix2 p k)) = _
    refine congrArg (V c main_v34 : Arr2 100000 128) (funext fun a => Fin.ext ?_)
    match a with
    | ⟨0, _⟩ => show win1_1.index t (0 : Fin 2) * 4000 + 1 * p.val = t.val * 4000 + p.val; omega
    | ⟨1, _⟩ => show win1_1.index t (1 : Fin 2) * 128 + 1 * k.val = k.val; omega
  have h2 : iblk1 V c 2 t (ix2 p (0 : Fin 1)) = (V c main_v10 : Arr2 100000 1) (ix2 ⟨t.val * 4000 + p.val, hr⟩ (0 : Fin 1)) := by
    show (V c main_v10 : Arr2 100000 1) (((cfg1.win 2).blk t).view.emb (ix2 p (0 : Fin 1))) = _
    refine congrArg (V c main_v10 : Arr2 100000 1) (funext fun a => Fin.ext ?_)
    match a with
    | ⟨0, _⟩ => show win1_2.index t (0 : Fin 2) * 4000 + 1 * p.val = t.val * 4000 + p.val; omega
    | ⟨1, _⟩ => show win1_2.index t (1 : Fin 2) * 1 + 1 * 0 = 0; omega
  have h3 : ∀ k k' : Fin 128, iblk1 V c 3 t (ix2 k k') = (V c main_v35 : Arr2 128 128) (ix2 k k') := fun k k' => by
    show (V c main_v35 : Arr2 128 128) (((cfg1.win 3).blk t).view.emb (ix2 k k')) = _
    refine congrArg (V c main_v35 : Arr2 128 128) (funext fun a => Fin.ext ?_)
    match a with
    | ⟨0, _⟩ => show win1_3.index t (0 : Fin 2) * 128 + 1 * k.val = k.val; omega
    | ⟨1, _⟩ => show win1_3.index t (1 : Fin 2) * 128 + 1 * k'.val = k'.val; omega
  have h4 : ∀ k : Fin 128, iblk1 V c 4 t (ix1 k) = (V c main_arg6 : Arr1 128) (ix1 k) := fun k => by
    show (V c main_arg6 : Arr1 128) (((cfg1.win 4).blk t).view.emb (ix1 k)) = _
    refine congrArg (V c main_arg6 : Arr1 128) (funext fun a => Fin.ext ?_)
    match a with
    | ⟨0, _⟩ => show win1_4.index t (0 : Fin 1) * 128 + 1 * k.val = k.val; omega
  have h5 : ∀ k k' : Fin 128, iblk1 V c 5 t (ix2 k k') = (V c main_v36 : Arr2 128 128) (ix2 k k') := fun k k' => by
    show (V c main_v36 : Arr2 128 128) (((cfg1.win 5).blk t).view.emb (ix2 k k')) = _
    refine congrArg (V c main_v36 : Arr2 128 128) (funext fun a => Fin.ext ?_)
    match a with
    | ⟨0, _⟩ => show win1_5.index t (0 : Fin 2) * 128 + 1 * k.val = k.val; omega
    | ⟨1, _⟩ => show win1_5.index t (1 : Fin 2) * 128 + 1 * k'.val = k'.val; omega
  have h6 : ∀ k : Fin 128, iblk1 V c 6 t (ix2 k q) = (V c main_v37 : Arr2 128 64) (ix2 k q) := fun k => by
    show (V c main_v37 : Arr2 128 64) (((cfg1.win 6).blk t).view.emb (ix2 k q)) = _
    refine congrArg (V c main_v37 : Arr2 128 64) (funext fun a => Fin.ext ?_)
    match a with
    | ⟨0, _⟩ => show win1_6.index t (0 : Fin 2) * 128 + 1 * k.val = k.val; omega
    | ⟨1, _⟩ => show win1_6.index t (1 : Fin 2) * 64 + 1 * q.val = q.val; omega
  have hout : ((cfg1.win 8).blk t).view.emb (ix2 p q) = (ix2 ⟨t.val * 4000 + p.val, hr⟩ q : S100000x64.Idx) := by
    refine funext fun a => Fin.ext ?_
    match a with
    | ⟨0, _⟩ => show win1_8.index t (0 : Fin 2) * 4000 + 1 * p.val = t.val * 4000 + p.val; omega
    | ⟨1, _⟩ => show win1_8.index t (1 : Fin 2) * 64 + 1 * q.val = q.val; omega
  show k1_pay3 (iblk1 V c 1 t) (iblk1 V c 2 t) (iblk1 V c 0 t) (iblk1 V c 3 t) (iblk1 V c 5 t) (iblk1 V c 4 t) (iblk1 V c 6 t) (ix2 p q)
    = proj1 V c (((cfg1.win 8).blk t).view.emb (ix2 p q))
  exact (point1_8 (iblk1 V c 0 t) (iblk1 V c 1 t) (iblk1 V c 2 t) (iblk1 V c 3 t) (iblk1 V c 5 t) (iblk1 V c 4 t) (iblk1 V c 6 t)
    (V c main_v23 : Arr2 100000 128) (V c main_v34 : Arr2 100000 128) (V c main_v10 : Arr2 100000 1)
    (V c main_v35 : Arr2 128 128) (V c main_v36 : Arr2 128 128) (V c main_arg6 : Arr1 128) (V c main_v37 : Arr2 128 64)
    p q ⟨t.val * 4000 + p.val, hr⟩ h0 h1 h2 h3 h4 h5 h6).trans (congrArg (proj1 V c) hout.symm)

/-- An index of the second output array is in point `t`'s block iff each coordinate is in the block's range on its axis. -/
theorem mem_blk1_8 (t : Fin cfg1.N) (i : S100000x64.Idx) :
    i ∈ ((cfg1.win 8).blk t).view.set ↔ ∀ a : Fin 2, win1_8.index t a * S4000x64.size a ≤ (i a).val
      ∧ (i a).val < win1_8.index t a * S4000x64.size a + S4000x64.size a := by
  show i ∈ ((View.whole main_v38_1).slice (win1_8.rect t)).set ↔ _
  rw [View.set_slice_whole, Rect.mem_set_unit]
  exact Iff.rfl

/-- Row `r` of the second output lies in the block of point `r / 4000`: the blocks cover the array. -/
theorem cover1_8_rows (i : S100000x64.Idx) :
    ∃ t : Fin cfg1.N, (cfg1.win 8).flush t = true ∧ i ∈ ((cfg1.win 8).blk t).view.set := by
  have hi0 : (i 0).val < 100000 := (i 0).isLt
  have hi1 : (i 1).val < 64 := (i 1).isLt
  obtain ⟨t, ht⟩ : ∃ t : Fin cfg1.N, t.val = (i 0).val / 4000 :=
    ⟨⟨(i 0).val / 4000, by rw [points1]; omega⟩, rfl⟩
  obtain ⟨a0, a1, b0, b1, c0, c1, d0, d1, e0, f0, f1, g0, g1, o0, o1, u0, u1, hlt⟩ := idx_facts1 t
  refine ⟨t, flush1_8 t, ?_⟩
  rw [mem_blk1_8]
  intro a
  match a with
  | ⟨0, _⟩ =>
    show win1_8.index t (0 : Fin 2) * 4000 ≤ (i 0).val ∧ (i 0).val < win1_8.index t (0 : Fin 2) * 4000 + 4000
    omega
  | ⟨1, _⟩ =>
    show win1_8.index t (1 : Fin 2) * 64 ≤ (i 1).val ∧ (i 1).val < win1_8.index t (1 : Fin 2) * 64 + 64
    omega

/-- After the region the second output array is that layer through the next layer's left weights. -/
theorem final1_8 (c : Dev nD) : (Gen.dat1 (F := Ideal) V c).arrAt 8 cfg1.N
      = Cert.Sage.proj (Cert.Sage.layer (V c main_v23) (V c main_v34) (V c main_v10) (V c main_v35) (V c main_arg6) (V c main_v36))
          (V c main_v37) :=
  (dat1 (F := Ideal) V c).arrAt_eq_of_cover 8 (proj1 V c) (fun t _ => flushed1_8_eq V c t) cover1_8_rows

end Cert.KernelIdeal.KReg

end
-- ==== Proof.KReg2Pay.lean ====
/-
  The last layer's block, entry by entry.

  One grid point of the last region holds 4000 rows of each row-blocked operand: the node features (128 columns), the
  gathered, already projected rows (64 columns) and the degree column; the bias and the right weights are held whole.
  The stored block is, at row `p` and column `q`, the gathered projected entry divided by the row's degree, plus the
  bias at `q`, plus the row of features times column `q` of the right weights: a column broadcast of the degree, a row
  broadcast of the bias, one matrix product into a zero accumulator, and two entrywise sums.
-/
import proofs.«120991_j39273180954945_2_alg».proof.Proof.Gen.KernelIdeal.Skeleton
import proofs.«120991_j39273180954945_2_alg».proof.Proof.LibMatmul
import Idealize.ShloMosaic.Lib.ValueLayout
import Idealize.ShloMosaic.Lib.Pipeline.Value

set_option maxRecDepth 16384

noncomputable section

namespace Cert.KernelIdeal.KReg

open Cert.KernelIdeal Cert.KernelIdeal.Gen Idealize.ShloMosaic Idealize.ShloMosaic.ValueIdx
open scoped BigOperators

/-- A column `[a, 1]` broadcast to `[a, b]` reads, at `(p, c)`, the column's entry of row `p`. -/
theorem colBroadcast2_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The last layer's block at row `p`, column `q`: the gathered projected entry over the row's degree, plus the bias,
    plus the row of the node's own features through the right weights. -/
theorem pay2_at (v0 : Vec Ideal S4000x64 .f32) (v2 : Vec Ideal S4000x1 .f32) (v6 : Vec Ideal S4000x128 .bf16) (v8 : Vec Ideal S128x64 .f32) (v11 : Vec Ideal S64 .f32) (p : Fin 4000) (q : Fin 64) :
    Gen.k2_pay1 v0 v2 v6 v8 v11 (ix2 p q)
      = Ideal.div (v0 (ix2 p q)) (v2 (ix2 p (0 : Fin 1))) + v11 (ix1 q) + ∑ k : Fin 128, v6 (ix2 p k) * v8 (ix2 k q) := by
  unfold Gen.k2_pay1
  simp only [shapeCast_self]
  show Ideal.div (v0 (ix2 p q)) (broadcastTo S4000x64 v2 broadcasts_S4000x1_S4000x64 (ix2 p q))
      + broadcastTo S4000x64 (shapeCast S1x64 v11 shapeCasts_S64_S1x64) broadcasts_S1x64_S4000x64 (ix2 p q)
      + matmul dot_S4000x128_S128x64_S4000x64_1_0_0_1_n_n none v6 (truncf FTy.bf16 v8 bitsLt_bf16_f32) (constant (F := Ideal) S4000x64 FTy.f32 0x00000000#32) (ix2 p q) = _
  rw [colBroadcast2_apply v2 broadcasts_S4000x1_S4000x64 p q,
    broadcastTo_1b_ab_apply (shapeCast S1x64 v11 shapeCasts_S64_S1x64) broadcasts_S1x64_S4000x64 p q,
    shapeCast_a_1a_apply v11 shapeCasts_S64_S1x64 (0 : Fin 1) q]
  exact congrArg _ (Cert.MatmulAt.matmul_zero_plain_apply dot_S4000x128_S128x64_S4000x64_1_0_0_1_n_n.wf none v6 (truncf FTy.bf16 v8 bitsLt_bf16_f32) p q)

end Cert.KernelIdeal.KReg

end
-- ==== Proof.KReg2.lean ====
/-
  The last region's output, as one function of the arrays the region finds.

  The region runs over 25 grid points; point `t` holds rows 4000 t .. 4000 t + 3999 of the three row-blocked operands
  (the node features, the gathered projected rows, the degree column) and the whole bias and right-weight arrays, and
  writes back rows 4000 t .. 4000 t + 3999 of the output. Row `4000 t + p` of the output is therefore the last layer
  (`Cert.Sage.finAt`) at that row: each operand block read at `(p, k)` is its array read at `(4000 t + p, k)`, and every
  row `r` of the output is written by point `r / 4000`.
-/
import proofs.«120991_j39273180954945_2_alg».proof.Proof.FrameKernelIdealP
import proofs.«120991_j39273180954945_2_alg».proof.Proof.Spec
import proofs.«120991_j39273180954945_2_alg».proof.Proof.KReg2Pay
import Idealize.ShloMosaic.Lib.Pipeline.Value
import Idealize.ShloMosaic.Lib.ValueIdx

set_option maxRecDepth 16384

noncomputable section

namespace Cert.KernelIdeal.KReg

open Cert.KernelIdeal Cert.KernelIdeal.Gen Idealize.ShloMosaic Idealize.ShloMosaic.ValueIdx Idealize.ShloMosaic.TcCoe
open Idealize.ShloMosaic.Pipeline (Dat)
open scoped BigOperators

variable (V : (c : Dev nD) → (b : Ref sig .tc) → Buf (Elt Ideal) ((c : Thread nD τ).loc b))

/-- The zero offset of a rank-2 access, as a constant function. -/
theorem zeroOff2_2 : (![0, 0] : Fin 2 → Nat) = fun _ => 0 := funext fun a => by fin_cases a <;> rfl
/-- The zero offset of a rank-1 access, as a constant function. -/
theorem zeroOff2_1 : (![0] : Fin 1 → Nat) = fun _ => 0 := funext fun a => by fin_cases a; rfl

/-- The index maps over the grid: the three row-blocked operands and the output are at block `(t, 0)` at point `t`,
    the bias and the right weights at block zero. -/
theorem blockIdx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 1) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-! ## Each operand's block, read at an entry -/

/-- The node features' block at point `t`, at `(p, k)`, is the array at row `4000 t + p`. -/
theorem blk2_0_at (c : Dev nD) (t : Fin cfg2.N) (p : Fin 4000) (k : Fin 128) (n : Fin 100000) (hn : n.val = 4000 * t.val + p.val) :
    (iblk2 V c 0 t : Vec Ideal S4000x128 .bf16) (ix2 p k) = (V c main_v38_0 : Cert.Sage.Arr2 100000 128) (ix2 n k) := by
  obtain ⟨e0, e1, -⟩ := blockIdx2 t
  unfold iblk2
  rw [View.read_apply]
  show V c main_v38_0 _ = V c main_v38_0 _
  congr 1
  funext a
  apply Fin.ext
  match a with
  | ⟨0, _⟩ => show win2_0.index t (0 : Fin 2) * 4000 + 1 * p.val = n.val; rw [e0, hn]; omega
  | ⟨1, _⟩ => show win2_0.index t (1 : Fin 2) * 128 + 1 * k.val = k.val; rw [e1]; omega

/-- The gathered projected rows' block at point `t`, at `(p, q)`, is the array at row `4000 t + p`. -/
theorem blk2_1_at (c : Dev nD) (t : Fin cfg2.N) (p : Fin 4000) (q : Fin 64) (n : Fin 100000) (hn : n.val = 4000 * t.val + p.val) :
    (iblk2 V c 1 t : Vec Ideal S4000x64 .f32) (ix2 p q) = (V c main_v49 : Cert.Sage.Arr2 100000 64) (ix2 n q) := by
  obtain ⟨-, -, e0, e1, -⟩ := blockIdx2 t
  unfold iblk2
  rw [View.read_apply]
  show V c main_v49 _ = V c main_v49 _
  congr 1
  funext a
  apply Fin.ext
  match a with
  | ⟨0, _⟩ => show win2_1.index t (0 : Fin 2) * 4000 + 1 * p.val = n.val; rw [e0, hn]; omega
  | ⟨1, _⟩ => show win2_1.index t (1 : Fin 2) * 64 + 1 * q.val = q.val; rw [e1]; omega

/-- The degree column's block at point `t`, at `(p, 0)`, is the array at row `4000 t + p`. -/
theorem blk2_2_at (c : Dev nD) (t : Fin cfg2.N) (p : Fin 4000) (n : Fin 100000) (hn : n.val = 4000 * t.val + p.val) :
    (iblk2 V c 2 t : Vec Ideal S4000x1 .f32) (ix2 p (0 : Fin 1)) = (V c main_v10 : Cert.Sage.Arr2 100000 1) (ix2 n (0 : Fin 1)) := by
  obtain ⟨-, -, -, -, e0, e1, -⟩ := blockIdx2 t
  unfold iblk2
  rw [View.read_apply]
  show V c main_v10 _ = V c main_v10 _
  congr 1
  funext a
  apply Fin.ext
  match a with
  | ⟨0, _⟩ => show win2_2.index t (0 : Fin 2) * 4000 + 1 * p.val = n.val; rw [e0, hn]; omega
  | ⟨1, _⟩ => show win2_2.index t (1 : Fin 2) * 1 + 1 * 0 = 0; rw [e1]

/-- The bias block at every point is the bias. -/
theorem blk2_3_at (c : Dev nD) (t : Fin cfg2.N) (q : Fin 64) :
    (iblk2 V c 3 t : Vec Ideal S64 .f32) (ix1 q) = (V c main_arg9 : Cert.Sage.Arr1 64) (ix1 q) := by
  obtain ⟨-, -, -, -, -, -, e0, -⟩ := blockIdx2 t
  unfold iblk2
  rw [View.read_apply]
  show V c main_arg9 _ = V c main_arg9 _
  congr 1
  funext a
  apply Fin.ext
  match a with
  | ⟨0, _⟩ => show win2_3.index t (0 : Fin 1) * 64 + 1 * q.val = q.val; rw [e0]; omega

/-- The right weights' block at every point is the right weights. -/
theorem blk2_4_at (c : Dev nD) (t : Fin cfg2.N) (k : Fin 128) (q : Fin 64) :
    (iblk2 V c 4 t : Vec Ideal S128x64 .f32) (ix2 k q) = (V c main_v50 : Cert.Sage.Arr2 128 64) (ix2 k q) := by
  obtain ⟨-, -, -, -, -, -, -, e0, e1, -⟩ := blockIdx2 t
  unfold iblk2
  rw [View.read_apply]
  show V c main_v50 _ = V c main_v50 _
  congr 1
  funext a
  apply Fin.ext
  match a with
  | ⟨0, _⟩ => show win2_4.index t (0 : Fin 2) * 128 + 1 * k.val = k.val; rw [e0]; omega
  | ⟨1, _⟩ => show win2_4.index t (1 : Fin 2) * 64 + 1 * q.val = q.val; rw [e1]; omega

/-! ## The stored block is the last layer's rows -/

/-- Blocks that hold row `n` of the row-blocked arrays at their row `p`, and the whole bias and right weights, give
    the last layer at `(n, q)` at entry `(p, q)` of the stored block. -/
theorem fin_block_at (h : Cert.Sage.Arr2 100000 128) (ps : Cert.Sage.Arr2 100000 64) (dg : Cert.Sage.Arr2 100000 1)
    (bl : Cert.Sage.Arr1 64) (wr : Cert.Sage.Arr2 128 64)
    (x0 : Vec Ideal S4000x128 .bf16) (x1 : Vec Ideal S4000x64 .f32) (x2 : Vec Ideal S4000x1 .f32) (x3 : Vec Ideal S64 .f32)
    (x4 : Vec Ideal S128x64 .f32) (n : Fin 100000) (p : Fin 4000) (q : Fin 64)
    (h0 : ∀ k : Fin 128, x0 (ix2 p k) = h (ix2 n k)) (h1 : x1 (ix2 p q) = ps (ix2 n q))
    (h2 : x2 (ix2 p (0 : Fin 1)) = dg (ix2 n (0 : Fin 1))) (h3 : x3 (ix1 q) = bl (ix1 q))
    (h4 : ∀ k : Fin 128, x4 (ix2 k q) = wr (ix2 k q)) :
    Gen.k2_pay1 x1 x2 x0 x4 x3 (ix2 p q) = Cert.Sage.finAt h ps dg bl wr n q := by
  refine (pay2_at x1 x2 x0 x4 x3 p q).trans ?_
  unfold Cert.Sage.finAt
  rw [h1, h2, h3]
  exact congrArg _ (Finset.sum_congr rfl fun k _ => by rw [h0 k, h4 k])

/-- What point `t` writes back is block `t` of the last layer of the arrays the region finds. -/
theorem flushed2_5_eq (c : Dev nD) (t : Fin cfg2.N) :
    (dat2 (F := Ideal) V c).flushed 5 t = ((cfg2.win 5).blk t).view.read (Elt Ideal)
      (Cert.Sage.fin (V c main_v38_0) (V c main_v49) (V c main_v10) (V c main_arg9) (V c main_v50)) := by
  show (cfg2.win 5).cut (grid2.coords t) ((dat2 V c).after 5 t) = _
  rw [after2_5]
  unfold out2_5
  rw [View.canon_unit_zero zeroOff2_2]
  simp only [View.ld_unit_zero (S := S4000x64) zeroOff2_2, View.ld_unit_zero (S := S4000x1) zeroOff2_2,
    View.ld_unit_zero (S := S4000x128) zeroOff2_2, View.ld_unit_zero (S := S128x64) zeroOff2_2,
    View.ld_unit_zero (S := S64) zeroOff2_1]
  funext y
  obtain ⟨p, q, rfl⟩ : ∃ (p : Fin 4000) (q : Fin 64), y = ix2 p q := ⟨y 0, y 1, eq_ix2 y⟩
  obtain ⟨-, -, -, -, -, -, -, -, -, e0, e1⟩ := blockIdx2 t
  have hN : cfg2.N = 25 := rfl
  have hn : 4000 * t.val + p.val < 100000 := by have := t.isLt; have := p.isLt; omega
  have hemb : ((cfg2.win 5).blk t).view.emb (ix2 p q) = ix2 (⟨4000 * t.val + p.val, hn⟩ : Fin 100000) q := by
    funext a
    apply Fin.ext
    match a with
    | ⟨0, _⟩ => show win2_5.index t (0 : Fin 2) * 4000 + 1 * p.val = 4000 * t.val + p.val; rw [e0]; omega
    | ⟨1, _⟩ => show win2_5.index t (1 : Fin 2) * 64 + 1 * q.val = q.val; rw [e1]; omega
  show Gen.k2_pay1 (iblk2 V c 1 t) (iblk2 V c 2 t) (iblk2 V c 0 t) (iblk2 V c 4 t) (iblk2 V c 3 t) (ix2 p q)
    = Cert.Sage.fin (V c main_v38_0) (V c main_v49) (V c main_v10) (V c main_arg9) (V c main_v50) (((cfg2.win 5).blk t).view.emb (ix2 p q))
  rw [hemb]
  exact fin_block_at (V c main_v38_0) (V c main_v49) (V c main_v10) (V c main_arg9) (V c main_v50)
    (iblk2 V c 0 t) (iblk2 V c 1 t) (iblk2 V c 2 t) (iblk2 V c 3 t) (iblk2 V c 4 t) ⟨4000 * t.val + p.val, hn⟩ p q
    (fun k => blk2_0_at V c t p k _ rfl) (blk2_1_at V c t p q _ rfl) (blk2_2_at V c t p _ rfl) (blk2_3_at V c t q)
    (fun k => blk2_4_at V c t k q)

/-! ## From the blocks to the array -/

/-- An index of the output array is in point `t`'s block iff each coordinate is in the block's range on its axis. -/
theorem mem_blk2_5 (t : Fin cfg2.N) (i : S100000x64.Idx) :
    i ∈ ((cfg2.win 5).blk t).view.set ↔ ∀ a : Fin 2, win2_5.index t a * S4000x64.size a ≤ (i a).val ∧ (i a).val < win2_5.index t a * S4000x64.size a + S4000x64.size a := by
  show i ∈ ((View.whole main_v51).slice (win2_5.rect t)).set ↔ _
  rw [View.set_slice_whole, Rect.mem_set_unit]
  exact Iff.rfl

/-- Every row `r` of the output is in the block of point `r / 4000`, which is written back. -/
theorem cover2_5 (i : S100000x64.Idx) :
    ∃ t : Fin cfg2.N, (cfg2.win 5).flush t = true ∧ i ∈ ((cfg2.win 5).blk t).view.set := by
  have hi0 : (i 0).val < 100000 := (i 0).isLt
  have hi1 : (i 1).val < 64 := (i 1).isLt
  have hN : cfg2.N = 25 := rfl
  let t : Fin cfg2.N := ⟨(i 0).val / 4000, by rw [hN]; omega⟩
  obtain ⟨-, -, -, -, -, -, -, -, -, e0, e1⟩ := blockIdx2 t
  refine ⟨t, flush2_5 t, ?_⟩
  rw [mem_blk2_5]
  intro a
  match a with
  | ⟨0, _⟩ =>
    show win2_5.index t (0 : Fin 2) * 4000 ≤ (i 0).val ∧ (i 0).val < win2_5.index t (0 : Fin 2) * 4000 + 4000
    rw [e0]; show (i 0).val / 4000 * 4000 ≤ (i 0).val ∧ (i 0).val < (i 0).val / 4000 * 4000 + 4000; omega
  | ⟨1, _⟩ =>
    show win2_5.index t (1 : Fin 2) * 64 ≤ (i 1).val ∧ (i 1).val < win2_5.index t (1 : Fin 2) * 64 + 64
    rw [e1]; omega

/-- The output array after the region is the last layer of the arrays the region finds. -/
theorem final2_5 (c : Dev nD) : (Gen.dat2 (F := Ideal) V c).arrAt 5 cfg2.N
      = Cert.Sage.fin (V c main_v38_0) (V c main_v49) (V c main_v10) (V c main_arg9) (V c main_v50) :=
  (dat2 (F := Ideal) V c).arrAt_eq_of_cover 5
    (Cert.Sage.fin (V c main_v38_0) (V c main_v49) (V c main_v10) (V c main_arg9) (V c main_v50))
    (fun t _ => flushed2_5_eq V c t) cover2_5

end Cert.KernelIdeal.KReg

end
-- ==== Proof.PreReal.lean ====
/-
  From the precondition to real entries.

  The precondition of the idealized kernel program says, of each of its ten float argument arrays, that every entry has
  an absolute value below the pattern of plus infinity; the ten statements are joined by "and".  An extended real whose
  absolute value max x (-x) is below the top element is neither the top nor the bottom element, so it is a real number.
  Hence every float argument array has only real entries.  (The integer edge list is not constrained.)
-/
import proofs.«120991_j39273180954945_2_alg».proof.Defs
import proofs.«120991_j39273180954945_2_alg».proof.Proof.LibRealArrays
import Idealize.ShloMosaic.Lib.ReduceAll
import Idealize.ShloMosaic.Lib.ValueIdx

noncomputable section

namespace Cert.KernelIdeal.PreReal

open Idealize.ShloMosaic Idealize.ShloMosaic.ValueIdx Idealize.SL.Sem Cert.RealValued Cert.RealArrays

/-- The shape of a scalar has one index. -/
instance : Subsingleton Cert.Pre_finite_inputs.S_.Idx := ⟨fun a b => funext fun d => d.elim0⟩

/-- The pattern of plus infinity denotes the top element. -/
theorem ofBits_inf : Ideal.ofBits .f32 0x7F800000#32 = (⊤ : EReal) := by simp [Ideal.ofBits, Ideal.ieee]

/-- An extended real whose absolute value is below plus infinity is a real number. -/
theorem isReal_of_abs_lt (x : EReal) (h : Ideal.cmp .olt (max x (-x)) (Ideal.ofBits .f32 0x7F800000#32) = 1#1) : IsReal x := by
  rw [ofBits_inf] at h
  change BitVec.ofBool (decide (max x (-x) < ⊤)) = 1#1 at h
  have hlt : max x (-x) < ⊤ := by
    by_contra hn
    rw [decide_eq_false hn] at h
    exact absurd h (by decide)
  rw [max_lt_iff] at hlt
  refine isReal_of_ne ?_ (ne_of_lt hlt.1)
  intro hb
  rw [hb, EReal.neg_bot] at hlt
  exact lt_irrefl _ hlt.2

/-- One conjunct of the precondition: an array all of whose entries have an absolute value below plus infinity (the
    "and" over all entries of the comparison is one) has only real entries.  Generic in the array's shape. -/
theorem allReal_of_all {s : Shape} {axes : List (Fin s.rank)} (x : FVec Ideal s .f32)
    (hb : Cert.Pre_finite_inputs.S_.BroadcastsInDim s (![] : Fin 0 → Fin s.rank)) (hr : s.ReducesTo axes Cert.Pre_finite_inputs.S_)
    (hu : 0 < Cert.Pre_finite_inputs.S_.numel)
    (e : Host.reduce IntOp.andi (cmpf .olt (Host.absf x) (broadcastInDim s ![] hb (constant (F := Ideal) Cert.Pre_finite_inputs.S_ .f32 0x7F800000#32)))
          (constantI Cert.Pre_finite_inputs.S_ 1 1#1) hr hu ix0 = 1#1) : AllReal x := fun i =>
  isReal_of_abs_lt (x i) (Host.reduce_andi_all _ _ hr hu ix0 e i)

/-- Under the precondition every float argument array of the idealized kernel program has only real entries. -/
theorem allReal_of_pre [hPre : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
      AllReal (m ((c.tc : Thread Cert.KernelIdeal.nD Cert.KernelIdeal.τ).loc Cert.KernelIdeal.main_arg0))
    ∧ AllReal (m ((c.tc : Thread Cert.KernelIdeal.nD Cert.KernelIdeal.τ).loc Cert.KernelIdeal.main_arg2))
    ∧ AllReal (m ((c.tc : Thread Cert.KernelIdeal.nD Cert.KernelIdeal.τ).loc Cert.KernelIdeal.main_arg3))
    ∧ AllReal (m ((c.tc : Thread Cert.KernelIdeal.nD Cert.KernelIdeal.τ).loc Cert.KernelIdeal.main_arg4))
    ∧ AllReal (m ((c.tc : Thread Cert.KernelIdeal.nD Cert.KernelIdeal.τ).loc Cert.KernelIdeal.main_arg5))
    ∧ AllReal (m ((c.tc : Thread Cert.KernelIdeal.nD Cert.KernelIdeal.τ).loc Cert.KernelIdeal.main_arg6))
    ∧ AllReal (m ((c.tc : Thread Cert.KernelIdeal.nD Cert.KernelIdeal.τ).loc Cert.KernelIdeal.main_arg7))
    ∧ AllReal (m ((c.tc : Thread Cert.KernelIdeal.nD Cert.KernelIdeal.τ).loc Cert.KernelIdeal.main_arg8))
    ∧ AllReal (m ((c.tc : Thread Cert.KernelIdeal.nD Cert.KernelIdeal.τ).loc Cert.KernelIdeal.main_arg9))
    ∧ AllReal (m ((c.tc : Thread Cert.KernelIdeal.nD Cert.KernelIdeal.τ).loc Cert.KernelIdeal.main_arg10)) := by
  have e := congrFun (h c) ix0
  dsimp only [Cert.Pre_finite_inputs.fn, Cert.Pre_finite_inputs.fn_part1, Cert.Pre_finite_inputs.fn_part2] at e
  simp only [andi, IntOp.andi_eq_one] at e
  obtain ⟨⟨⟨⟨⟨⟨⟨⟨⟨e0, e2⟩, e3⟩, e4⟩, e5⟩, e6⟩, e7⟩, e8⟩, e9⟩, e10⟩ := e
  exact ⟨allReal_of_all _ _ _ _ e0, allReal_of_all _ _ _ _ e2, allReal_of_all _ _ _ _ e3, allReal_of_all _ _ _ _ e4,
    allReal_of_all _ _ _ _ e5, allReal_of_all _ _ _ _ e6, allReal_of_all _ _ _ _ e7, allReal_of_all _ _ _ _ e8,
    allReal_of_all _ _ _ _ e9, allReal_of_all _ _ _ _ e10⟩

end Cert.KernelIdeal.PreReal

end
-- ==== Proof.DegReal.lean ====
/-
  The degree column.

  The host code of the kernel counts, for every node, the edges that point at it — a scatter-add of ones into a vector of
  zeros —, floors the count at one, and writes it as a column.  Whatever the edge list, each count is zero plus a finite
  sum of ones, a real number; the maximum of a real number and one is a real number at least one, hence not zero.
-/
import proofs.«120991_j39273180954945_2_alg».proof.KernelIdeal
import proofs.«120991_j39273180954945_2_alg».proof.Proof.Spec
import proofs.«120991_j39273180954945_2_alg».proof.Proof.LibRealArrays

noncomputable section

namespace Cert.KernelIdeal.DegReal

open Idealize.ShloMosaic Idealize.ShloMosaic.ValueIdx Cert.RealValued Cert.RealArrays Cert.KernelIdeal

variable [Cert.KernelIdeal.Facts₀]
open Cert.KernelIdeal.Facts₀

/-- The degree column as the host code computes it from the column of edge targets: the count of the edges that point at
    each node, floored at one. -/
def degOf (idx : IVec S600000x1 32) : Cert.Sage.Arr2 100000 1 :=
  broadcastInDim S100000x1 ![0] bcast_S100000_S100000x1_0
    (maximumf (F := Ideal)
      (Host.scatterAdd (F := Ideal) scatter_S100000_S600000x1_S600000_n_0_0_1
        (broadcastInDim S100000 ![] bcast_S_S100000 (constant (F := Ideal) S_ .f32 0x00000000#32)) idx
        (broadcastInDim S600000 ![] bcast_S_S600000 (constant (F := Ideal) S_ .f32 0x3F800000#32)))
      (broadcastInDim S100000 ![] bcast_S_S100000 (constant (F := Ideal) S_ .f32 0x3F800000#32)))

/-- The pattern of one denotes the number one. -/
theorem ofBits_one : Ideal.ofBits .f32 0x3F800000#32 = (1 : EReal) := by
  simp [Ideal.ofBits, Ideal.ieee]
  rw [← EReal.coe_mul, ← EReal.coe_one]
  congr 1
  norm_num

/-- The maximum of a real number and one is a real number other than zero. -/
theorem max_one_ne_zero {x : EReal} (hx : IsReal x) :
    ∃ r : ℝ, r ≠ 0 ∧ max x (Ideal.ofBits .f32 0x3F800000#32) = (r : EReal) := by
  obtain ⟨a, rfl⟩ := hx
  rw [ofBits_one]
  refine ⟨max a 1, (lt_of_lt_of_le one_pos (le_max_right a 1)).ne', ?_⟩
  rcases le_total a 1 with h | h
  · rw [max_eq_right h, max_eq_right (by exact_mod_cast h)]; rfl
  · rw [max_eq_left h, max_eq_left (by exact_mod_cast h)]

/-- A vector of real numbers floored at one and written as a column: every entry is a real number other than zero. -/
theorem floored_column_entry (v : FVec Ideal S100000 .f32) (hv : AllReal v) (i : S100000x1.Idx) :
    ∃ r : ℝ, r ≠ 0 ∧
      broadcastInDim S100000x1 ![0] bcast_S100000_S100000x1_0
        (maximumf (F := Ideal) v (broadcastInDim S100000 ![] bcast_S_S100000 (constant (F := Ideal) S_ .f32 0x3F800000#32))) i
        = (r : EReal) :=
  max_one_ne_zero (hv _)

/-- Every degree is a real number other than zero, whatever the edge list. -/
theorem degOk (idx : IVec S600000x1 32) : Cert.Sage.DegOk (degOf idx) := fun n =>
  floored_column_entry _
    (allReal_scatterAdd _ _ _ _
      (allReal_broadcastInDim _ _ _ (allReal_constant _ isReal_zeroPattern))
      (allReal_broadcastInDim _ _ _ (allReal_constant _ isReal_onePattern)))
    (ix2 n (0 : Fin 1))

end Cert.KernelIdeal.DegReal

end
-- ==== Proof.KLaw.lean ====
/-
  The idealized kernel program's result is the reference's last layer of the kernel's own second layer.

  The kernel applies the last layer's left weights to the second layer's table BEFORE the rows are gathered and added
  up; the reference applies them after.  The two agree when every entry involved is a real number and no degree is
  zero.  Real arguments give real layers (sums, products, quotients by a nonzero real and maxima of reals are real),
  and the degree — ones added up, floored at one — is a real at least one.
-/
import proofs.«120991_j39273180954945_2_alg».proof.Proof.KVal0
import proofs.«120991_j39273180954945_2_alg».proof.Proof.DegReal

set_option maxRecDepth 16384

noncomputable section

namespace Cert.KernelIdeal.KVal

open Cert.KernelIdeal
open Idealize.ShloMosaic Idealize.ShloMosaic.TcCoe Idealize.ShloMosaic.ValueIdx Idealize.SL.Sem
open Cert.RealValued Cert.RealArrays Cert.Sage

/-- A transposed matrix has the entries of the matrix. -/
theorem allReal_tr128 (w : Arr2 128 128) (hw : AllReal w) : AllReal (tr128 w) := fun _ => hw _
theorem allReal_tr64 (w : Arr2 64 128) (hw : AllReal w) : AllReal (tr64 w) := fun _ => hw _

/-- Rows of a real table added up are real. -/
theorem aggI_real {C : ℕ} (dst src : IVec ⟨2, ![600000, 1]⟩ 32) (h : Arr2 100000 C) (hh : AllReal h) :
    AllReal (aggI (N := 100000) (by decide) dst src h) :=
  agg_real _ _ h hh

/-- The degree column is real and nowhere zero. -/
theorem degOk (idx : IVec S600000x1 32) : DegOk (degOf idx) := Cert.KernelIdeal.DegReal.degOk idx

variable (m : (ℓ : Loc nD τ sig) → Buf (Elt Ideal) ℓ) (c : Dev nD)

theorem hid1_real (h0 : AllReal (m ((c : Thread nD τ).loc main_arg0))) (h2 : AllReal (m ((c : Thread nD τ).loc main_arg2))) (h3 : AllReal (m ((c : Thread nD τ).loc main_arg3))) (h4 : AllReal (m ((c : Thread nD τ).loc main_arg4))) :
    AllReal (hid1 m c) := by
  unfold hid1
  rw [aggT128_eq]
  exact layer_real _ _ _ _ _ _ h0 (aggI_real _ _ _ h0) (degOk _) (allReal_tr128 _ h2) h3 (allReal_tr128 _ h4)

theorem hid2_real (h0 : AllReal (m ((c : Thread nD τ).loc main_arg0))) (h2 : AllReal (m ((c : Thread nD τ).loc main_arg2))) (h3 : AllReal (m ((c : Thread nD τ).loc main_arg3))) (h4 : AllReal (m ((c : Thread nD τ).loc main_arg4)))
    (h5 : AllReal (m ((c : Thread nD τ).loc main_arg5))) (h6 : AllReal (m ((c : Thread nD τ).loc main_arg6))) (h7 : AllReal (m ((c : Thread nD τ).loc main_arg7))) : AllReal (hid2 m c) := by
  have r1 := hid1_real m c h0 h2 h3 h4
  unfold hid2
  rw [aggT128_eq]
  exact layer_real _ _ _ _ _ _ r1 (aggI_real _ _ _ r1) (degOk _) (allReal_tr128 _ h5) h6 (allReal_tr128 _ h7)

/-- The kernel's result, with the last layer's left weights moved behind the aggregation. -/
theorem out3_eq (h0 : AllReal (m ((c : Thread nD τ).loc main_arg0))) (h2 : AllReal (m ((c : Thread nD τ).loc main_arg2))) (h3 : AllReal (m ((c : Thread nD τ).loc main_arg3))) (h4 : AllReal (m ((c : Thread nD τ).loc main_arg4)))
    (h5 : AllReal (m ((c : Thread nD τ).loc main_arg5))) (h6 : AllReal (m ((c : Thread nD τ).loc main_arg6))) (h7 : AllReal (m ((c : Thread nD τ).loc main_arg7))) (h8 : AllReal (m ((c : Thread nD τ).loc main_arg8))) :
    out3 m c = lin (hid2 m c) (aggI (by decide) (dstCol (m ((c : Thread nD τ).loc main_arg1))) (srcCol (m ((c : Thread nD τ).loc main_arg1))) (hid2 m c)) (degOf (dstCol (m ((c : Thread nD τ).loc main_arg1)))) (tr64 (m ((c : Thread nD τ).loc main_arg8))) (m ((c : Thread nD τ).loc main_arg9)) (tr64 (m ((c : Thread nD τ).loc main_arg10))) := by
  unfold out3 prj2
  rw [aggT64_eq]
  exact fin_agg_proj _ _ _ _ _ _ _ (hid2_real m c h0 h2 h3 h4 h5 h6 h7) (degOk _) (allReal_tr64 _ h8)

/-- The second layer with the aggregations spelt as sums over the edges. -/
theorem hid2_eq : hid2 m c = layer (layer (m ((c : Thread nD τ).loc main_arg0)) (aggI (by decide) (dstCol (m ((c : Thread nD τ).loc main_arg1))) (srcCol (m ((c : Thread nD τ).loc main_arg1))) (m ((c : Thread nD τ).loc main_arg0))) (degOf (dstCol (m ((c : Thread nD τ).loc main_arg1)))) (tr128 (m ((c : Thread nD τ).loc main_arg2))) (m ((c : Thread nD τ).loc main_arg3)) (tr128 (m ((c : Thread nD τ).loc main_arg4))))
      (aggI (by decide) (dstCol (m ((c : Thread nD τ).loc main_arg1))) (srcCol (m ((c : Thread nD τ).loc main_arg1))) (layer (m ((c : Thread nD τ).loc main_arg0)) (aggI (by decide) (dstCol (m ((c : Thread nD τ).loc main_arg1))) (srcCol (m ((c : Thread nD τ).loc main_arg1))) (m ((c : Thread nD τ).loc main_arg0))) (degOf (dstCol (m ((c : Thread nD τ).loc main_arg1)))) (tr128 (m ((c : Thread nD τ).loc main_arg2))) (m ((c : Thread nD τ).loc main_arg3)) (tr128 (m ((c : Thread nD τ).loc main_arg4)))))
      (degOf (dstCol (m ((c : Thread nD τ).loc main_arg1)))) (tr128 (m ((c : Thread nD τ).loc main_arg5))) (m ((c : Thread nD τ).loc main_arg6)) (tr128 (m ((c : Thread nD τ).loc main_arg7))) := by
  unfold hid2 hid1
  rw [aggT128_eq, aggT128_eq]

end Cert.KernelIdeal.KVal

end
-- ==== Proof.RVal.lean ====
/-
  The reference side, value by value: the idealized reference program's result is the three-layer mean-aggregation
  network of the specification.

  The program takes the source and the target column of the edge list (a negative source word wrapped by the number of
  nodes), and in each layer scatter-adds, at the target column, the rows of the current feature table gathered at the
  source column; divides by the in-degree floored at one; sends the quotient through the left weights, adds the bias,
  and adds the node's own features through the right weights; the first two layers are floored at zero.

  Three generic facts carry the proof.  A host matrix product of rows times columns read at an entry is the
  contraction over the shared axis.  A column broadcast along the rows, and a vector laid out as one row and repeated
  down the rows, read at an entry are the column's, respectively the vector's, entry.  With these the host term of a
  layer is, entry by entry, `lin` of the specification, and floored at a table of zeros it is `layer`.  The
  scatter-add of gathered rows into zeros is the aggregation `aggI`.  The program's own stages then meet these terms
  by unfolding their definitions, layer after layer.
-/
import proofs.«120991_j39273180954945_2_alg».proof.Proof.Gen.ReferenceIdeal.Read
import proofs.«120991_j39273180954945_2_alg».proof.Proof.Spec
import proofs.«120991_j39273180954945_2_alg».proof.Proof.AggRead
import proofs.«120991_j39273180954945_2_alg».proof.Proof.LibMatmul

set_option maxRecDepth 16384

noncomputable section

namespace Cert.ReferenceIdeal.RVal

open Cert.ReferenceIdeal Cert.ReferenceIdeal.Gen Idealize.ShloMosaic Idealize.ShloMosaic.ValueIdx Idealize.ShloMosaic.TcCoe Idealize.SL.Sem Idealize.ShloMosaic.StableHlo
open Cert.MatmulAt
open scoped BigOperators

/-- A host matrix product of rows times columns, read at an entry, is the contraction over the shared axis. -/
theorem dot_plain_apply {M K N : ℕ} {φ₁ φ₂ : FTy}
    (wf : DotDims.WF ⟨2, ![M, K]⟩ ⟨2, ![K, N]⟩ ⟨2, ![M, N]⟩ [1] [0] [0] [1] [] [])
    (prec : Option ContractPrecision)
    (lhs : FVec Ideal ⟨2, ![M, K]⟩ φ₁) (rhs : FVec Ideal ⟨2, ![K, N]⟩ φ₂) (p : Fin M) (q : Fin N) :
    Host.dotGeneral (plainDims wf) prec lhs rhs (ix2 p q) = ∑ k : Fin K, lhs (ix2 p k) * rhs (ix2 k q) := by
  simp only [Host.dotGeneral]
  rw [Ideal.dotGeneral_apply, ← Equiv.sum_comp (contrEquiv1 (plainDims wf) K rfl rfl).symm]
  refine Finset.sum_congr rfl fun k _ => ?_
  have hk := contrEquiv1_symm_val (plainDims wf) K rfl rfl k
  have el : (plainDims wf).lhsIdx (ix2 p q) ((contrEquiv1 (plainDims wf) K rfl rfl).symm k) = ix2 p k :=
    funext fun a => Fin.ext (by
      match a with
      | ⟨0, _⟩ =>
        unfold DotDims.lhsIdx
        split
        · rename_i hb; exact absurd hb List.not_mem_nil
        · split
          · rfl
          · rename_i hn; exact absurd (List.mem_singleton_self _) hn
      | ⟨1, _⟩ => exact ((plainDims wf).lhsIdx_val_of_single rfl _ _).trans hk)
  have er : (plainDims wf).rhsIdx (ix2 p q) ((contrEquiv1 (plainDims wf) K rfl rfl).symm k) = ix2 k q :=
    funext fun a => Fin.ext (by
      match a with
      | ⟨0, _⟩ => exact ((plainDims wf).rhsIdx_val_of_single rfl _ _).trans hk
      | ⟨1, _⟩ =>
        unfold DotDims.rhsIdx
        split
        · rename_i hb; exact absurd hb List.not_mem_nil
        · split
          · rfl
          · rename_i hn; exact absurd (List.mem_singleton_self _) hn)
  rw [el, er]

/-- A column broadcast along the rows: entry `(n, k)` of the broadcast is entry `(n, 0)` of the column. -/
theorem bcast_col_apply {α : Type} {N K : ℕ}
    (hb : (⟨2, ![N, 1]⟩ : Shape).BroadcastsInDim ⟨2, ![N, K]⟩ (![0, 1] : Fin 2 → Fin (⟨2, ![N, K]⟩ : Shape).rank))
    (d : (⟨2, ![N, 1]⟩ : Shape).Idx → α) (n : Fin N) (k : Fin K) :
    broadcastInDim ⟨2, ![N, K]⟩ ![0, 1] hb d (ix2 n k) = d (ix2 n (0 : Fin 1)) :=
  broadcastInDim_apply _ hb d (ix2 n k) (ix2 n (0 : Fin 1)) (fun a => match a with
    | ⟨0, _⟩ => by
      show n.val = if N = 1 then 0 else n.val
      have := n.isLt
      split <;> omega
    | ⟨1, _⟩ => by show 0 = if (1 : Nat) = 1 then 0 else k.val; rw [if_pos rfl])

/-- A vector laid out as one row and repeated down the rows: entry `(n, j)` is entry `j` of the vector. -/
theorem bcast_row_apply {α : Type} {N C : ℕ}
    (hb2 : (⟨1, ![C]⟩ : Shape).BroadcastsInDim ⟨2, ![1, C]⟩ (![1] : Fin 1 → Fin (⟨2, ![1, C]⟩ : Shape).rank))
    (hb3 : (⟨2, ![1, C]⟩ : Shape).BroadcastsInDim ⟨2, ![N, C]⟩ (![0, 1] : Fin 2 → Fin (⟨2, ![N, C]⟩ : Shape).rank))
    (b : (⟨1, ![C]⟩ : Shape).Idx → α) (n : Fin N) (j : Fin C) :
    broadcastInDim ⟨2, ![N, C]⟩ ![0, 1] hb3 (broadcastInDim ⟨2, ![1, C]⟩ ![1] hb2 b) (ix2 n j) = b (ix1 j) := by
  refine (broadcastInDim_apply _ hb3 _ (ix2 n j) (ix2 (0 : Fin 1) j) (fun a => match a with
    | ⟨0, _⟩ => by show 0 = if (1 : Nat) = 1 then 0 else n.val; rw [if_pos rfl]
    | ⟨1, _⟩ => by
      show j.val = if C = 1 then 0 else j.val
      have := j.isLt
      split <;> omega)).trans ?_
  exact broadcastInDim_apply _ hb2 b (ix2 (0 : Fin 1) j) (ix1 j) (fun a => match a with
    | ⟨0, _⟩ => by
      show j.val = if C = 1 then 0 else j.val
      have := j.isLt
      split <;> omega)

section Layer
variable {N K C : ℕ}
  (wfd : DotDims.WF ⟨2, ![N, K]⟩ ⟨2, ![K, C]⟩ ⟨2, ![N, C]⟩ [1] [0] [0] [1] [] [])
  (hb1 : (⟨2, ![N, 1]⟩ : Shape).BroadcastsInDim ⟨2, ![N, K]⟩ (![0, 1] : Fin 2 → Fin (⟨2, ![N, K]⟩ : Shape).rank))
  (hb2 : (⟨1, ![C]⟩ : Shape).BroadcastsInDim ⟨2, ![1, C]⟩ (![1] : Fin 1 → Fin (⟨2, ![1, C]⟩ : Shape).rank))
  (hb3 : (⟨2, ![1, C]⟩ : Shape).BroadcastsInDim ⟨2, ![N, C]⟩ (![0, 1] : Fin 2 → Fin (⟨2, ![N, C]⟩ : Shape).rank))
  (hb0 : (⟨0, ![]⟩ : Shape).BroadcastsInDim ⟨2, ![N, C]⟩ (![] : Fin 0 → Fin (⟨2, ![N, C]⟩ : Shape).rank))
  (h ms : FVec Ideal ⟨2, ![N, K]⟩ .f32) (d : FVec Ideal ⟨2, ![N, 1]⟩ .f32)
  (wl wr : FVec Ideal ⟨2, ![K, C]⟩ .f32) (bl : FVec Ideal ⟨1, ![C]⟩ .f32)

/-- The host's term of one layer before its activation. -/
def linTerm : FVec Ideal ⟨2, ![N, C]⟩ .f32 :=
  addf (addf (Host.dotGeneral (plainDims wfd) none (Host.divf ms (broadcastInDim ⟨2, ![N, K]⟩ ![0, 1] hb1 d)) wl)
      (broadcastInDim ⟨2, ![N, C]⟩ ![0, 1] hb3 (broadcastInDim ⟨2, ![1, C]⟩ ![1] hb2 bl)))
    (Host.dotGeneral (plainDims wfd) none h wr)

/-- The host's term of one layer is the layer of the specification, entry by entry. -/
theorem linTerm_eq : linTerm wfd hb1 hb2 hb3 h ms d wl wr bl = Cert.Sage.lin h ms d wl bl wr := by
  refine Cert.Sage.ext2 fun n j => ?_
  show (Host.dotGeneral (plainDims wfd) none (Host.divf ms (broadcastInDim ⟨2, ![N, K]⟩ ![0, 1] hb1 d)) wl (ix2 n j)
        + broadcastInDim ⟨2, ![N, C]⟩ ![0, 1] hb3 (broadcastInDim ⟨2, ![1, C]⟩ ![1] hb2 bl) (ix2 n j))
      + Host.dotGeneral (plainDims wfd) none h wr (ix2 n j) = Cert.Sage.linAt h ms d wl bl wr n j
  rw [dot_plain_apply, dot_plain_apply, bcast_row_apply]
  unfold Cert.Sage.linAt
  refine congrArg (fun t => t + bl (ix1 j) + ∑ k : Fin K, h (ix2 n k) * wr (ix2 k j)) ?_
  refine Finset.sum_congr rfl fun k _ => ?_
  show Ideal.div (ms (ix2 n k)) (broadcastInDim ⟨2, ![N, K]⟩ ![0, 1] hb1 d (ix2 n k)) * wl (ix2 k j) = _
  rw [bcast_col_apply]

/-- Flooring the layer's term at a table of zeros gives the activated layer. -/
theorem reluTerm_eq :
    maximumf (linTerm wfd hb1 hb2 hb3 h ms d wl wr bl)
        (broadcastInDim ⟨2, ![N, C]⟩ ![] hb0 (constant (F := Ideal) ⟨0, ![]⟩ .f32 0x00000000#32))
      = Cert.Sage.layer h ms d wl bl wr := by
  rw [linTerm_eq]
  refine Cert.Sage.ext2 fun n j => ?_
  show max (Cert.Sage.linAt h ms d wl bl wr n j) (Ideal.ofBits .f32 0x00000000#32) = max (Cert.Sage.linAt h ms d wl bl wr n j) 0
  rw [Ideal.ofBits_zero_f32]

end Layer

section Columns
variable (x1 : (⟨S2x600000, .i32⟩ : BufTy).Contents (Elt Ideal))

/-- The source column of the edge list: a negative word wrapped by the number of nodes. -/
def srcCol : IVec S600000x1 32 := Read.val_main_v9 (F := Ideal) x1
/-- The target column of the edge list. -/
def dstCol : IVec S600000x1 32 := Read.val_main_v12 (F := Ideal) x1
/-- The in-degree of every node, floored at one, as a column. -/
def deg : FVec Ideal S100000x1 .f32 := Read.val_main_v20 (F := Ideal) x1

theorem dstCol_eq16 : Read.val_main_v16 (F := Ideal) x1 = dstCol x1 := rfl
theorem dstCol_eq40 : Read.val_main_v40 (F := Ideal) x1 = dstCol x1 := rfl
theorem dstCol_eq44 : Read.val_main_v44 (F := Ideal) x1 = dstCol x1 := rfl
theorem dstCol_eq68 : Read.val_main_v68 (F := Ideal) x1 = dstCol x1 := rfl
theorem dstCol_eq72 : Read.val_main_v72 (F := Ideal) x1 = dstCol x1 := rfl
theorem srcCol_eq37 : Read.val_main_v37 (F := Ideal) x1 = srcCol x1 := rfl
theorem srcCol_eq65 : Read.val_main_v65 (F := Ideal) x1 = srcCol x1 := rfl
theorem deg_eq48 : Read.val_main_v48 (F := Ideal) x1 = deg x1 := rfl
theorem deg_eq76 : Read.val_main_v76 (F := Ideal) x1 = deg x1 := rfl

end Columns

/-- Scatter-adding into a table of zeros, at the target column, the rows gathered at the source column is the
    aggregation of the specification. -/
theorem aggTerm_eq (dst src : IVec S600000x1 32) (h : FVec Ideal S100000x128 .f32) :
    Host.scatterAdd scatter_S100000x128_S600000x1_S600000x128_1_0_0_1
        (broadcastInDim S100000x128 ![] bcast_S_S100000x128 (constant (F := Ideal) S_ .f32 0x00000000#32)) dst
        (Host.gather gather_S100000x128_S600000x1_S600000x128_1_0_n_n_0_1_1128 h src)
      = Cert.Sage.aggI (by decide) dst src h :=
  Cert.Sage.scatter_gather_rows _ scatter_S100000x128_S600000x1_S600000x128_1_0_0_1.wf
    gather_S100000x128_S600000x1_S600000x128_1_0_n_n_0_1_1128.wf _ (fun _ => Ideal.ofBits_zero_f32) dst src h

section Main
variable (x0 : (⟨S100000x128, .f32⟩ : BufTy).Contents (Elt Ideal)) (x1 : (⟨S2x600000, .i32⟩ : BufTy).Contents (Elt Ideal))
  (x2 : (⟨S128x128, .f32⟩ : BufTy).Contents (Elt Ideal)) (x3 : (⟨S128, .f32⟩ : BufTy).Contents (Elt Ideal))
  (x4 x5 : (⟨S128x128, .f32⟩ : BufTy).Contents (Elt Ideal)) (x6 : (⟨S128, .f32⟩ : BufTy).Contents (Elt Ideal))
  (x7 : (⟨S128x128, .f32⟩ : BufTy).Contents (Elt Ideal)) (x8 : (⟨S64x128, .f32⟩ : BufTy).Contents (Elt Ideal))
  (x9 : (⟨S64, .f32⟩ : BufTy).Contents (Elt Ideal)) (x10 : (⟨S64x128, .f32⟩ : BufTy).Contents (Elt Ideal))

/-- The node features after the first layer. -/
def h1 : Cert.Sage.Arr2 100000 128 :=
  Cert.Sage.layer x0 (Cert.Sage.aggI (by decide) (dstCol x1) (srcCol x1) x0) (deg x1)
    (Read.val_main_v23 (F := Ideal) x2) x3 (Read.val_main_v28 (F := Ideal) x4)

/-- The node features after the second layer. -/
def h2 : Cert.Sage.Arr2 100000 128 :=
  Cert.Sage.layer (h1 x0 x1 x2 x3 x4) (Cert.Sage.aggI (by decide) (dstCol x1) (srcCol x1) (h1 x0 x1 x2 x3 x4)) (deg x1)
    (Read.val_main_v51 (F := Ideal) x5) x6 (Read.val_main_v56 (F := Ideal) x7)

theorem v13_eq : Read.val_main_v13 (F := Ideal) x0 x1 = Cert.Sage.aggI (by decide) (dstCol x1) (srcCol x1) x0 :=
  aggTerm_eq (dstCol x1) (srcCol x1) x0

theorem v31_eq : Read.val_main_v31 (F := Ideal) x0 x1 x2 x3 x4 = h1 x0 x1 x2 x3 x4 := by
  unfold h1
  rw [← v13_eq]
  exact reluTerm_eq dot_S100000x128_S128x128_S100000x128_1_0_0_1_n_n.wf bcast_S100000x1_S100000x128_0_1
    bcast_S128_S1x128_1 bcast_S1x128_S100000x128_0_1 bcast_S_S100000x128
    x0 (Read.val_main_v13 (F := Ideal) x0 x1) (deg x1) (Read.val_main_v23 (F := Ideal) x2) (Read.val_main_v28 (F := Ideal) x4) x3

theorem v41_eq : Read.val_main_v41 (F := Ideal) x0 x1 x2 x3 x4
    = Cert.Sage.aggI (by decide) (dstCol x1) (srcCol x1) (h1 x0 x1 x2 x3 x4) :=
  (aggTerm_eq (dstCol x1) (srcCol x1) (Read.val_main_v31 (F := Ideal) x0 x1 x2 x3 x4)).trans
    (congrArg (Cert.Sage.aggI (by decide) (dstCol x1) (srcCol x1)) (v31_eq x0 x1 x2 x3 x4))

theorem v59_eq : Read.val_main_v59 (F := Ideal) x0 x1 x2 x3 x4 x5 x6 x7 = h2 x0 x1 x2 x3 x4 x5 x6 x7 := by
  unfold h2
  rw [← v41_eq, ← v31_eq]
  exact reluTerm_eq dot_S100000x128_S128x128_S100000x128_1_0_0_1_n_n.wf bcast_S100000x1_S100000x128_0_1
    bcast_S128_S1x128_1 bcast_S1x128_S100000x128_0_1 bcast_S_S100000x128
    (Read.val_main_v31 (F := Ideal) x0 x1 x2 x3 x4) (Read.val_main_v41 (F := Ideal) x0 x1 x2 x3 x4) (deg x1)
    (Read.val_main_v51 (F := Ideal) x5) (Read.val_main_v56 (F := Ideal) x7) x6

theorem v69_eq : Read.val_main_v69 (F := Ideal) x0 x1 x2 x3 x4 x5 x6 x7
    = Cert.Sage.aggI (by decide) (dstCol x1) (srcCol x1) (h2 x0 x1 x2 x3 x4 x5 x6 x7) :=
  (aggTerm_eq (dstCol x1) (srcCol x1) (Read.val_main_v59 (F := Ideal) x0 x1 x2 x3 x4 x5 x6 x7)).trans
    (congrArg (Cert.Sage.aggI (by decide) (dstCol x1) (srcCol x1)) (v59_eq x0 x1 x2 x3 x4 x5 x6 x7))

theorem result_eq : Read.val_main_v86 (F := Ideal) x0 x1 x2 x3 x4 x5 x6 x7 x8 x9 x10
    = Cert.Sage.lin (h2 x0 x1 x2 x3 x4 x5 x6 x7)
        (Cert.Sage.aggI (by decide) (dstCol x1) (srcCol x1) (h2 x0 x1 x2 x3 x4 x5 x6 x7)) (deg x1)
        (Read.val_main_v79 (F := Ideal) x8) x9 (Read.val_main_v84 (F := Ideal) x10) := by
  rw [← v69_eq, ← v59_eq]
  exact linTerm_eq dot_S100000x128_S128x64_S100000x64_1_0_0_1_n_n.wf bcast_S100000x1_S100000x128_0_1
    bcast_S64_S1x64_1 bcast_S1x64_S100000x64_0_1
    (Read.val_main_v59 (F := Ideal) x0 x1 x2 x3 x4 x5 x6 x7) (Read.val_main_v69 (F := Ideal) x0 x1 x2 x3 x4 x5 x6 x7) (deg x1)
    (Read.val_main_v79 (F := Ideal) x8) (Read.val_main_v84 (F := Ideal) x10) x9

end Main

end Cert.ReferenceIdeal.RVal

end
-- ==== Proof.Bridge.lean ====
/-
  The two programs name the same arrays: the edge list's two columns, the degree column and the transposed weight
  matrices are the same host operations of the same arguments in the kernel's host code and in the reference, so the
  kernel's result — with its last left weights moved behind the aggregation — is the reference's result term.
-/
import proofs.«120991_j39273180954945_2_alg».proof.Proof.KLaw
import proofs.«120991_j39273180954945_2_alg».proof.Proof.RVal

set_option maxRecDepth 16384

noncomputable section

namespace Cert.Bridge

open Idealize.ShloMosaic Idealize.ShloMosaic.TcCoe Idealize.ShloMosaic.ValueIdx Idealize.SL.Sem
open Cert.RealValued Cert.RealArrays Cert.Sage
open Cert.KernelIdeal.KVal Cert.ReferenceIdeal

theorem srcCol_eq (x1 : IVec ⟨2, ![2, 600000]⟩ 32) : srcCol x1 = RVal.srcCol x1 := rfl
theorem dstCol_eq (x1 : IVec ⟨2, ![2, 600000]⟩ 32) : dstCol x1 = RVal.dstCol x1 := rfl
theorem deg_eq (x1 : IVec ⟨2, ![2, 600000]⟩ 32) : degOf (dstCol x1) = RVal.deg x1 := rfl
theorem tr_eq23 (w : Arr2 128 128) : tr128 w = Read.val_main_v23 (F := Ideal) w := rfl
theorem tr_eq28 (w : Arr2 128 128) : tr128 w = Read.val_main_v28 (F := Ideal) w := rfl
theorem tr_eq51 (w : Arr2 128 128) : tr128 w = Read.val_main_v51 (F := Ideal) w := rfl
theorem tr_eq56 (w : Arr2 128 128) : tr128 w = Read.val_main_v56 (F := Ideal) w := rfl
theorem tr_eq79 (w : Arr2 64 128) : tr64 w = Read.val_main_v79 (F := Ideal) w := rfl
theorem tr_eq84 (w : Arr2 64 128) : tr64 w = Read.val_main_v84 (F := Ideal) w := rfl

/-- The kernel's result is the reference's result term of the same argument arrays, when the float arguments are real. -/
theorem result_eq (m : (ℓ : Loc Cert.KernelIdeal.nD Cert.KernelIdeal.τ Cert.KernelIdeal.sig) → Buf (Elt Ideal) ℓ) (c : Dev Cert.KernelIdeal.nD)
    (h0 : AllReal (m ((c.tc : Thread Cert.KernelIdeal.nD Cert.KernelIdeal.τ).loc Cert.KernelIdeal.main_arg0))) (h2 : AllReal (m ((c.tc : Thread Cert.KernelIdeal.nD Cert.KernelIdeal.τ).loc Cert.KernelIdeal.main_arg2))) (h3 : AllReal (m ((c.tc : Thread Cert.KernelIdeal.nD Cert.KernelIdeal.τ).loc Cert.KernelIdeal.main_arg3))) (h4 : AllReal (m ((c.tc : Thread Cert.KernelIdeal.nD Cert.KernelIdeal.τ).loc Cert.KernelIdeal.main_arg4)))
    (h5 : AllReal (m ((c.tc : Thread Cert.KernelIdeal.nD Cert.KernelIdeal.τ).loc Cert.KernelIdeal.main_arg5))) (h6 : AllReal (m ((c.tc : Thread Cert.KernelIdeal.nD Cert.KernelIdeal.τ).loc Cert.KernelIdeal.main_arg6))) (h7 : AllReal (m ((c.tc : Thread Cert.KernelIdeal.nD Cert.KernelIdeal.τ).loc Cert.KernelIdeal.main_arg7))) (h8 : AllReal (m ((c.tc : Thread Cert.KernelIdeal.nD Cert.KernelIdeal.τ).loc Cert.KernelIdeal.main_arg8))) :
    out3 m c = Read.val_main_v86 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) := by
  rw [out3_eq m c h0 h2 h3 h4 h5 h6 h7 h8, hid2_eq m c, RVal.result_eq]
  unfold RVal.h2 RVal.h1
  rw [deg_eq, srcCol_eq, dstCol_eq, tr_eq23 (m ((c.tc : Thread Cert.KernelIdeal.nD Cert.KernelIdeal.τ).loc Cert.KernelIdeal.main_arg2)), tr_eq28 (m ((c.tc : Thread Cert.KernelIdeal.nD Cert.KernelIdeal.τ).loc Cert.KernelIdeal.main_arg4)), tr_eq51 (m ((c.tc : Thread Cert.KernelIdeal.nD Cert.KernelIdeal.τ).loc Cert.KernelIdeal.main_arg5)), tr_eq56 (m ((c.tc : Thread Cert.KernelIdeal.nD Cert.KernelIdeal.τ).loc Cert.KernelIdeal.main_arg7)), tr_eq79 (m ((c.tc : Thread Cert.KernelIdeal.nD Cert.KernelIdeal.τ).loc Cert.KernelIdeal.main_arg8)), tr_eq84 (m ((c.tc : Thread Cert.KernelIdeal.nD Cert.KernelIdeal.τ).loc Cert.KernelIdeal.main_arg10))]

end Cert.Bridge

end
-- ==== Proof.lean ====
/-
  Three layers of a mean-aggregation graph network: a tiled kernel against the plain formulation.

  Every layer gives a node the mean of its in-neighbours' rows through one weight matrix, plus a bias, plus the node's
  own row through another; the first two layers are floored at zero.  The kernel computes each layer's dense part on
  blocks of 4000 nodes and, for the last layer, applies the left weights BEFORE the neighbours' rows are gathered and
  added up, where the reference applies them after.  On the extended reals the two orders agree because every entry in
  play is a real number: the precondition makes the arguments real, real entries stay real through every layer, and the
  degree by which the sums are divided — ones added up, floored at one — is a real at least one.

  The pieces: the regions' values block by block (KReg0, KReg1, KReg2), the walk through the host code between the
  regions (KVal1), the kernel's run with its result named (KRun), the law (Spec, KLaw), the reference's run read as the
  same layers (RVal), and the identification of the two programs' host terms (Bridge).  The ideal pass rewrote nothing,
  so the preservation claim is trivial.
-/
import proofs.«120991_j39273180954945_2_alg».proof.Defs
import proofs.«120991_j39273180954945_2_alg».proof.Proof.Gen.Kernel
import proofs.«120991_j39273180954945_2_alg».proof.Proof.Gen.KernelIdeal
import proofs.«120991_j39273180954945_2_alg».proof.Proof.Gen.ReferenceIdeal
import proofs.«120991_j39273180954945_2_alg».proof.Proof.Gen.Pre_finite_inputs
import proofs.«120991_j39273180954945_2_alg».proof.Proof.Gen.ReferenceIdeal.Run
import proofs.«120991_j39273180954945_2_alg».proof.Proof.Gen.ReferenceIdeal.Read
import proofs.«120991_j39273180954945_2_alg».proof.Proof.FrameKernelP
import proofs.«120991_j39273180954945_2_alg».proof.Proof.FrameKernelIdealP
import proofs.«120991_j39273180954945_2_alg».proof.Proof.KRun
import proofs.«120991_j39273180954945_2_alg».proof.Proof.KVal1
import proofs.«120991_j39273180954945_2_alg».proof.Proof.KReg0
import proofs.«120991_j39273180954945_2_alg».proof.Proof.KReg1
import proofs.«120991_j39273180954945_2_alg».proof.Proof.KReg1b
import proofs.«120991_j39273180954945_2_alg».proof.Proof.KReg2
import proofs.«120991_j39273180954945_2_alg».proof.Proof.PreReal
import proofs.«120991_j39273180954945_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_k : Cert.frame_Kernel := fun m ρ _ => Cert.Kernel.Gen.frame m ρ
/-- So does the idealized kernel program. -/
theorem frame_ki : Cert.frame_KernelIdeal := fun m ρ _ => Cert.KernelIdeal.Gen.frame m ρ
/-- The reference is host code only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the same array: the kernel's last layer, which the law and the walk through its
    host code identify with the reference's result term of the same arguments. -/
theorem algebraic : Cert.algebraic_KernelIdeal_ReferenceIdeal := by
  intro m ρ m' ρ' hpre hagree
  refine ⟨fun c => Cert.KernelIdeal.KVal.out3 m c, ?_, ?_⟩
  · exact (θ_run Cert.KernelIdeal.defs _ _).mono
      (fun r h c => ⟨(h c).1.trans (Cert.KernelIdeal.KVal.result m ρ c
          (fun V c => Cert.KernelIdeal.KReg.final0_6 V c) (fun V c => Cert.KernelIdeal.KReg.final1_7 V c)
          (fun V c => Cert.KernelIdeal.KReg.final1_8 V c) (fun V c => Cert.KernelIdeal.KReg.final2_5 V c)), (h c).2⟩)
      (Cert.KernelIdeal.KRun.run (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h2, h3, h4, h5, h6, h7, h8, -, -⟩ := Cert.KernelIdeal.PreReal.allReal_of_pre m hpre c
    obtain ⟨e0, e1, e2, e3, e4, e5, e6, e7, e8, e9, e10⟩ := hagree c
    rw [Cert.ReferenceIdeal.Read.val_main_v86_eq, e0, e1, e2, e3, e4, e5, e6, e7, e8, e9, e10]
    exact (Cert.Bridge.result_eq m c h0 h2 h3 h4 h5 h6 h7 h8).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
